-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S2048x512 : Shape := ⟨2, ![2048, 512]⟩
abbrev S512x512 : Shape := ⟨2, ![512, 512]⟩
abbrev S2048x1 : Shape := ⟨2, ![2048, 1]⟩
abbrev S1x512 : Shape := ⟨2, ![1, 512]⟩
abbrev S2048x128 : Shape := ⟨2, ![2048, 128]⟩
abbrev S2048x4x128 : Shape := ⟨3, ![2048, 4, 128]⟩
abbrev S2048 : Shape := ⟨1, ![2048]⟩

abbrev nBuf : Space → Nat
  | .hbm => 39
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x512, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S1x8192, .f32⟩
  | .hbm, ⟨16, _⟩ => ⟨S8192x512, .bf16⟩
  | .hbm, ⟨17, _⟩ => ⟨S8192x1, .f32⟩
  | .hbm, ⟨18, _⟩ => ⟨S8192x512, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S1x8192, .f32⟩
  | .hbm, ⟨23, _⟩ => ⟨S8192x512, .bf16⟩
  | .hbm, ⟨24, _⟩ => ⟨S8192x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S512x512, .bf16⟩
  | .local _ .vmem, ⟨4, _⟩ => ⟨S2048x1, .f32⟩
  | .local _ .vmem, ⟨5, _⟩ => ⟨S2048x1, .f32⟩
  | .local _ .vmem, ⟨6, _⟩ => ⟨S1x512, .f32⟩
  | .local _ .vmem, ⟨7, _⟩ => ⟨S1x512, .f32⟩
  | .local _ .vmem, ⟨8, _⟩ => ⟨S2048x1, .f32⟩
  | .local _ .vmem, ⟨9, _⟩ => ⟨S2048x1, .f32⟩
  | .local _ .vmem, ⟨10, _⟩ => ⟨S2048x128, .f32⟩
  | .local _ .vmem, ⟨11, _⟩ => ⟨S2048x512, .bf16⟩
  | .local _ .vmem, ⟨12, _⟩ => ⟨S2048x512, .bf16⟩
  | .local _ .vmem, ⟨13, _⟩ => ⟨S512x512, .bf16⟩
  | .local _ .vmem, ⟨14, _⟩ => ⟨S512x512, .bf16⟩
  | .local _ .vmem, ⟨15, _⟩ => ⟨S2048x1, .f32⟩
  | .local _ .vmem, ⟨16, _⟩ => ⟨S2048x1, .f32⟩
  | .local _ .vmem, ⟨17, _⟩ => ⟨S1x512, .f32⟩
  | .local _ .vmem, ⟨18, _⟩ => ⟨S1x512, .f32⟩
  | .local _ .vmem, ⟨19, _⟩ => ⟨S2048x1, .f32⟩
  | .local _ .vmem, ⟨20, _⟩ => ⟨S2048x1, .f32⟩
  | .local _ .vmem, ⟨21, _⟩ => ⟨S2048x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v44 : BitVec 1 := Scalar.cmpi .eq arg1 c15_i32
  let v45 : BitVec 32 := Scalar.extui v44
  let c0_i32_17 : BitVec 32 := 0#32
  let v46 : BitVec 1 := Scalar.cmpi .ne v45 c0_i32_17
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v44 : BitVec 1 := Scalar.cmpi .eq arg1 c15_i32
  let v45 : BitVec 32 := Scalar.extui v44
  let c0_i32_17 : BitVec 32 := 0#32
  let v46 : BitVec 1 := Scalar.cmpi .ne v45 c0_i32_17
  v46

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S2048x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  reducesTo_S8192x512_S8192_d1 : S8192x512.ReducesTo [1] S8192
  h_S_ : 0 < S_.numel
  reducesTo_S8192_S_d0 : S8192.ReducesTo [0] S_
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  iota_S2048x1_d0_w32 : S2048x1.Iotas .tc 32 [0]
  iota_S1x512_d1_w32 : S1x512.Iotas .tc 32 [1]
  shapeCasts_S2048x512_S2048x4x128 : S2048x512.ShapeCasts S2048x4x128
  reduces_S2048x4x128_S2048x128 : S2048x4x128.Reduces [1] S2048x128
  reduces_S2048x128_S2048 : S2048x128.Reduces [1] S2048
  shapeCasts_S2048_S2048x1 : S2048.ShapeCasts S2048x1
  reducesTo_S8192x1_S_d0_1 : S8192x1.ReducesTo [0, 1] S_
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .bf16 = 32 ∨ (Rect.block (s := S8192x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .bf16 = 32 ∨ (Rect.block (s := S8192x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S8192x1.size a
  hwx0_4 : ∀ i : grid0.Coords, EltTy.bits .f32 = 32 ∨ (Rect.block (s := S8192x1) S2048x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x512.size a
  hwx1_0 : ∀ i : grid1.Coords, EltTy.bits .bf16 = 32 ∨ (Rect.block (s := S8192x512) S2048x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S8192x512.size a
  hwx1_1 : ∀ i : grid1.Coords, EltTy.bits .bf16 = 32 ∨ (Rect.block (s := S8192x512) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x8192.size a
  hwx1_3 : ∀ i : grid1.Coords, EltTy.bits .f32 = 32 ∨ (Rect.block (s := S1x8192) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1.size a ≤ S8192x1.size a
  hwx1_4 : ∀ i : grid1.Coords, EltTy.bits .f32 = 32 ∨ (Rect.block (s := S8192x1) S2048x1.size (cc1_transform_4 i) (hinb1_4 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v10) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v16) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v17) S2048x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S512x8192 : Shape := ⟨2, ![512, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 72
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S512x8192, .f32⟩
  | .hbm, ⟨16, _⟩ => ⟨S8192x8192, .f32⟩
  | .hbm, ⟨17, _⟩ => ⟨S8192x1, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192x512, .f32⟩
  | .hbm, ⟨41, _⟩ => ⟨S_, .f32⟩
  | .hbm, ⟨42, _⟩ => ⟨S8192, .f32⟩
  | .hbm, ⟨43, _⟩ => ⟨S512x8192, .f32⟩
  | .hbm, ⟨44, _⟩ => ⟨S8192x8192, .f32⟩
  | .hbm, ⟨45, _⟩ => ⟨S8192x1, .f32⟩
  | .hbm, ⟨46, _⟩ => ⟨S1x8192, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S8192x8192, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  reducesTo_S8192_S_d0 : S8192.ReducesTo [0] S_
  transposes_S8192x512_S512x8192_1_0 : S8192x512.Transposes [1, 0] S512x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.KRuns0.lean ====
/-
  The first pallas_call's body, run once per control case.

  A grid point is (a, b): a row block of 2048 rows and a column block of 512. The body keeps a [2048, 128] accumulator in
  scratch across the 16 column blocks of one row block: at b = 0 it is zeroed, at every b the partial sums of the point
  are added to it, and at b = 15 its lane sum is stored into the output block. So a point is in one of three cases:
  b = 0 (zeroed, then added to), 0 < b < 15 (added to), b = 15 (added to, then summed into the output).
-/
import proofs.«110430_j65850438582800_2_alg».proof.Proof.Gen.Kernel.Launch
import proofs.«110430_j65850438582800_2_alg».proof.Proof.Gen.Kernel.Skeleton
import proofs.«110430_j65850438582800_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The accumulator is zeroed: the column-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The output block is stored: the column-block coordinate is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

abbrev VO0_4 : View sig .tc .vmem S2048x1 .f32 := (Memref.whole cc0_stg4_0 : Memref sig .tc .vmem S2048x1 .f32).view
abbrev ms0_0 (t : Fin cfg0.N) : Memref sig .tc .vmem S2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S2048x128 .f32 := Memref.whole cc0_scratch0
abbrev VS0_0 : View sig .tc .vmem S2048x128 .f32 := scM0_0.view

/-! ## The body's run per case -/

set_option maxHeartbeats 4000000 in
/-- Column block 0: the accumulator, at anything, is zeroed and the point's partial sums added; the output block is left as found. -/
noncomputable def kernelRun0_A (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : cond0_0 i) (hc1 : ¬cond0_1 i)
    (x0 : Vec F S2048x512 .bf16) (x1 : Vec F S512x512 .bf16) (x2 : Vec F S2048x1 .f32) (x3 : Vec F S1x512 .f32) :
    { LS0 : List (View.Piece (Elt F) S2048x128 .f32) //
      ∀ (xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__pairwise_exp_sum_kernel i arg2 harg2 arg3 harg3 arg4 harg4 arg5 harg5 arg6 harg6 arg7 harg7) K } := by
  refine ⟨?_, fun xi4 E K => ?run⟩
  case run =>
    simp only [cc0__pairwise_exp_sum_kernel_eq_skeleton]; unfold cc0__pairwise_exp_sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- A column block strictly between the first and the last: the point's partial sums are added to the accumulator the point before left; the output block is left as found. -/
noncomputable def kernelRun0_B (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond0_0 i) (hc1 : ¬cond0_1 i)
    (x0 : Vec F S2048x512 .bf16) (x1 : Vec F S512x512 .bf16) (x2 : Vec F S2048x1 .f32) (x3 : Vec F S1x512 .f32) (xs0 : Vec F S2048x128 .f32) :
    { LS0 : List (View.Piece (Elt F) S2048x128 .f32) //
      ∀ (xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__pairwise_exp_sum_kernel i arg2 harg2 arg3 harg3 arg4 harg4 arg5 harg5 arg6 harg6 arg7 harg7) K } := by
  refine ⟨?_, fun xi4 E K => ?run⟩
  case run =>
    simp only [cc0__pairwise_exp_sum_kernel_eq_skeleton]; unfold cc0__pairwise_exp_sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Column block 15: the point's partial sums are added to the accumulator, and its lane sums stored over the whole output block, found at anything. -/
noncomputable def kernelRun0_C (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond0_0 i) (hc1 : cond0_1 i)
    (x0 : Vec F S2048x512 .bf16) (x1 : Vec F S512x512 .bf16) (x2 : Vec F S2048x1 .f32) (x3 : Vec F S1x512 .f32) (xs0 : Vec F S2048x128 .f32) :
    Σ' (L4 : List (View.Piece (Elt F) S2048x1 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__pairwise_exp_sum_kernel i arg2 harg2 arg3 harg3 arg4 harg4 arg5 harg5 arg6 harg6 arg7 harg7) K } := by
  refine ⟨?_, ?_, fun E K => ?run⟩
  case run =>
    simp only [cc0__pairwise_exp_sum_kernel_eq_skeleton]; unfold cc0__pairwise_exp_sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Fr

end
-- ==== Proof.KDat0.lean ====
/-
  The first pallas_call's proof data: what the accumulator and the output block hold after each grid point, and the body
  obligation at every point.

  After point (a, b) the accumulator holds the sum of the partial sums of the points (a, 0) … (a, b), started from zero at
  b = 0; the output block is stored at b = 15 only, as the accumulator's lane sums. The row block and the column block are
  two windows on ONE array, so each of the two holds half of the array's share.
-/
import proofs.«110430_j65850438582800_2_alg».proof.Proof.KRuns0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

theorem scover0_A (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : cond0_0 i) (hc1 : ¬cond0_1 i) (x0 : Vec F S2048x512 .bf16) (x1 : Vec F S512x512 .bf16) (x2 : Vec F S2048x1 .f32) (x3 : Vec F S1x512 .f32) (y : S2048x128.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S2048x128.size (by sl_kernel_rfl) y
/-- The accumulator after a point of column block 0. -/
def sout0_A (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : cond0_0 i) (hc1 : ¬cond0_1 i) (x0 : Vec F S2048x512 .bf16) (x1 : Vec F S512x512 .bf16) (x2 : Vec F S2048x1 .f32) (x3 : Vec F S1x512 .f32) : Vec F S2048x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).1)

theorem scover0_B (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond0_0 i) (hc1 : ¬cond0_1 i) (x0 : Vec F S2048x512 .bf16) (x1 : Vec F S512x512 .bf16) (x2 : Vec F S2048x1 .f32) (x3 : Vec F S1x512 .f32) (xs0 : Vec F S2048x128 .f32) (y : S2048x128.Idx) :
    ∃ pc ∈ (kernelRun0_B c i arg2 harg2 arg3 harg3 arg4 harg4 arg5 harg5 arg6 harg6 arg7 harg7 hc0 hc1 x0 x1 x2 x3 xs0).1, y ∈ pc.1.set :=
  View.cover_of_tiledL (kernelRun0_B c i arg2 harg2 arg3 harg3 arg4 harg4 arg5 harg5 arg6 harg6 arg7 harg7 hc0 hc1 x0 x1 x2 x3 xs0).1 S2048x128.size (by sl_kernel_rfl) y
/-- The accumulator after a point of a middle column block, over what the point before left. -/
def sout0_B (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond0_0 i) (hc1 : ¬cond0_1 i) (x0 : Vec F S2048x512 .bf16) (x1 : Vec F S512x512 .bf16) (x2 : Vec F S2048x1 .f32) (x3 : Vec F S1x512 .f32) (xs0 : Vec F S2048x128 .f32) : Vec F S2048x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).1)

theorem scover0_C (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond0_0 i) (hc1 : cond0_1 i) (x0 : Vec F S2048x512 .bf16) (x1 : Vec F S512x512 .bf16) (x2 : Vec F S2048x1 .f32) (x3 : Vec F S1x512 .f32) (xs0 : Vec F S2048x128 .f32) (y : S2048x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S2048x128.size (by sl_kernel_rfl) y
/-- The accumulator after a point of column block 15, over what the point before left. -/
def sout0_C (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond0_0 i) (hc1 : cond0_1 i) (x0 : Vec F S2048x512 .bf16) (x1 : Vec F S512x512 .bf16) (x2 : Vec F S2048x1 .f32) (x3 : Vec F S1x512 .f32) (xs0 : Vec F S2048x128 .f32) : Vec F S2048x128 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)
theorem cover0_C (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond0_0 i) (hc1 : cond0_1 i) (x0 : Vec F S2048x512 .bf16) (x1 : Vec F S512x512 .bf16) (x2 : Vec F S2048x1 .f32) (x3 : Vec F S1x512 .f32) (xs0 : Vec F S2048x128 .f32) (y : S2048x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S2048x1.size (by sl_kernel_rfl) y
/-- The output block after a point of column block 15. -/
def out0_C (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond0_0 i) (hc1 : cond0_1 i) (x0 : Vec F S2048x512 .bf16) (x1 : Vec F S512x512 .bf16) (x2 : Vec F S2048x1 .f32) (x3 : Vec F S1x512 .f32) (xs0 : Vec F S2048x128 .f32) : Vec F S2048x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-! ## The accumulator and the output block after each point -/

theorem excl0_a (t : Fin cfg0.N) (h : cond0_0 (grid0.coords t)) : ¬cond0_1 (grid0.coords t) := fun h' => by
  have a := (hcond0_0 t).mp h; have b := (hcond0_1 t).mp h'; omega
theorem excl0_b (t : Fin cfg0.N) (h : cond0_1 (grid0.coords t)) : ¬cond0_0 (grid0.coords t) := fun h' => excl0_a t h' h

/-- The accumulator after the body at position `n`, by recursion on the position. -/
def accAt0 (c : Dev nD) : (n : ℕ) → n < cfg0.N → Vec F S2048x128 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (excl0_a ⟨0, hn⟩ ((hcond0_0 ⟨0, hn⟩).mpr (Nat.zero_mod _))) (iblk0 V c 0 ⟨0, hn⟩) (iblk0 V c 1 ⟨0, hn⟩) (iblk0 V c 2 ⟨0, hn⟩) (iblk0 V c 3 ⟨0, hn⟩)
  | n + 1, hn =>
    if h0 : (n + 1) % 16 = 0 then
      sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (excl0_a ⟨n + 1, hn⟩ ((hcond0_0 ⟨n + 1, hn⟩).mpr h0)) (iblk0 V c 0 ⟨n + 1, hn⟩) (iblk0 V c 1 ⟨n + 1, hn⟩) (iblk0 V c 2 ⟨n + 1, hn⟩) (iblk0 V c 3 ⟨n + 1, hn⟩)
    else if h1 : (n + 1) % 16 = 15 then
      sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (accAt0 c n (Nat.lt_of_succ_lt hn))
    else
      sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (accAt0 c n (Nat.lt_of_succ_lt hn))

theorem accAt0_A (c : Dev nD) (t : Fin cfg0.N) (hc0 : cond0_0 (grid0.coords t)) (hc1 : ¬cond0_1 (grid0.coords t)) :
    accAt0 V c t.val t.isLt = sout0_A c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t) (iblk0 V c 3 t) := by
  have h0 := (hcond0_0 t).mp hc0
  obtain ⟨n, hn⟩ := t
  cases n with
  | zero => exact rfl
  | succ n => exact (dif_pos h0).trans rfl

theorem accAt0_B (c : Dev nD) (t : Fin cfg0.N) (hc0 : ¬cond0_0 (grid0.coords t)) (hc1 : ¬cond0_1 (grid0.coords t)) :
    accAt0 V c t.val t.isLt = sout0_B c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t) (iblk0 V c 3 t) (accAt0 V c (t.val - 1) (Nat.lt_of_le_of_lt (Nat.sub_le _ _) t.isLt)) := by
  have h0 : ¬ t.val % 16 = 0 := fun h => hc0 ((hcond0_0 t).mpr h)
  have h1 : ¬ t.val % 16 = 15 := fun h => hc1 ((hcond0_1 t).mpr h)
  obtain ⟨n, hn⟩ := t
  cases n with
  | zero => exact absurd (Nat.zero_mod _) h0
  | succ n => exact (dif_neg h0).trans ((dif_neg h1).trans rfl)

theorem accAt0_C (c : Dev nD) (t : Fin cfg0.N) (hc0 : ¬cond0_0 (grid0.coords t)) (hc1 : cond0_1 (grid0.coords t)) :
    accAt0 V c t.val t.isLt = sout0_C c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t) (iblk0 V c 3 t) (accAt0 V c (t.val - 1) (Nat.lt_of_le_of_lt (Nat.sub_le _ _) t.isLt)) := by
  have h0 : ¬ t.val % 16 = 0 := fun h => hc0 ((hcond0_0 t).mpr h)
  have h1 : t.val % 16 = 15 := (hcond0_1 t).mp hc1
  obtain ⟨n, hn⟩ := t
  cases n with
  | zero => exact absurd (Nat.zero_mod _) h0
  | succ n => exact (dif_neg h0).trans ((dif_pos h1).trans rfl)

/-- The output block's staging buffer after the body at position `n`: the accumulator's lane sums at column block 15; elsewhere the
    body stores nothing there and the block is not written back, so the value is a placeholder nothing reads. -/
def outAt0 (c : Dev nD) (n : ℕ) (hn : n < cfg0.N) : Vec F S2048x1 .f32 :=
  if h1 : n % 16 = 15 then
    out0_C c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) (excl0_b ⟨n, hn⟩ ((hcond0_1 ⟨n, hn⟩).mpr h1)) ((hcond0_1 ⟨n, hn⟩).mpr h1) (iblk0 V c 0 ⟨n, hn⟩) (iblk0 V c 1 ⟨n, hn⟩) (iblk0 V c 2 ⟨n, hn⟩) (iblk0 V c 3 ⟨n, hn⟩) (accAt0 V c (n - 1) (Nat.lt_of_le_of_lt (Nat.sub_le _ _) hn))
  else VO0_4.read (Elt F) VO0_4.junk

theorem outAt0_C (c : Dev nD) (t : Fin cfg0.N) (hc0 : ¬cond0_0 (grid0.coords t)) (hc1 : cond0_1 (grid0.coords t)) :
    outAt0 V c t.val t.isLt = out0_C c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t) (iblk0 V c 3 t) (accAt0 V c (t.val - 1) (Nat.lt_of_le_of_lt (Nat.sub_le _ _) t.isLt)) :=
  (dif_pos ((hcond0_1 t).mp hc1)).trans rfl

/-! ## The region invariant -/

/-- The scoped buffers that are no staging buffer of this call and not its accumulator (the other call's), each at some contents. -/
def RestOther0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄) = iprop(((∃ d, owns (c : Thread nD τ) scM0_0 fullShare d) ∗ RestOther0 c) ∗ ∃ r, prngReg c r) := by
  unfold Pipeline.ΦA RestOther0
  rw [Pipeline.scopedRest_split_of_list spec0 c [cc0_scratch0] (by decide) (by decide)]
  simp only [scM0_0, owns_whole]; rfl

/-- Before position `n`: at the start the class invariant (every scratch at anything); afterwards the accumulator at what the point before left. -/
def PhiS0 (c : Dev nD) : (n : ℕ) → n ≤ cfg0.N → sProp 𝕄
  | 0, _ => Pipeline.ΦA spec0 c
  | n + 1, hn => iprop((owns (c : Thread nD τ) scM0_0 fullShare (accAt0 V c n hn) ∗ RestOther0 c) ∗ ∃ r, prngReg c r)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0_0 fullShare (accAt0 V c n hn) ∗ RestOther0 c) ∗ ∃ r, prngReg c r) := rfl
theorem PhiS0_pos (c : Dev nD) (n : ℕ) (h : n ≤ cfg0.N) (hz : n ≠ 0) :
    PhiS0 V c n h = iprop((owns (c : Thread nD τ) scM0_0 fullShare (accAt0 V c (n - 1) (by omega)) ∗ RestOther0 c) ∗ ∃ r, prngReg c r) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0 V c t.val t.isLt
  Φ t := PhiS0 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Region0

end Cert.Kernel.Fr

end
-- ==== Proof.KBody0.lean ====
/-
  The first pallas_call's body obligation: at every grid point the body, handed the accumulator as the point before left it
  and the four input blocks, leaves the accumulator (and at column block 15 the output block) as the proof data say.
-/
import proofs.«110430_j65850438582800_2_alg».proof.Proof.KDat0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases hc0 : cond0_0 (grid0.coords t)
  · have hc1 := excl0_a t hc0
    rw [Dat.leavesExact_idle (dat0 V c) 4 t (idleAt0_4 t hc1) (noFlush0_4 t hc1)]
    rw [accAt0_A V c t hc0 hc1]
    unfold sout0_A; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ hc0 hc1 (iblk0 V c 0 t) (iblk0 V c 1 t) (iblk0 V c 2 t) (iblk0 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ hc0 hc1 (iblk0 V c 0 t) (iblk0 V c 1 t) (iblk0 V c 2 t) (iblk0 V c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => hc0 ((hcond0_0 t).mpr (by rw [h]))
    by_cases hc1 : cond0_1 (grid0.coords t)
    · rw [show (dat0 V c).leavesExact 4 t = owns (c : Thread nD τ) (ms0_4 t) fullShare ((dat0 V c).after 4 t) from by
        unfold Dat.leavesExact; rw [liveAt0_4 t hc1], after0_4]
      rw [accAt0_C V c t hc0 hc1, outAt0_C V c t hc0 hc1]
      unfold out0_C sout0_C; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ hc0 hc1 (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C c _ _ _ _ _ _ _ _ _ _ _ _ _ _ _ _ _ _ _ _)
    · rw [Dat.leavesExact_idle (dat0 V c) 4 t (idleAt0_4 t hc1) (noFlush0_4 t hc1)]
      rw [accAt0_B V c t hc0 hc1]
      unfold sout0_B; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ hc0 hc1 (iblk0 V c 0 t) (iblk0 V c 1 t) (iblk0 V c 2 t) (iblk0 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, Hr⟩, Hg⟩
  isplitl [HS0 Hr]
  · isplitl [HS0]
    · iexists _; iexact HS0
    iexact Hr
  iexact Hg

end Region0

end Cert.Kernel.Fr

end
-- ==== Proof.KRuns1.lean ====
/-
  The second pallas_call's body, run once per control case.

  A grid point is (a, b): a row block of 2048 rows and a column block of 512. The body keeps a [2048, 128] accumulator in
  scratch across the 16 column blocks of one row block: at b = 0 it is zeroed, at every b the partial sums of the point
  are added to it, and at b = 15 its lane sum is stored into the output block. So a point is in one of three cases:
  b = 0 (zeroed, then added to), 0 < b < 15 (added to), b = 15 (added to, then summed into the output).
-/
import proofs.«110430_j65850438582800_2_alg».proof.Proof.Gen.Kernel.Launch
import proofs.«110430_j65850438582800_2_alg».proof.Proof.Gen.Kernel.Skeleton
import proofs.«110430_j65850438582800_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The accumulator is zeroed: the column-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The output block is stored: the column-block coordinate is 15. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called with -/

abbrev VO1_4 : View sig .tc .vmem S2048x1 .f32 := (Memref.whole cc1_stg4_0 : Memref sig .tc .vmem S2048x1 .f32).view
abbrev ms1_0 (t : Fin cfg1.N) : Memref sig .tc .vmem S2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1_0 : Memref sig .tc .vmem S2048x128 .f32 := Memref.whole cc1_scratch0
abbrev VS1_0 : View sig .tc .vmem S2048x128 .f32 := scM1_0.view

/-! ## The body's run per case -/

set_option maxHeartbeats 4000000 in
/-- Column block 0: the accumulator, at anything, is zeroed and the point's partial sums added; the output block is left as found. -/
noncomputable def kernelRun1_A (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : cond1_0 i) (hc1 : ¬cond1_1 i)
    (x0 : Vec F S2048x512 .bf16) (x1 : Vec F S512x512 .bf16) (x2 : Vec F S2048x1 .f32) (x3 : Vec F S1x512 .f32) :
    { LS0 : List (View.Piece (Elt F) S2048x128 .f32) //
      ∀ (xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__pairwise_exp_sum_kernel i arg2 harg2 arg3 harg3 arg4 harg4 arg5 harg5 arg6 harg6 arg7 harg7) K } := by
  refine ⟨?_, fun xi4 E K => ?run⟩
  case run =>
    simp only [cc1__pairwise_exp_sum_kernel_eq_skeleton]; unfold cc1__pairwise_exp_sum_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- A column block strictly between the first and the last: the point's partial sums are added to the accumulator the point before left; the output block is left as found. -/
noncomputable def kernelRun1_B (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond1_0 i) (hc1 : ¬cond1_1 i)
    (x0 : Vec F S2048x512 .bf16) (x1 : Vec F S512x512 .bf16) (x2 : Vec F S2048x1 .f32) (x3 : Vec F S1x512 .f32) (xs0 : Vec F S2048x128 .f32) :
    { LS0 : List (View.Piece (Elt F) S2048x128 .f32) //
      ∀ (xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__pairwise_exp_sum_kernel i arg2 harg2 arg3 harg3 arg4 harg4 arg5 harg5 arg6 harg6 arg7 harg7) K } := by
  refine ⟨?_, fun xi4 E K => ?run⟩
  case run =>
    simp only [cc1__pairwise_exp_sum_kernel_eq_skeleton]; unfold cc1__pairwise_exp_sum_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Column block 15: the point's partial sums are added to the accumulator, and its lane sums stored over the whole output block, found at anything. -/
noncomputable def kernelRun1_C (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond1_0 i) (hc1 : cond1_1 i)
    (x0 : Vec F S2048x512 .bf16) (x1 : Vec F S512x512 .bf16) (x2 : Vec F S2048x1 .f32) (x3 : Vec F S1x512 .f32) (xs0 : Vec F S2048x128 .f32) :
    Σ' (L4 : List (View.Piece (Elt F) S2048x1 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__pairwise_exp_sum_kernel i arg2 harg2 arg3 harg3 arg4 harg4 arg5 harg5 arg6 harg6 arg7 harg7) K } := by
  refine ⟨?_, ?_, fun E K => ?run⟩
  case run =>
    simp only [cc1__pairwise_exp_sum_kernel_eq_skeleton]; unfold cc1__pairwise_exp_sum_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Fr

end
-- ==== Proof.KDat1.lean ====
/-
  The second pallas_call's proof data: what the accumulator and the output block hold after each grid point, and the body
  obligation at every point.

  After point (a, b) the accumulator holds the sum of the partial sums of the points (a, 0) … (a, b), started from zero at
  b = 0; the output block is stored at b = 15 only, as the accumulator's lane sums. The row block and the column block are
  two windows on ONE array, so each of the two holds half of the array's share.
-/
import proofs.«110430_j65850438582800_2_alg».proof.Proof.KRuns1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

theorem scover1_A (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : cond1_0 i) (hc1 : ¬cond1_1 i) (x0 : Vec F S2048x512 .bf16) (x1 : Vec F S512x512 .bf16) (x2 : Vec F S2048x1 .f32) (x3 : Vec F S1x512 .f32) (y : S2048x128.Idx) :
    ∃ pc ∈ (kernelRun1_A c i arg2 harg2 arg3 harg3 arg4 harg4 arg5 harg5 arg6 harg6 arg7 harg7 hc0 hc1 x0 x1 x2 x3).1, y ∈ pc.1.set :=
  View.cover_of_tiledL (kernelRun1_A c i arg2 harg2 arg3 harg3 arg4 harg4 arg5 harg5 arg6 harg6 arg7 harg7 hc0 hc1 x0 x1 x2 x3).1 S2048x128.size (by sl_kernel_rfl) y
/-- The accumulator after a point of column block 0. -/
def sout1_A (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : cond1_0 i) (hc1 : ¬cond1_1 i) (x0 : Vec F S2048x512 .bf16) (x1 : Vec F S512x512 .bf16) (x2 : Vec F S2048x1 .f32) (x3 : Vec F S1x512 .f32) : Vec F S2048x128 .f32 :=
  VS1_0.read (Elt F) (VS1_0.writes (Elt F) VS1_0.junk (kernelRun1_A c i arg2 harg2 arg3 harg3 arg4 harg4 arg5 harg5 arg6 harg6 arg7 harg7 hc0 hc1 x0 x1 x2 x3).1)

theorem scover1_B (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond1_0 i) (hc1 : ¬cond1_1 i) (x0 : Vec F S2048x512 .bf16) (x1 : Vec F S512x512 .bf16) (x2 : Vec F S2048x1 .f32) (x3 : Vec F S1x512 .f32) (xs0 : Vec F S2048x128 .f32) (y : S2048x128.Idx) :
    ∃ pc ∈ (kernelRun1_B c i arg2 harg2 arg3 harg3 arg4 harg4 arg5 harg5 arg6 harg6 arg7 harg7 hc0 hc1 x0 x1 x2 x3 xs0).1, y ∈ pc.1.set :=
  View.cover_of_tiledL (kernelRun1_B c i arg2 harg2 arg3 harg3 arg4 harg4 arg5 harg5 arg6 harg6 arg7 harg7 hc0 hc1 x0 x1 x2 x3 xs0).1 S2048x128.size (by sl_kernel_rfl) y
/-- The accumulator after a point of a middle column block, over what the point before left. -/
def sout1_B (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond1_0 i) (hc1 : ¬cond1_1 i) (x0 : Vec F S2048x512 .bf16) (x1 : Vec F S512x512 .bf16) (x2 : Vec F S2048x1 .f32) (x3 : Vec F S1x512 .f32) (xs0 : Vec F S2048x128 .f32) : Vec F S2048x128 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).1)

theorem scover1_C (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond1_0 i) (hc1 : cond1_1 i) (x0 : Vec F S2048x512 .bf16) (x1 : Vec F S512x512 .bf16) (x2 : Vec F S2048x1 .f32) (x3 : Vec F S1x512 .f32) (xs0 : Vec F S2048x128 .f32) (y : S2048x128.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S2048x128.size (by sl_kernel_rfl) y
/-- The accumulator after a point of column block 15, over what the point before left. -/
def sout1_C (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond1_0 i) (hc1 : cond1_1 i) (x0 : Vec F S2048x512 .bf16) (x1 : Vec F S512x512 .bf16) (x2 : Vec F S2048x1 .f32) (x3 : Vec F S1x512 .f32) (xs0 : Vec F S2048x128 .f32) : Vec F S2048x128 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)
theorem cover1_C (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond1_0 i) (hc1 : cond1_1 i) (x0 : Vec F S2048x512 .bf16) (x1 : Vec F S512x512 .bf16) (x2 : Vec F S2048x1 .f32) (x3 : Vec F S1x512 .f32) (xs0 : Vec F S2048x128 .f32) (y : S2048x1.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S2048x1.size (by sl_kernel_rfl) y
/-- The output block after a point of column block 15. -/
def out1_C (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond1_0 i) (hc1 : cond1_1 i) (x0 : Vec F S2048x512 .bf16) (x1 : Vec F S512x512 .bf16) (x2 : Vec F S2048x1 .f32) (x3 : Vec F S1x512 .f32) (xs0 : Vec F S2048x128 .f32) : Vec F S2048x1 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-! ## The accumulator and the output block after each point -/

theorem excl1_a (t : Fin cfg1.N) (h : cond1_0 (grid1.coords t)) : ¬cond1_1 (grid1.coords t) := fun h' => by
  have a := (hcond1_0 t).mp h; have b := (hcond1_1 t).mp h'; omega
theorem excl1_b (t : Fin cfg1.N) (h : cond1_1 (grid1.coords t)) : ¬cond1_0 (grid1.coords t) := fun h' => excl1_a t h' h

/-- The accumulator after the body at position `n`, by recursion on the position. -/
def accAt1 (c : Dev nD) : (n : ℕ) → n < cfg1.N → Vec F S2048x128 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (excl1_a ⟨0, hn⟩ ((hcond1_0 ⟨0, hn⟩).mpr (Nat.zero_mod _))) (iblk1 V c 0 ⟨0, hn⟩) (iblk1 V c 1 ⟨0, hn⟩) (iblk1 V c 2 ⟨0, hn⟩) (iblk1 V c 3 ⟨0, hn⟩)
  | n + 1, hn =>
    if h0 : (n + 1) % 16 = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (excl1_a ⟨n + 1, hn⟩ ((hcond1_0 ⟨n + 1, hn⟩).mpr h0)) (iblk1 V c 0 ⟨n + 1, hn⟩) (iblk1 V c 1 ⟨n + 1, hn⟩) (iblk1 V c 2 ⟨n + 1, hn⟩) (iblk1 V c 3 ⟨n + 1, hn⟩)
    else if h1 : (n + 1) % 16 = 15 then
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn))
    else
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn))

theorem accAt1_A (c : Dev nD) (t : Fin cfg1.N) (hc0 : cond1_0 (grid1.coords t)) (hc1 : ¬cond1_1 (grid1.coords t)) :
    accAt1 V c t.val t.isLt = sout1_A c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) := by
  have h0 := (hcond1_0 t).mp hc0
  obtain ⟨n, hn⟩ := t
  cases n with
  | zero => exact rfl
  | succ n => exact (dif_pos h0).trans rfl

theorem accAt1_B (c : Dev nD) (t : Fin cfg1.N) (hc0 : ¬cond1_0 (grid1.coords t)) (hc1 : ¬cond1_1 (grid1.coords t)) :
    accAt1 V c t.val t.isLt = sout1_B c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (accAt1 V c (t.val - 1) (Nat.lt_of_le_of_lt (Nat.sub_le _ _) t.isLt)) := by
  have h0 : ¬ t.val % 16 = 0 := fun h => hc0 ((hcond1_0 t).mpr h)
  have h1 : ¬ t.val % 16 = 15 := fun h => hc1 ((hcond1_1 t).mpr h)
  obtain ⟨n, hn⟩ := t
  cases n with
  | zero => exact absurd (Nat.zero_mod _) h0
  | succ n => exact (dif_neg h0).trans ((dif_neg h1).trans rfl)

theorem accAt1_C (c : Dev nD) (t : Fin cfg1.N) (hc0 : ¬cond1_0 (grid1.coords t)) (hc1 : cond1_1 (grid1.coords t)) :
    accAt1 V c t.val t.isLt = sout1_C c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (accAt1 V c (t.val - 1) (Nat.lt_of_le_of_lt (Nat.sub_le _ _) t.isLt)) := by
  have h0 : ¬ t.val % 16 = 0 := fun h => hc0 ((hcond1_0 t).mpr h)
  have h1 : t.val % 16 = 15 := (hcond1_1 t).mp hc1
  obtain ⟨n, hn⟩ := t
  cases n with
  | zero => exact absurd (Nat.zero_mod _) h0
  | succ n => exact (dif_neg h0).trans ((dif_pos h1).trans rfl)

/-- The output block's staging buffer after the body at position `n`: the accumulator's lane sums at column block 15; elsewhere the
    body stores nothing there and the block is not written back, so the value is a placeholder nothing reads. -/
def outAt1 (c : Dev nD) (n : ℕ) (hn : n < cfg1.N) : Vec F S2048x1 .f32 :=
  if h1 : n % 16 = 15 then
    out1_C c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) scM1_0 (Memref.isWhole_whole _) (excl1_b ⟨n, hn⟩ ((hcond1_1 ⟨n, hn⟩).mpr h1)) ((hcond1_1 ⟨n, hn⟩).mpr h1) (iblk1 V c 0 ⟨n, hn⟩) (iblk1 V c 1 ⟨n, hn⟩) (iblk1 V c 2 ⟨n, hn⟩) (iblk1 V c 3 ⟨n, hn⟩) (accAt1 V c (n - 1) (Nat.lt_of_le_of_lt (Nat.sub_le _ _) hn))
  else VO1_4.read (Elt F) VO1_4.junk

theorem outAt1_C (c : Dev nD) (t : Fin cfg1.N) (hc0 : ¬cond1_0 (grid1.coords t)) (hc1 : cond1_1 (grid1.coords t)) :
    outAt1 V c t.val t.isLt = out1_C c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (accAt1 V c (t.val - 1) (Nat.lt_of_le_of_lt (Nat.sub_le _ _) t.isLt)) :=
  (dif_pos ((hcond1_1 t).mp hc1)).trans rfl

/-! ## The region invariant -/

/-- The scoped buffers that are no staging buffer of this call and not its accumulator (the other call's), each at some contents. -/
def RestOther1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄) = iprop(((∃ d, owns (c : Thread nD τ) scM1_0 fullShare d) ∗ RestOther1 c) ∗ ∃ r, prngReg c r) := by
  unfold Pipeline.ΦA RestOther1
  rw [Pipeline.scopedRest_split_of_list spec1 c [cc1_scratch0] (by decide) (by decide)]
  simp only [scM1_0, owns_whole]; rfl

/-- Before position `n`: at the start the class invariant (every scratch at anything); afterwards the accumulator at what the point before left. -/
def PhiS1 (c : Dev nD) : (n : ℕ) → n ≤ cfg1.N → sProp 𝕄
  | 0, _ => Pipeline.ΦA spec1 c
  | n + 1, hn => iprop((owns (c : Thread nD τ) scM1_0 fullShare (accAt1 V c n hn) ∗ RestOther1 c) ∗ ∃ r, prngReg c r)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1_0 fullShare (accAt1 V c n hn) ∗ RestOther1 c) ∗ ∃ r, prngReg c r) := rfl
theorem PhiS1_pos (c : Dev nD) (n : ℕ) (h : n ≤ cfg1.N) (hz : n ≠ 0) :
    PhiS1 V c n h = iprop((owns (c : Thread nD τ) scM1_0 fullShare (accAt1 V c (n - 1) (by omega)) ∗ RestOther1 c) ∗ ∃ r, prngReg c r) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt1 V c t.val t.isLt
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Region1

end Cert.Kernel.Fr

end
-- ==== Proof.KBody1.lean ====
/-
  The second pallas_call's body obligation: at every grid point the body, handed the accumulator as the point before left it
  and the four input blocks, leaves the accumulator (and at column block 15 the output block) as the proof data say.
-/
import proofs.«110430_j65850438582800_2_alg».proof.Proof.KDat1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases hc0 : cond1_0 (grid1.coords t)
  · have hc1 := excl1_a t hc0
    rw [Dat.leavesExact_idle (dat1 V c) 4 t (idleAt1_4 t hc1) (noFlush1_4 t hc1)]
    rw [accAt1_A V c t hc0 hc1]
    unfold sout1_A; (try dsimp only)
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ hc0 hc1 (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ hc0 hc1 (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => hc0 ((hcond1_0 t).mpr (by rw [h]))
    by_cases hc1 : cond1_1 (grid1.coords t)
    · rw [show (dat1 V c).leavesExact 4 t = owns (c : Thread nD τ) (ms1_4 t) fullShare ((dat1 V c).after 4 t) from by
        unfold Dat.leavesExact; rw [liveAt1_4 t hc1], after1_4]
      rw [accAt1_C V c t hc0 hc1, outAt1_C V c t hc0 hc1]
      unfold out1_C sout1_C; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ hc0 hc1 (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C c _ _ _ _ _ _ _ _ _ _ _ _ _ _ _ _ _ _ _ _)
    · rw [Dat.leavesExact_idle (dat1 V c) 4 t (idleAt1_4 t hc1) (noFlush1_4 t hc1)]
      rw [accAt1_B V c t hc0 hc1]
      unfold sout1_B; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ hc0 hc1 (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, Hr⟩, Hg⟩
  isplitl [HS0 Hr]
  · isplitl [HS0]
    · iexists _; iexact HS0
    iexact Hr
  iexact Hg

end Region1

end Cert.Kernel.Fr

end
-- ==== Proof.KShare.lean ====
/-
  The first and the second kernel call each hand one array to two windows. At a call's entry the core holds each of
  the call's four distinct arrays whole at the full share; the pipeline holds one points-to per window, so the full
  share of the array behind windows 0 and 1 is split into its left and right halves, one per window, and at the exit
  the two halves, at the same contents, are joined again into the full share.
-/
import proofs.«110430_j65850438582800_2_alg».proof.Proof.Gen.Kernel.Launch
import Idealize.ShloMosaic.Lib.Pipeline.Kit
import Idealize.ShloMosaic.Lib.Pipeline.Regions
import Idealize.ShloMosaic.Lib.Pipeline.RegionsLoop

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

/-! ## Call 0 -/

/-- The pipeline's arrays of call 0, window by window: each window's array is a whole buffer. -/
theorem arrays_eq0 {c : Dev nD} (dat : Dat τ (Elt F) Unit ℕ (UR sig nD τ) ℕ cfg0 c)
    (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    dat.arrays G = (iprop((((c : Thread nD τ).loc main_v10) ↦{dat.share 0} V main_v10)
      ∗ (((c : Thread nD τ).loc main_v10) ↦{dat.share 1} V main_v10)
      ∗ (((c : Thread nD τ).loc main_v8) ↦{dat.share 2} V main_v8)
      ∗ (((c : Thread nD τ).loc main_v9) ↦{dat.share 3} V main_v9)
      ∗ (((c : Thread nD τ).loc main_v11) ↦{dat.share 4} V main_v11)) : sProp 𝕄) := by
  have h : dat.arrays G = bigSep Finset.univ fun w : Fin 5 =>
      ((((c : Thread nD τ).loc (Pipeline.arrRef spec0 w)) ↦{dat.share w} V (Pipeline.arrRef spec0 w)) : sProp 𝕄) := by
    unfold Dat.arrays
    exact bigSep_congr fun w _ => by rw [(arr_whole0 w).set_eq_univ, hG w]
  rw [h, bigSep_W0]

/-- The four distinct arrays of call 0, one by one. -/
theorem arrBufs_eq0 {c : Dev nD} (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v10) ↦{fullShare} V main_v10)
      ∗ (((c : Thread nD τ).loc main_v8) ↦{fullShare} V main_v8)
      ∗ (((c : Thread nD τ).loc main_v9) ↦{fullShare} V main_v9)
      ∗ (((c : Thread nD τ).loc main_v11) ↦{fullShare} V main_v11)) := by
  unfold Pipeline.arrBufs
  rw [bigSep_eq_bigSepL_of_eq [main_v10, main_v8, main_v9, main_v11] (by decide) (by decide)]
  rfl

/-- The shares call 0's pipeline holds its windows' arrays at: the two halves for the shared array, full for the rest. -/
theorem shares0 {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare) :
    dat.share 0 = fullShare.left ∧ dat.share 1 = fullShare.right ∧ dat.share 2 = fullShare ∧ dat.share 3 = fullShare
      ∧ dat.share 4 = fullShare :=
  ⟨by unfold Dat.share; rw [hq0]; rfl, by unfold Dat.share; rw [hq1]; rfl, by unfold Dat.share; rw [hq2]; rfl,
    by unfold Dat.share; rw [hq3]; rfl, rfl⟩

/-- ENTRY: the four arrays whole at the full share are the pipeline's arrays, the shared array's full share split
    into its two halves. -/
theorem arrays_of_arrBufs0 {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (Pipeline.arrBufs (Ix := Unit) (Name := ℕ) (U := UR sig nD τ) (Lvl := ℕ) spec0 c V : sProp 𝕄) ⊢ dat.arrays G := by
  obtain ⟨hs0, hs1, hs2, hs3, hs4⟩ := shares0 dat hq0 hq1 hq2 hq3
  rw [arrays_eq0 dat V G hG, arrBufs_eq0 V, hs0, hs1, hs2, hs3, hs4]
  exact (sep_mono_l (pointsTo_share (PosShare.mem_left_op_right fullShare)).1).trans Idealize.SL.BI.sep_assoc

/-- EXIT: the pipeline's arrays are the four arrays whole at the full share, the two halves of the shared array,
    at the same contents, joined. -/
theorem arrBufs_of_arrays0 {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    dat.arrays G ⊢ (Pipeline.arrBufs (Ix := Unit) (Name := ℕ) (U := UR sig nD τ) (Lvl := ℕ) spec0 c V : sProp 𝕄) := by
  obtain ⟨hs0, hs1, hs2, hs3, hs4⟩ := shares0 dat hq0 hq1 hq2 hq3
  rw [arrays_eq0 dat V G hG, arrBufs_eq0 V, hs0, hs1, hs2, hs3, hs4]
  exact Idealize.SL.BI.sep_assoc'.trans (sep_mono_l (pointsTo_share (PosShare.mem_left_op_right fullShare)).2)

/-! ## Call 1 -/

/-- The pipeline's arrays of call 1, window by window: each window's array is a whole buffer. -/
theorem arrays_eq1 {c : Dev nD} (dat : Dat τ (Elt F) Unit ℕ (UR sig nD τ) ℕ cfg1 c)
    (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    dat.arrays G = (iprop((((c : Thread nD τ).loc main_v16) ↦{dat.share 0} V main_v16)
      ∗ (((c : Thread nD τ).loc main_v16) ↦{dat.share 1} V main_v16)
      ∗ (((c : Thread nD τ).loc main_v14) ↦{dat.share 2} V main_v14)
      ∗ (((c : Thread nD τ).loc main_v15) ↦{dat.share 3} V main_v15)
      ∗ (((c : Thread nD τ).loc main_v17) ↦{dat.share 4} V main_v17)) : sProp 𝕄) := by
  have h : dat.arrays G = bigSep Finset.univ fun w : Fin 5 =>
      ((((c : Thread nD τ).loc (Pipeline.arrRef spec1 w)) ↦{dat.share w} V (Pipeline.arrRef spec1 w)) : sProp 𝕄) := by
    unfold Dat.arrays
    exact bigSep_congr fun w _ => by rw [(arr_whole1 w).set_eq_univ, hG w]
  rw [h, bigSep_W1]

/-- The four distinct arrays of call 1, one by one. -/
theorem arrBufs_eq1 {c : Dev nD} (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v16) ↦{fullShare} V main_v16)
      ∗ (((c : Thread nD τ).loc main_v14) ↦{fullShare} V main_v14)
      ∗ (((c : Thread nD τ).loc main_v15) ↦{fullShare} V main_v15)
      ∗ (((c : Thread nD τ).loc main_v17) ↦{fullShare} V main_v17)) := by
  unfold Pipeline.arrBufs
  rw [bigSep_eq_bigSepL_of_eq [main_v16, main_v14, main_v15, main_v17] (by decide) (by decide)]
  rfl

/-- The shares call 1's pipeline holds its windows' arrays at: the two halves for the shared array, full for the rest. -/
theorem shares1 {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare) :
    dat.share 0 = fullShare.left ∧ dat.share 1 = fullShare.right ∧ dat.share 2 = fullShare ∧ dat.share 3 = fullShare
      ∧ dat.share 4 = fullShare :=
  ⟨by unfold Dat.share; rw [hq0]; rfl, by unfold Dat.share; rw [hq1]; rfl, by unfold Dat.share; rw [hq2]; rfl,
    by unfold Dat.share; rw [hq3]; rfl, rfl⟩

/-- ENTRY: the four arrays whole at the full share are the pipeline's arrays, the shared array's full share split
    into its two halves. -/
theorem arrays_of_arrBufs1 {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (Pipeline.arrBufs (Ix := Unit) (Name := ℕ) (U := UR sig nD τ) (Lvl := ℕ) spec1 c V : sProp 𝕄) ⊢ dat.arrays G := by
  obtain ⟨hs0, hs1, hs2, hs3, hs4⟩ := shares1 dat hq0 hq1 hq2 hq3
  rw [arrays_eq1 dat V G hG, arrBufs_eq1 V, hs0, hs1, hs2, hs3, hs4]
  exact (sep_mono_l (pointsTo_share (PosShare.mem_left_op_right fullShare)).1).trans Idealize.SL.BI.sep_assoc

/-- EXIT: the pipeline's arrays are the four arrays whole at the full share, the two halves of the shared array,
    at the same contents, joined. -/
theorem arrBufs_of_arrays1 {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    dat.arrays G ⊢ (Pipeline.arrBufs (Ix := Unit) (Name := ℕ) (U := UR sig nD τ) (Lvl := ℕ) spec1 c V : sProp 𝕄) := by
  obtain ⟨hs0, hs1, hs2, hs3, hs4⟩ := shares1 dat hq0 hq1 hq2 hq3
  rw [arrays_eq1 dat V G hG, arrBufs_eq1 V, hs0, hs1, hs2, hs3, hs4]
  exact Idealize.SL.BI.sep_assoc'.trans (sep_mono_l (pointsTo_share (PosShare.mem_left_op_right fullShare)).2)

end Cert.Kernel.Fr

end
-- ==== Proof.KFrame.lean ====
/-
  The kernel program's run: its two pallas_calls as regions between the three stretches of host operations.

  Each region is entered with every unscoped buffer at the contents the host stretch before it left, hands the pipeline its
  four arrays (the array read through two windows as two half shares), and leaves them with the output array at what the
  write-backs made of it; the other buffers pass by unchanged. At the end every unscoped buffer is read off the last
  valuation: the arguments as launched, and the result as the last host stretch computes it from the two regions' outputs.
-/
import proofs.«110430_j65850438582800_2_alg».proof.Proof.KBody0
import proofs.«110430_j65850438582800_2_alg».proof.Proof.KBody1
import proofs.«110430_j65850438582800_2_alg».proof.Proof.KShare
import proofs.«110430_j65850438582800_2_alg».proof.Proof.Gen.Kernel.Regions
import Idealize.ShloMosaic.Lib.Pipeline.RegionsLoop

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The regions' entry contents and what they leave -/

/-- The buffers as the first region finds them. -/
abbrev Vr1 (c : Dev nD) (b : Ref sig .tc) : Buf (Elt F) ((c : Thread nD τ).loc b) := Gen.V1 m c b
/-- What the first region leaves in its output array. -/
def out2 (c : Dev nD) : Buf (Elt F) ((c : Thread nD τ).loc main_v11) := (dat0 (Vr1 m) c).arrAt 4 cfg0.N
/-- The regions' results with only the first filled in. -/
def outs2 : Gen.Outs (F := F) := fun _ r c => Function.update (Gen.V0 m c) main_v11 (out2 m c) r
theorem outs2_v11 (c : Dev nD) : outs2 m 2 main_v11 c = out2 m c := by
  unfold outs2; exact Function.update_self _ _ _
/-- The buffers as the second region finds them. -/
abbrev Vr3 (c : Dev nD) (b : Ref sig .tc) : Buf (Elt F) ((c : Thread nD τ).loc b) := Gen.V3 m (outs2 m) c b
/-- What the second region leaves in its output array. -/
def out4 (c : Dev nD) : Buf (Elt F) ((c : Thread nD τ).loc main_v17) := (dat1 (Vr3 m) c).arrAt 4 cfg1.N
/-- The regions' results. -/
def outsA : Gen.Outs (F := F) := fun _ r c => Function.update (Function.update (Gen.V0 m c) main_v11 (out2 m c)) main_v17 (out4 m c) r
theorem outsA_v17 (c : Dev nD) : outsA m 4 main_v17 c = out4 m c := by
  unfold outsA; exact Function.update_self _ _ _
theorem outsA_v11 (c : Dev nD) : outsA m 2 main_v11 c = out2 m c := by
  unfold outsA
  rw [Function.update_of_ne (StableHlo.devRef_ne_of_ne (by decide) : (Proc.devRef .tc main_v11 : DevRef τ sig) ≠ Proc.devRef .tc main_v17)]
  exact Function.update_self _ _ _

/-- The second region is entered from the same contents whichever of the two result families is read. -/
theorem V3_outsA (c : Dev nD) : Gen.V3 m (outsA m) c = Gen.V3 m (outs2 m) c := by
  show StableHlo.after hostOps1 (Function.update (Gen.V1 m c) main_v11 (outsA m 2 main_v11 c)) = StableHlo.after hostOps1 (Function.update (Gen.V1 m c) main_v11 (outs2 m 2 main_v11 c))
  rw [outsA_v11, outs2_v11]

/-! ## The proof data family and what rides beside the buffers -/

abbrev Lp : GSem nD τ sig → Finset Unit := fun _ => ∅
abbrev lvp : GSem nD τ sig → Unit → ℕ := fun _ _ => 0
/-- Beside the buffers through every segment: the generator register at some state and the core owing nothing. -/
abbrev Rr (c : Dev nD) : sProp 𝕄 := iprop((∃ r, prngReg c r) ∗ ∃ W, owes (c : Thread nD τ) (0 : CellTallies nD τ sig Unit) W)

/-- Each pipeline's proof data at its region's entry contents. -/
def pdats : (p : Fin 2) → (c : Dev nD) → Dat τ (Elt F) Unit ℕ (UR sig nD τ) ℕ (cfgs p) c
  | ⟨0, _⟩ => fun c => dat0 (Vr1 m) c
  | ⟨1, _⟩ => fun c => dat1 (Vr3 m) c

/-- What the region's arrays hold at its exit is the next valuation at them. -/
theorem hF0 (c : Dev nD) (w : Fin cfg0.W) : (dat0 (Vr1 m) c).arrAt w cfg0.N = Gen.V2 m (outsA m) c (Pipeline.arrRef spec0 w) := by
  match w with
  | ⟨0, _⟩ => exact ((dat0 (Vr1 m) c).arrAt_in 0 rfl _).trans ((A_eq0 (Vr1 m) c 0).trans (Gen.V2_of m (outsA m) c main_v10 (by decide)).symm)
  | ⟨1, _⟩ => exact ((dat0 (Vr1 m) c).arrAt_in 1 rfl _).trans ((A_eq0 (Vr1 m) c 1).trans (Gen.V2_of m (outsA m) c main_v10 (by decide)).symm)
  | ⟨2, _⟩ => exact ((dat0 (Vr1 m) c).arrAt_in 2 rfl _).trans ((A_eq0 (Vr1 m) c 2).trans (Gen.V2_of m (outsA m) c main_v8 (by decide)).symm)
  | ⟨3, _⟩ => exact ((dat0 (Vr1 m) c).arrAt_in 3 rfl _).trans ((A_eq0 (Vr1 m) c 3).trans (Gen.V2_of m (outsA m) c main_v9 (by decide)).symm)
  | ⟨4, _⟩ =>
    show out2 m c = Function.update (Gen.V1 m c) (Proc.devRef .tc main_v11) (outsA m 2 main_v11 c) (Proc.devRef .tc main_v11)
    rw [Function.update_self, outsA_v11]

/-- Off the region's arrays the next valuation is the entry one. -/
theorem hrest0 (c : Dev nD) (b : Ref sig .tc) (hb : b ∉ Finset.univ.image (Pipeline.arrRef spec0)) : Gen.V2 m (outsA m) c b = Gen.V1 m c b :=
  Gen.V2_of m (outsA m) c b (fun h => hb (by rw [List.mem_singleton.mp h]; exact Finset.mem_image.mpr ⟨4, Finset.mem_univ _, rfl⟩))

set_option backward.isDefEq.respectTransparency.types false in
/-- The region as a segment: its arrays dealt out of the unscoped buffers at entry (the doubly read array as two halves) and
    put back at exit; the generator register into the region invariant and out; nothing owed; no semaphore of the kernel's own. -/
def reg0 : RegionSeg (pcfgs (F := F)) Gen.adm (pdats m) () defs₀ Variants.none Lp lvp 0 where
  win := winFacts₀0
  block_pos := block_pos0
  stage_whole := stage_whole0
  K := PEmpty
  osem k := k.elim
  ho := Pipeline.OwnSemFacts.none _
  hbody c := (body_obligation0 (Vr1 m) c).loose
  hwaits := Pipeline.hwaits_of_owed_zero _ _ _ _ Lp lvp 0 fun _ _ => rfl
  pre c := iprop(StableHlo.held (c : Thread nD τ) (Pipeline.ucRefs τ sig) (Gen.V1 m c) ∗ Rr c)
  post c := iprop(StableHlo.held (c : Thread nD τ) (Pipeline.ucRefs τ sig) (Gen.V2 m (outsA m) c) ∗ Rr c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit : (StableHlo.held (c : Thread nD τ) (Pipeline.ucRefs τ sig) (Gen.V1 m c) : sProp 𝕄)
        ⊢ iprop((pdats m 0 c).arrays ((pdats m 0 c).arrAt · 0) ∗ Pipeline.unscopedRest (Ix := Unit) (Name := ℕ) (U := UR sig nD τ) (Lvl := ℕ) spec0 c (Vr1 m c)) := by
      rw [← Pipeline.unscopedBufs_held (Ix := Unit) (Name := ℕ) (U := UR sig nD τ) (Lvl := ℕ) c (Gen.V1 m c),
        Pipeline.unscopedBufs_split₀ cfgs 0 winFacts₀0.arr_unscoped c]
      exact sep_mono (arrays_of_arrBufs0 (dat0 (Vr1 m) c) rfl rfl rfl rfl (Vr1 m c) _ (fun _ => rfl)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Vr1 m) c).Φ 0 from rfl]
    iintro ⟨Hp, -, Hr⟩
    iapply (hin0 (Vr1 m) c)
    unfold Pipeline.ΦA
    isplitl [Hr]; · iexact Hr
    iexact Hp
  hout c := by
    rw [Pipeline.ownSems0_none]
    rw [show (pdats m 0 c).Φ (Fin.last _) = (dat0 (Vr1 m) c).Φ (Fin.last cfg0.N) from rfl]
    iintro H
    ihave H' := (hout0 (Vr1 m) c) $$ H
    unfold Pipeline.ΦA
    icases H' with ⟨Hr, Hp⟩
    isplitl [Hp]; · iexact Hp
    isplitr; · iempintro
    iexact Hr
  hexit c := by
    have hjoin : iprop((pdats m 0 c).arrays ((pdats m 0 c).arrAt · cfg0.N) ∗ Pipeline.unscopedRest (Ix := Unit) (Name := ℕ) (U := UR sig nD τ) (Lvl := ℕ) spec0 c (Vr1 m c))
        ⊢ (StableHlo.held (c : Thread nD τ) (Pipeline.ucRefs τ sig) (Gen.V2 m (outsA m) c) : sProp 𝕄) := by
      rw [← Pipeline.unscopedBufs_held (Ix := Unit) (Name := ℕ) (U := UR sig nD τ) (Lvl := ℕ) c (Gen.V2 m (outsA m) c),
        Pipeline.unscopedBufs_split₀ cfgs 0 winFacts₀0.arr_unscoped c]
      refine sep_mono (arrBufs_of_arrays0 (dat0 (Vr1 m) c) rfl rfl rfl rfl (fun b => Gen.V2 m (outsA m) c b) _ (hF0 m c)) (Entails.of_eq ?_)
      unfold Pipeline.unscopedRest
      exact bigSep_congr fun b hb => by
        show _ = (((c : Thread nD τ).loc b) ↦{fullShare} Gen.V2 m (outsA m) c b)
        rw [hrest0 m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- A reference the second region may not change keeps, after it, what the host stretch before it left. -/
theorem V4_of' (c : Dev nD) (r : Ref sig .tc) (h : r ∉ ([main_v17] : List (Ref sig .tc))) : Gen.V4 m (outsA m) c r = Gen.V3 m (outs2 m) c r :=
  (Gen.V4_of m (outsA m) c r h).trans (by rw [V3_outsA])

/-- What the region's arrays hold at its exit is the next valuation at them. -/
theorem hF1 (c : Dev nD) (w : Fin cfg1.W) : (dat1 (Vr3 m) c).arrAt w cfg1.N = Gen.V4 m (outsA m) c (Pipeline.arrRef spec1 w) := by
  match w with
  | ⟨0, _⟩ => exact ((dat1 (Vr3 m) c).arrAt_in 0 rfl _).trans ((A_eq1 (Vr3 m) c 0).trans (V4_of' m c main_v16 (by decide)).symm)
  | ⟨1, _⟩ => exact ((dat1 (Vr3 m) c).arrAt_in 1 rfl _).trans ((A_eq1 (Vr3 m) c 1).trans (V4_of' m c main_v16 (by decide)).symm)
  | ⟨2, _⟩ => exact ((dat1 (Vr3 m) c).arrAt_in 2 rfl _).trans ((A_eq1 (Vr3 m) c 2).trans (V4_of' m c main_v14 (by decide)).symm)
  | ⟨3, _⟩ => exact ((dat1 (Vr3 m) c).arrAt_in 3 rfl _).trans ((A_eq1 (Vr3 m) c 3).trans (V4_of' m c main_v15 (by decide)).symm)
  | ⟨4, _⟩ =>
    show out4 m c = Function.update (Gen.V3 m (outsA m) c) (Proc.devRef .tc main_v17) (outsA m 4 main_v17 c) (Proc.devRef .tc main_v17)
    rw [Function.update_self, outsA_v17]

/-- Off the region's arrays the next valuation is the entry one. -/
theorem hrest1 (c : Dev nD) (b : Ref sig .tc) (hb : b ∉ Finset.univ.image (Pipeline.arrRef spec1)) : Gen.V4 m (outsA m) c b = Gen.V3 m (outs2 m) c b :=
  V4_of' m c b (fun h => hb (by rw [List.mem_singleton.mp h]; exact Finset.mem_image.mpr ⟨4, Finset.mem_univ _, rfl⟩))

set_option backward.isDefEq.respectTransparency.types false in
/-- The region as a segment: its arrays dealt out of the unscoped buffers at entry (the doubly read array as two halves) and
    put back at exit; the generator register into the region invariant and out; nothing owed; no semaphore of the kernel's own. -/
def reg1 : RegionSeg (pcfgs (F := F)) Gen.adm (pdats m) () defs₀ Variants.none Lp lvp 1 where
  win := winFacts₀1
  block_pos := block_pos1
  stage_whole := stage_whole1
  K := PEmpty
  osem k := k.elim
  ho := Pipeline.OwnSemFacts.none _
  hbody c := (body_obligation1 (Vr3 m) c).loose
  hwaits := Pipeline.hwaits_of_owed_zero _ _ _ _ Lp lvp 1 fun _ _ => rfl
  pre c := iprop(StableHlo.held (c : Thread nD τ) (Pipeline.ucRefs τ sig) (Gen.V3 m (outs2 m) c) ∗ Rr c)
  post c := iprop(StableHlo.held (c : Thread nD τ) (Pipeline.ucRefs τ sig) (Gen.V4 m (outsA m) c) ∗ Rr c)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none]
    have hsplit : (StableHlo.held (c : Thread nD τ) (Pipeline.ucRefs τ sig) (Gen.V3 m (outs2 m) c) : sProp 𝕄)
        ⊢ iprop((pdats m 1 c).arrays ((pdats m 1 c).arrAt · 0) ∗ Pipeline.unscopedRest (Ix := Unit) (Name := ℕ) (U := UR sig nD τ) (Lvl := ℕ) spec1 c (Vr3 m c)) := by
      rw [← Pipeline.unscopedBufs_held (Ix := Unit) (Name := ℕ) (U := UR sig nD τ) (Lvl := ℕ) c (Gen.V3 m (outs2 m) c),
        Pipeline.unscopedBufs_split₀ cfgs 1 winFacts₀1.arr_unscoped c]
      exact sep_mono (arrays_of_arrBufs1 (dat1 (Vr3 m) c) rfl rfl rfl rfl (Vr3 m c) _ (fun _ => rfl)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Vr3 m) c).Φ 0 from rfl]
    iintro ⟨Hp, -, Hr⟩
    iapply (hin1 (Vr3 m) c)
    unfold Pipeline.ΦA
    isplitl [Hr]; · iexact Hr
    iexact Hp
  hout c := by
    rw [Pipeline.ownSems0_none]
    rw [show (pdats m 1 c).Φ (Fin.last _) = (dat1 (Vr3 m) c).Φ (Fin.last cfg1.N) from rfl]
    iintro H
    ihave H' := (hout1 (Vr3 m) c) $$ H
    unfold Pipeline.ΦA
    icases H' with ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (Vr3 m c))
        ⊢ (StableHlo.held (c : Thread nD τ) (Pipeline.ucRefs τ sig) (Gen.V4 m (outsA m) c) : sProp 𝕄) := by
      rw [← Pipeline.unscopedBufs_held (Ix := Unit) (Name := ℕ) (U := UR sig nD τ) (Lvl := ℕ) c (Gen.V4 m (outsA m) c),
        Pipeline.unscopedBufs_split₀ cfgs 1 winFacts₀1.arr_unscoped c]
      refine sep_mono (arrBufs_of_arrays1 (dat1 (Vr3 m) c) rfl rfl rfl rfl (fun b => Gen.V4 m (outsA m) c b) _ (hF1 m c)) (Entails.of_eq ?_)
      unfold Pipeline.unscopedRest
      exact bigSep_congr fun b hb => by
        show _ = (((c : Thread nD τ).loc b) ↦{fullShare} Gen.V4 m (outsA m) c b)
        rw [hrest1 m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory `m` with zero counters terminates, nothing faulting, and every final memory
    holds each unscoped buffer at the last valuation: the launch contents taken through the three host stretches, the two
    regions' output arrays at what their write-backs made of them. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Gen.V5 m (outsA m) c b) := by
  refine Pipeline.θ_run_regions_kit_dev (pcfgs (F := F)) Gen.adm (pdats m) () cellOf_inj emb₁ defs₀ Variants.none Lp lvp m ρ main
    (Gen.segs m (outsA m) Variants.none Lp lvp (fun _ => Rr) () (pdats m) (reg0 m) (reg1 m))
    (fun c Q => by
      rewrite [main_chain c, Seg.run_eq_chain,
        show (Gen.segs m (outsA m) Variants.none Lp lvp (fun _ => Rr) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c))
    (Tₙ := fun c => StableHlo.held (c : Thread nD τ) (Pipeline.ucRefs τ sig) (Gen.V5 m (outsA m) c))
    (hch := fun c => ⟨.rfl, .rfl, .rfl, (by show iprop(StableHlo.held (c : Thread nD τ) (Pipeline.ucRefs τ sig) (Gen.V3 m (outsA m) c) ∗ Rr c) ⊢ iprop(StableHlo.held (c : Thread nD τ) (Pipeline.ucRefs τ sig) (Gen.V3 m (outs2 m) c) ∗ Rr c); rw [V3_outsA]), .rfl,
      sep_mono .rfl (by iintro ⟨-, H⟩; iexact H)⟩)
    (hinit := by
      refine Pipeline.initEach Lp lvp fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V5 m (outsA m) c b)
    (hfin := fun c s' => by
      unfold StableHlo.held
      iintro ⟨Hh, HSI⟩
      imodintro
      iapply (pointsTo_read_all (Pipeline.ucRefs τ sig) (fun b => (((c : Thread nD τ)).1, b)) (Gen.V5 m (outsA m) c) s')
      isplitl [Hh] <;> iassumption)
    (hQ := fun _ h => h)

/-- An unscoped TensorCore reference is among those the last state is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (Gen.V5_main_arg0 m (outsA m) c),
    (h c _ (mem_uc main_arg1 (by decide))).trans (Gen.V5_main_arg1 m (outsA m) c)⟩) (run_all m ρ)

end Cert.Kernel.Fr

end
-- ==== Proof.KIRuns0.lean ====
/-
  The first pallas_call's body, run once per control case.

  A grid point is (a, b): a row block of 2048 rows and a column block of 512. The body keeps a [2048, 128] accumulator in
  scratch across the 16 column blocks of one row block: at b = 0 it is zeroed, at every b the partial sums of the point
  are added to it, and at b = 15 its lane sum is stored into the output block. So a point is in one of three cases:
  b = 0 (zeroed, then added to), 0 < b < 15 (added to), b = 15 (added to, then summed into the output).
-/
import proofs.«110430_j65850438582800_2_alg».proof.Proof.Gen.KernelIdeal.Launch
import proofs.«110430_j65850438582800_2_alg».proof.Proof.Gen.KernelIdeal.Skeleton
import proofs.«110430_j65850438582800_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The accumulator is zeroed: the column-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The output block is stored: the column-block coordinate is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

abbrev VO0_4 : View sig .tc .vmem S2048x1 .f32 := (Memref.whole cc0_stg4_0 : Memref sig .tc .vmem S2048x1 .f32).view
abbrev ms0_0 (t : Fin cfg0.N) : Memref sig .tc .vmem S2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S2048x128 .f32 := Memref.whole cc0_scratch0
abbrev VS0_0 : View sig .tc .vmem S2048x128 .f32 := scM0_0.view

/-! ## The body's run per case -/

set_option maxHeartbeats 4000000 in
/-- Column block 0: the accumulator, at anything, is zeroed and the point's partial sums added; the output block is left as found. -/
noncomputable def kernelRun0_A (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : cond0_0 i) (hc1 : ¬cond0_1 i)
    (x0 : Vec F S2048x512 .bf16) (x1 : Vec F S512x512 .bf16) (x2 : Vec F S2048x1 .f32) (x3 : Vec F S1x512 .f32) :
    { LS0 : List (View.Piece (Elt F) S2048x128 .f32) //
      ∀ (xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__pairwise_exp_sum_kernel i arg2 harg2 arg3 harg3 arg4 harg4 arg5 harg5 arg6 harg6 arg7 harg7) K } := by
  refine ⟨?_, fun xi4 E K => ?run⟩
  case run =>
    simp only [cc0__pairwise_exp_sum_kernel_eq_skeleton]; unfold cc0__pairwise_exp_sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- A column block strictly between the first and the last: the point's partial sums are added to the accumulator the point before left; the output block is left as found. -/
noncomputable def kernelRun0_B (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond0_0 i) (hc1 : ¬cond0_1 i)
    (x0 : Vec F S2048x512 .bf16) (x1 : Vec F S512x512 .bf16) (x2 : Vec F S2048x1 .f32) (x3 : Vec F S1x512 .f32) (xs0 : Vec F S2048x128 .f32) :
    { LS0 : List (View.Piece (Elt F) S2048x128 .f32) //
      ∀ (xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__pairwise_exp_sum_kernel i arg2 harg2 arg3 harg3 arg4 harg4 arg5 harg5 arg6 harg6 arg7 harg7) K } := by
  refine ⟨?_, fun xi4 E K => ?run⟩
  case run =>
    simp only [cc0__pairwise_exp_sum_kernel_eq_skeleton]; unfold cc0__pairwise_exp_sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Column block 15: the point's partial sums are added to the accumulator, and its lane sums stored over the whole output block, found at anything. -/
noncomputable def kernelRun0_C (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond0_0 i) (hc1 : cond0_1 i)
    (x0 : Vec F S2048x512 .bf16) (x1 : Vec F S512x512 .bf16) (x2 : Vec F S2048x1 .f32) (x3 : Vec F S1x512 .f32) (xs0 : Vec F S2048x128 .f32) :
    Σ' (L4 : List (View.Piece (Elt F) S2048x1 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__pairwise_exp_sum_kernel i arg2 harg2 arg3 harg3 arg4 harg4 arg5 harg5 arg6 harg6 arg7 harg7) K } := by
  refine ⟨?_, ?_, fun E K => ?run⟩
  case run =>
    simp only [cc0__pairwise_exp_sum_kernel_eq_skeleton]; unfold cc0__pairwise_exp_sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Fr

end
-- ==== Proof.KIDat0.lean ====
/-
  The first pallas_call's proof data: what the accumulator and the output block hold after each grid point, and the body
  obligation at every point.

  After point (a, b) the accumulator holds the sum of the partial sums of the points (a, 0) … (a, b), started from zero at
  b = 0; the output block is stored at b = 15 only, as the accumulator's lane sums. The row block and the column block are
  two windows on ONE array, so each of the two holds half of the array's share.
-/
import proofs.«110430_j65850438582800_2_alg».proof.Proof.KIRuns0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

theorem scover0_A (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : cond0_0 i) (hc1 : ¬cond0_1 i) (x0 : Vec F S2048x512 .bf16) (x1 : Vec F S512x512 .bf16) (x2 : Vec F S2048x1 .f32) (x3 : Vec F S1x512 .f32) (y : S2048x128.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S2048x128.size (by sl_kernel_rfl) y
/-- The accumulator after a point of column block 0. -/
def sout0_A (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : cond0_0 i) (hc1 : ¬cond0_1 i) (x0 : Vec F S2048x512 .bf16) (x1 : Vec F S512x512 .bf16) (x2 : Vec F S2048x1 .f32) (x3 : Vec F S1x512 .f32) : Vec F S2048x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).1)

theorem scover0_B (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond0_0 i) (hc1 : ¬cond0_1 i) (x0 : Vec F S2048x512 .bf16) (x1 : Vec F S512x512 .bf16) (x2 : Vec F S2048x1 .f32) (x3 : Vec F S1x512 .f32) (xs0 : Vec F S2048x128 .f32) (y : S2048x128.Idx) :
    ∃ pc ∈ (kernelRun0_B c i arg2 harg2 arg3 harg3 arg4 harg4 arg5 harg5 arg6 harg6 arg7 harg7 hc0 hc1 x0 x1 x2 x3 xs0).1, y ∈ pc.1.set :=
  View.cover_of_tiledL (kernelRun0_B c i arg2 harg2 arg3 harg3 arg4 harg4 arg5 harg5 arg6 harg6 arg7 harg7 hc0 hc1 x0 x1 x2 x3 xs0).1 S2048x128.size (by sl_kernel_rfl) y
/-- The accumulator after a point of a middle column block, over what the point before left. -/
def sout0_B (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond0_0 i) (hc1 : ¬cond0_1 i) (x0 : Vec F S2048x512 .bf16) (x1 : Vec F S512x512 .bf16) (x2 : Vec F S2048x1 .f32) (x3 : Vec F S1x512 .f32) (xs0 : Vec F S2048x128 .f32) : Vec F S2048x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).1)

theorem scover0_C (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond0_0 i) (hc1 : cond0_1 i) (x0 : Vec F S2048x512 .bf16) (x1 : Vec F S512x512 .bf16) (x2 : Vec F S2048x1 .f32) (x3 : Vec F S1x512 .f32) (xs0 : Vec F S2048x128 .f32) (y : S2048x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S2048x128.size (by sl_kernel_rfl) y
/-- The accumulator after a point of column block 15, over what the point before left. -/
def sout0_C (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond0_0 i) (hc1 : cond0_1 i) (x0 : Vec F S2048x512 .bf16) (x1 : Vec F S512x512 .bf16) (x2 : Vec F S2048x1 .f32) (x3 : Vec F S1x512 .f32) (xs0 : Vec F S2048x128 .f32) : Vec F S2048x128 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)
theorem cover0_C (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond0_0 i) (hc1 : cond0_1 i) (x0 : Vec F S2048x512 .bf16) (x1 : Vec F S512x512 .bf16) (x2 : Vec F S2048x1 .f32) (x3 : Vec F S1x512 .f32) (xs0 : Vec F S2048x128 .f32) (y : S2048x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S2048x1.size (by sl_kernel_rfl) y
/-- The output block after a point of column block 15. -/
def out0_C (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond0_0 i) (hc1 : cond0_1 i) (x0 : Vec F S2048x512 .bf16) (x1 : Vec F S512x512 .bf16) (x2 : Vec F S2048x1 .f32) (x3 : Vec F S1x512 .f32) (xs0 : Vec F S2048x128 .f32) : Vec F S2048x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-! ## The accumulator and the output block after each point -/

theorem excl0_a (t : Fin cfg0.N) (h : cond0_0 (grid0.coords t)) : ¬cond0_1 (grid0.coords t) := fun h' => by
  have a := (hcond0_0 t).mp h; have b := (hcond0_1 t).mp h'; omega
theorem excl0_b (t : Fin cfg0.N) (h : cond0_1 (grid0.coords t)) : ¬cond0_0 (grid0.coords t) := fun h' => excl0_a t h' h

/-- The accumulator after the body at position `n`, by recursion on the position. -/
def accAt0 (c : Dev nD) : (n : ℕ) → n < cfg0.N → Vec F S2048x128 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (excl0_a ⟨0, hn⟩ ((hcond0_0 ⟨0, hn⟩).mpr (Nat.zero_mod _))) (iblk0 V c 0 ⟨0, hn⟩) (iblk0 V c 1 ⟨0, hn⟩) (iblk0 V c 2 ⟨0, hn⟩) (iblk0 V c 3 ⟨0, hn⟩)
  | n + 1, hn =>
    if h0 : (n + 1) % 16 = 0 then
      sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (excl0_a ⟨n + 1, hn⟩ ((hcond0_0 ⟨n + 1, hn⟩).mpr h0)) (iblk0 V c 0 ⟨n + 1, hn⟩) (iblk0 V c 1 ⟨n + 1, hn⟩) (iblk0 V c 2 ⟨n + 1, hn⟩) (iblk0 V c 3 ⟨n + 1, hn⟩)
    else if h1 : (n + 1) % 16 = 15 then
      sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (accAt0 c n (Nat.lt_of_succ_lt hn))
    else
      sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (accAt0 c n (Nat.lt_of_succ_lt hn))

theorem accAt0_A (c : Dev nD) (t : Fin cfg0.N) (hc0 : cond0_0 (grid0.coords t)) (hc1 : ¬cond0_1 (grid0.coords t)) :
    accAt0 V c t.val t.isLt = sout0_A c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t) (iblk0 V c 3 t) := by
  have h0 := (hcond0_0 t).mp hc0
  obtain ⟨n, hn⟩ := t
  cases n with
  | zero => exact rfl
  | succ n => exact (dif_pos h0).trans rfl

theorem accAt0_B (c : Dev nD) (t : Fin cfg0.N) (hc0 : ¬cond0_0 (grid0.coords t)) (hc1 : ¬cond0_1 (grid0.coords t)) :
    accAt0 V c t.val t.isLt = sout0_B c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t) (iblk0 V c 3 t) (accAt0 V c (t.val - 1) (Nat.lt_of_le_of_lt (Nat.sub_le _ _) t.isLt)) := by
  have h0 : ¬ t.val % 16 = 0 := fun h => hc0 ((hcond0_0 t).mpr h)
  have h1 : ¬ t.val % 16 = 15 := fun h => hc1 ((hcond0_1 t).mpr h)
  obtain ⟨n, hn⟩ := t
  cases n with
  | zero => exact absurd (Nat.zero_mod _) h0
  | succ n => exact (dif_neg h0).trans ((dif_neg h1).trans rfl)

theorem accAt0_C (c : Dev nD) (t : Fin cfg0.N) (hc0 : ¬cond0_0 (grid0.coords t)) (hc1 : cond0_1 (grid0.coords t)) :
    accAt0 V c t.val t.isLt = sout0_C c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t) (iblk0 V c 3 t) (accAt0 V c (t.val - 1) (Nat.lt_of_le_of_lt (Nat.sub_le _ _) t.isLt)) := by
  have h0 : ¬ t.val % 16 = 0 := fun h => hc0 ((hcond0_0 t).mpr h)
  have h1 : t.val % 16 = 15 := (hcond0_1 t).mp hc1
  obtain ⟨n, hn⟩ := t
  cases n with
  | zero => exact absurd (Nat.zero_mod _) h0
  | succ n => exact (dif_neg h0).trans ((dif_pos h1).trans rfl)

/-- The output block's staging buffer after the body at position `n`: the accumulator's lane sums at column block 15; elsewhere the
    body stores nothing there and the block is not written back, so the value is a placeholder nothing reads. -/
def outAt0 (c : Dev nD) (n : ℕ) (hn : n < cfg0.N) : Vec F S2048x1 .f32 :=
  if h1 : n % 16 = 15 then
    out0_C c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) (excl0_b ⟨n, hn⟩ ((hcond0_1 ⟨n, hn⟩).mpr h1)) ((hcond0_1 ⟨n, hn⟩).mpr h1) (iblk0 V c 0 ⟨n, hn⟩) (iblk0 V c 1 ⟨n, hn⟩) (iblk0 V c 2 ⟨n, hn⟩) (iblk0 V c 3 ⟨n, hn⟩) (accAt0 V c (n - 1) (Nat.lt_of_le_of_lt (Nat.sub_le _ _) hn))
  else VO0_4.read (Elt F) VO0_4.junk

theorem outAt0_C (c : Dev nD) (t : Fin cfg0.N) (hc0 : ¬cond0_0 (grid0.coords t)) (hc1 : cond0_1 (grid0.coords t)) :
    outAt0 V c t.val t.isLt = out0_C c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t) (iblk0 V c 3 t) (accAt0 V c (t.val - 1) (Nat.lt_of_le_of_lt (Nat.sub_le _ _) t.isLt)) :=
  (dif_pos ((hcond0_1 t).mp hc1)).trans rfl

/-! ## The region invariant -/

/-- The scoped buffers that are no staging buffer of this call and not its accumulator (the other call's), each at some contents. -/
def RestOther0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄) = iprop(((∃ d, owns (c : Thread nD τ) scM0_0 fullShare d) ∗ RestOther0 c) ∗ ∃ r, prngReg c r) := by
  unfold Pipeline.ΦA RestOther0
  rw [Pipeline.scopedRest_split_of_list spec0 c [cc0_scratch0] (by decide) (by decide)]
  simp only [scM0_0, owns_whole]; rfl

/-- Before position `n`: at the start the class invariant (every scratch at anything); afterwards the accumulator at what the point before left. -/
def PhiS0 (c : Dev nD) : (n : ℕ) → n ≤ cfg0.N → sProp 𝕄
  | 0, _ => Pipeline.ΦA spec0 c
  | n + 1, hn => iprop((owns (c : Thread nD τ) scM0_0 fullShare (accAt0 V c n hn) ∗ RestOther0 c) ∗ ∃ r, prngReg c r)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0_0 fullShare (accAt0 V c n hn) ∗ RestOther0 c) ∗ ∃ r, prngReg c r) := rfl
theorem PhiS0_pos (c : Dev nD) (n : ℕ) (h : n ≤ cfg0.N) (hz : n ≠ 0) :
    PhiS0 V c n h = iprop((owns (c : Thread nD τ) scM0_0 fullShare (accAt0 V c (n - 1) (by omega)) ∗ RestOther0 c) ∗ ∃ r, prngReg c r) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0 V c t.val t.isLt
  Φ t := PhiS0 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Region0

end Cert.KernelIdeal.Fr

end
-- ==== Proof.KIBody0.lean ====
/-
  The first pallas_call's body obligation: at every grid point the body, handed the accumulator as the point before left it
  and the four input blocks, leaves the accumulator (and at column block 15 the output block) as the proof data say.
-/
import proofs.«110430_j65850438582800_2_alg».proof.Proof.KIDat0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases hc0 : cond0_0 (grid0.coords t)
  · have hc1 := excl0_a t hc0
    rw [Dat.leavesExact_idle (dat0 V c) 4 t (idleAt0_4 t hc1) (noFlush0_4 t hc1)]
    rw [accAt0_A V c t hc0 hc1]
    unfold sout0_A; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ hc0 hc1 (iblk0 V c 0 t) (iblk0 V c 1 t) (iblk0 V c 2 t) (iblk0 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ hc0 hc1 (iblk0 V c 0 t) (iblk0 V c 1 t) (iblk0 V c 2 t) (iblk0 V c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => hc0 ((hcond0_0 t).mpr (by rw [h]))
    by_cases hc1 : cond0_1 (grid0.coords t)
    · rw [show (dat0 V c).leavesExact 4 t = owns (c : Thread nD τ) (ms0_4 t) fullShare ((dat0 V c).after 4 t) from by
        unfold Dat.leavesExact; rw [liveAt0_4 t hc1], after0_4]
      rw [accAt0_C V c t hc0 hc1, outAt0_C V c t hc0 hc1]
      unfold out0_C sout0_C; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ hc0 hc1 (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C c _ _ _ _ _ _ _ _ _ _ _ _ _ _ _ _ _ _ _ _)
    · rw [Dat.leavesExact_idle (dat0 V c) 4 t (idleAt0_4 t hc1) (noFlush0_4 t hc1)]
      rw [accAt0_B V c t hc0 hc1]
      unfold sout0_B; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ hc0 hc1 (iblk0 V c 0 t) (iblk0 V c 1 t) (iblk0 V c 2 t) (iblk0 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, Hr⟩, Hg⟩
  isplitl [HS0 Hr]
  · isplitl [HS0]
    · iexists _; iexact HS0
    iexact Hr
  iexact Hg

end Region0

end Cert.KernelIdeal.Fr

end
-- ==== Proof.KIRuns1.lean ====
/-
  The second pallas_call's body, run once per control case.

  A grid point is (a, b): a row block of 2048 rows and a column block of 512. The body keeps a [2048, 128] accumulator in
  scratch across the 16 column blocks of one row block: at b = 0 it is zeroed, at every b the partial sums of the point
  are added to it, and at b = 15 its lane sum is stored into the output block. So a point is in one of three cases:
  b = 0 (zeroed, then added to), 0 < b < 15 (added to), b = 15 (added to, then summed into the output).
-/
import proofs.«110430_j65850438582800_2_alg».proof.Proof.Gen.KernelIdeal.Launch
import proofs.«110430_j65850438582800_2_alg».proof.Proof.Gen.KernelIdeal.Skeleton
import proofs.«110430_j65850438582800_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The accumulator is zeroed: the column-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The output block is stored: the column-block coordinate is 15. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called with -/

abbrev VO1_4 : View sig .tc .vmem S2048x1 .f32 := (Memref.whole cc1_stg4_0 : Memref sig .tc .vmem S2048x1 .f32).view
abbrev ms1_0 (t : Fin cfg1.N) : Memref sig .tc .vmem S2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1_0 : Memref sig .tc .vmem S2048x128 .f32 := Memref.whole cc1_scratch0
abbrev VS1_0 : View sig .tc .vmem S2048x128 .f32 := scM1_0.view

/-! ## The body's run per case -/

set_option maxHeartbeats 4000000 in
/-- Column block 0: the accumulator, at anything, is zeroed and the point's partial sums added; the output block is left as found. -/
noncomputable def kernelRun1_A (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : cond1_0 i) (hc1 : ¬cond1_1 i)
    (x0 : Vec F S2048x512 .bf16) (x1 : Vec F S512x512 .bf16) (x2 : Vec F S2048x1 .f32) (x3 : Vec F S1x512 .f32) :
    { LS0 : List (View.Piece (Elt F) S2048x128 .f32) //
      ∀ (xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__pairwise_exp_sum_kernel i arg2 harg2 arg3 harg3 arg4 harg4 arg5 harg5 arg6 harg6 arg7 harg7) K } := by
  refine ⟨?_, fun xi4 E K => ?run⟩
  case run =>
    simp only [cc1__pairwise_exp_sum_kernel_eq_skeleton]; unfold cc1__pairwise_exp_sum_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- A column block strictly between the first and the last: the point's partial sums are added to the accumulator the point before left; the output block is left as found. -/
noncomputable def kernelRun1_B (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond1_0 i) (hc1 : ¬cond1_1 i)
    (x0 : Vec F S2048x512 .bf16) (x1 : Vec F S512x512 .bf16) (x2 : Vec F S2048x1 .f32) (x3 : Vec F S1x512 .f32) (xs0 : Vec F S2048x128 .f32) :
    { LS0 : List (View.Piece (Elt F) S2048x128 .f32) //
      ∀ (xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__pairwise_exp_sum_kernel i arg2 harg2 arg3 harg3 arg4 harg4 arg5 harg5 arg6 harg6 arg7 harg7) K } := by
  refine ⟨?_, fun xi4 E K => ?run⟩
  case run =>
    simp only [cc1__pairwise_exp_sum_kernel_eq_skeleton]; unfold cc1__pairwise_exp_sum_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Column block 15: the point's partial sums are added to the accumulator, and its lane sums stored over the whole output block, found at anything. -/
noncomputable def kernelRun1_C (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond1_0 i) (hc1 : cond1_1 i)
    (x0 : Vec F S2048x512 .bf16) (x1 : Vec F S512x512 .bf16) (x2 : Vec F S2048x1 .f32) (x3 : Vec F S1x512 .f32) (xs0 : Vec F S2048x128 .f32) :
    Σ' (L4 : List (View.Piece (Elt F) S2048x1 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__pairwise_exp_sum_kernel i arg2 harg2 arg3 harg3 arg4 harg4 arg5 harg5 arg6 harg6 arg7 harg7) K } := by
  refine ⟨?_, ?_, fun E K => ?run⟩
  case run =>
    simp only [cc1__pairwise_exp_sum_kernel_eq_skeleton]; unfold cc1__pairwise_exp_sum_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Fr

end
-- ==== Proof.KIDat1.lean ====
/-
  The second pallas_call's proof data: what the accumulator and the output block hold after each grid point, and the body
  obligation at every point.

  After point (a, b) the accumulator holds the sum of the partial sums of the points (a, 0) … (a, b), started from zero at
  b = 0; the output block is stored at b = 15 only, as the accumulator's lane sums. The row block and the column block are
  two windows on ONE array, so each of the two holds half of the array's share.
-/
import proofs.«110430_j65850438582800_2_alg».proof.Proof.KIRuns1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

theorem scover1_A (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : cond1_0 i) (hc1 : ¬cond1_1 i) (x0 : Vec F S2048x512 .bf16) (x1 : Vec F S512x512 .bf16) (x2 : Vec F S2048x1 .f32) (x3 : Vec F S1x512 .f32) (y : S2048x128.Idx) :
    ∃ pc ∈ (kernelRun1_A c i arg2 harg2 arg3 harg3 arg4 harg4 arg5 harg5 arg6 harg6 arg7 harg7 hc0 hc1 x0 x1 x2 x3).1, y ∈ pc.1.set :=
  View.cover_of_tiledL (kernelRun1_A c i arg2 harg2 arg3 harg3 arg4 harg4 arg5 harg5 arg6 harg6 arg7 harg7 hc0 hc1 x0 x1 x2 x3).1 S2048x128.size (by sl_kernel_rfl) y
/-- The accumulator after a point of column block 0. -/
def sout1_A (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : cond1_0 i) (hc1 : ¬cond1_1 i) (x0 : Vec F S2048x512 .bf16) (x1 : Vec F S512x512 .bf16) (x2 : Vec F S2048x1 .f32) (x3 : Vec F S1x512 .f32) : Vec F S2048x128 .f32 :=
  VS1_0.read (Elt F) (VS1_0.writes (Elt F) VS1_0.junk (kernelRun1_A c i arg2 harg2 arg3 harg3 arg4 harg4 arg5 harg5 arg6 harg6 arg7 harg7 hc0 hc1 x0 x1 x2 x3).1)

theorem scover1_B (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond1_0 i) (hc1 : ¬cond1_1 i) (x0 : Vec F S2048x512 .bf16) (x1 : Vec F S512x512 .bf16) (x2 : Vec F S2048x1 .f32) (x3 : Vec F S1x512 .f32) (xs0 : Vec F S2048x128 .f32) (y : S2048x128.Idx) :
    ∃ pc ∈ (kernelRun1_B c i arg2 harg2 arg3 harg3 arg4 harg4 arg5 harg5 arg6 harg6 arg7 harg7 hc0 hc1 x0 x1 x2 x3 xs0).1, y ∈ pc.1.set :=
  View.cover_of_tiledL (kernelRun1_B c i arg2 harg2 arg3 harg3 arg4 harg4 arg5 harg5 arg6 harg6 arg7 harg7 hc0 hc1 x0 x1 x2 x3 xs0).1 S2048x128.size (by sl_kernel_rfl) y
/-- The accumulator after a point of a middle column block, over what the point before left. -/
def sout1_B (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond1_0 i) (hc1 : ¬cond1_1 i) (x0 : Vec F S2048x512 .bf16) (x1 : Vec F S512x512 .bf16) (x2 : Vec F S2048x1 .f32) (x3 : Vec F S1x512 .f32) (xs0 : Vec F S2048x128 .f32) : Vec F S2048x128 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).1)

theorem scover1_C (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond1_0 i) (hc1 : cond1_1 i) (x0 : Vec F S2048x512 .bf16) (x1 : Vec F S512x512 .bf16) (x2 : Vec F S2048x1 .f32) (x3 : Vec F S1x512 .f32) (xs0 : Vec F S2048x128 .f32) (y : S2048x128.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S2048x128.size (by sl_kernel_rfl) y
/-- The accumulator after a point of column block 15, over what the point before left. -/
def sout1_C (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond1_0 i) (hc1 : cond1_1 i) (x0 : Vec F S2048x512 .bf16) (x1 : Vec F S512x512 .bf16) (x2 : Vec F S2048x1 .f32) (x3 : Vec F S1x512 .f32) (xs0 : Vec F S2048x128 .f32) : Vec F S2048x128 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)
theorem cover1_C (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond1_0 i) (hc1 : cond1_1 i) (x0 : Vec F S2048x512 .bf16) (x1 : Vec F S512x512 .bf16) (x2 : Vec F S2048x1 .f32) (x3 : Vec F S1x512 .f32) (xs0 : Vec F S2048x128 .f32) (y : S2048x1.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S2048x1.size (by sl_kernel_rfl) y
/-- The output block after a point of column block 15. -/
def out1_C (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond1_0 i) (hc1 : cond1_1 i) (x0 : Vec F S2048x512 .bf16) (x1 : Vec F S512x512 .bf16) (x2 : Vec F S2048x1 .f32) (x3 : Vec F S1x512 .f32) (xs0 : Vec F S2048x128 .f32) : Vec F S2048x1 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-! ## The accumulator and the output block after each point -/

theorem excl1_a (t : Fin cfg1.N) (h : cond1_0 (grid1.coords t)) : ¬cond1_1 (grid1.coords t) := fun h' => by
  have a := (hcond1_0 t).mp h; have b := (hcond1_1 t).mp h'; omega
theorem excl1_b (t : Fin cfg1.N) (h : cond1_1 (grid1.coords t)) : ¬cond1_0 (grid1.coords t) := fun h' => excl1_a t h' h

/-- The accumulator after the body at position `n`, by recursion on the position. -/
def accAt1 (c : Dev nD) : (n : ℕ) → n < cfg1.N → Vec F S2048x128 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (excl1_a ⟨0, hn⟩ ((hcond1_0 ⟨0, hn⟩).mpr (Nat.zero_mod _))) (iblk1 V c 0 ⟨0, hn⟩) (iblk1 V c 1 ⟨0, hn⟩) (iblk1 V c 2 ⟨0, hn⟩) (iblk1 V c 3 ⟨0, hn⟩)
  | n + 1, hn =>
    if h0 : (n + 1) % 16 = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (excl1_a ⟨n + 1, hn⟩ ((hcond1_0 ⟨n + 1, hn⟩).mpr h0)) (iblk1 V c 0 ⟨n + 1, hn⟩) (iblk1 V c 1 ⟨n + 1, hn⟩) (iblk1 V c 2 ⟨n + 1, hn⟩) (iblk1 V c 3 ⟨n + 1, hn⟩)
    else if h1 : (n + 1) % 16 = 15 then
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn))
    else
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn))

theorem accAt1_A (c : Dev nD) (t : Fin cfg1.N) (hc0 : cond1_0 (grid1.coords t)) (hc1 : ¬cond1_1 (grid1.coords t)) :
    accAt1 V c t.val t.isLt = sout1_A c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) := by
  have h0 := (hcond1_0 t).mp hc0
  obtain ⟨n, hn⟩ := t
  cases n with
  | zero => exact rfl
  | succ n => exact (dif_pos h0).trans rfl

theorem accAt1_B (c : Dev nD) (t : Fin cfg1.N) (hc0 : ¬cond1_0 (grid1.coords t)) (hc1 : ¬cond1_1 (grid1.coords t)) :
    accAt1 V c t.val t.isLt = sout1_B c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (accAt1 V c (t.val - 1) (Nat.lt_of_le_of_lt (Nat.sub_le _ _) t.isLt)) := by
  have h0 : ¬ t.val % 16 = 0 := fun h => hc0 ((hcond1_0 t).mpr h)
  have h1 : ¬ t.val % 16 = 15 := fun h => hc1 ((hcond1_1 t).mpr h)
  obtain ⟨n, hn⟩ := t
  cases n with
  | zero => exact absurd (Nat.zero_mod _) h0
  | succ n => exact (dif_neg h0).trans ((dif_neg h1).trans rfl)

theorem accAt1_C (c : Dev nD) (t : Fin cfg1.N) (hc0 : ¬cond1_0 (grid1.coords t)) (hc1 : cond1_1 (grid1.coords t)) :
    accAt1 V c t.val t.isLt = sout1_C c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (accAt1 V c (t.val - 1) (Nat.lt_of_le_of_lt (Nat.sub_le _ _) t.isLt)) := by
  have h0 : ¬ t.val % 16 = 0 := fun h => hc0 ((hcond1_0 t).mpr h)
  have h1 : t.val % 16 = 15 := (hcond1_1 t).mp hc1
  obtain ⟨n, hn⟩ := t
  cases n with
  | zero => exact absurd (Nat.zero_mod _) h0
  | succ n => exact (dif_neg h0).trans ((dif_pos h1).trans rfl)

/-- The output block's staging buffer after the body at position `n`: the accumulator's lane sums at column block 15; elsewhere the
    body stores nothing there and the block is not written back, so the value is a placeholder nothing reads. -/
def outAt1 (c : Dev nD) (n : ℕ) (hn : n < cfg1.N) : Vec F S2048x1 .f32 :=
  if h1 : n % 16 = 15 then
    out1_C c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) scM1_0 (Memref.isWhole_whole _) (excl1_b ⟨n, hn⟩ ((hcond1_1 ⟨n, hn⟩).mpr h1)) ((hcond1_1 ⟨n, hn⟩).mpr h1) (iblk1 V c 0 ⟨n, hn⟩) (iblk1 V c 1 ⟨n, hn⟩) (iblk1 V c 2 ⟨n, hn⟩) (iblk1 V c 3 ⟨n, hn⟩) (accAt1 V c (n - 1) (Nat.lt_of_le_of_lt (Nat.sub_le _ _) hn))
  else VO1_4.read (Elt F) VO1_4.junk

theorem outAt1_C (c : Dev nD) (t : Fin cfg1.N) (hc0 : ¬cond1_0 (grid1.coords t)) (hc1 : cond1_1 (grid1.coords t)) :
    outAt1 V c t.val t.isLt = out1_C c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (accAt1 V c (t.val - 1) (Nat.lt_of_le_of_lt (Nat.sub_le _ _) t.isLt)) :=
  (dif_pos ((hcond1_1 t).mp hc1)).trans rfl

/-! ## The region invariant -/

/-- The scoped buffers that are no staging buffer of this call and not its accumulator (the other call's), each at some contents. -/
def RestOther1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄) = iprop(((∃ d, owns (c : Thread nD τ) scM1_0 fullShare d) ∗ RestOther1 c) ∗ ∃ r, prngReg c r) := by
  unfold Pipeline.ΦA RestOther1
  rw [Pipeline.scopedRest_split_of_list spec1 c [cc1_scratch0] (by decide) (by decide)]
  simp only [scM1_0, owns_whole]; rfl

/-- Before position `n`: at the start the class invariant (every scratch at anything); afterwards the accumulator at what the point before left. -/
def PhiS1 (c : Dev nD) : (n : ℕ) → n ≤ cfg1.N → sProp 𝕄
  | 0, _ => Pipeline.ΦA spec1 c
  | n + 1, hn => iprop((owns (c : Thread nD τ) scM1_0 fullShare (accAt1 V c n hn) ∗ RestOther1 c) ∗ ∃ r, prngReg c r)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1_0 fullShare (accAt1 V c n hn) ∗ RestOther1 c) ∗ ∃ r, prngReg c r) := rfl
theorem PhiS1_pos (c : Dev nD) (n : ℕ) (h : n ≤ cfg1.N) (hz : n ≠ 0) :
    PhiS1 V c n h = iprop((owns (c : Thread nD τ) scM1_0 fullShare (accAt1 V c (n - 1) (by omega)) ∗ RestOther1 c) ∗ ∃ r, prngReg c r) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt1 V c t.val t.isLt
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Region1

end Cert.KernelIdeal.Fr

end
-- ==== Proof.KIBody1.lean ====
/-
  The second pallas_call's body obligation: at every grid point the body, handed the accumulator as the point before left it
  and the four input blocks, leaves the accumulator (and at column block 15 the output block) as the proof data say.
-/
import proofs.«110430_j65850438582800_2_alg».proof.Proof.KIDat1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases hc0 : cond1_0 (grid1.coords t)
  · have hc1 := excl1_a t hc0
    rw [Dat.leavesExact_idle (dat1 V c) 4 t (idleAt1_4 t hc1) (noFlush1_4 t hc1)]
    rw [accAt1_A V c t hc0 hc1]
    unfold sout1_A; (try dsimp only)
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ hc0 hc1 (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ hc0 hc1 (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => hc0 ((hcond1_0 t).mpr (by rw [h]))
    by_cases hc1 : cond1_1 (grid1.coords t)
    · rw [show (dat1 V c).leavesExact 4 t = owns (c : Thread nD τ) (ms1_4 t) fullShare ((dat1 V c).after 4 t) from by
        unfold Dat.leavesExact; rw [liveAt1_4 t hc1], after1_4]
      rw [accAt1_C V c t hc0 hc1, outAt1_C V c t hc0 hc1]
      unfold out1_C sout1_C; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ hc0 hc1 (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C c _ _ _ _ _ _ _ _ _ _ _ _ _ _ _ _ _ _ _ _)
    · rw [Dat.leavesExact_idle (dat1 V c) 4 t (idleAt1_4 t hc1) (noFlush1_4 t hc1)]
      rw [accAt1_B V c t hc0 hc1]
      unfold sout1_B; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ hc0 hc1 (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, Hr⟩, Hg⟩
  isplitl [HS0 Hr]
  · isplitl [HS0]
    · iexists _; iexact HS0
    iexact Hr
  iexact Hg

end Region1

end Cert.KernelIdeal.Fr

end
-- ==== Proof.KIShare.lean ====
/-
  The first and the second kernel call each hand one array to two windows. At a call's entry the core holds each of
  the call's four distinct arrays whole at the full share; the pipeline holds one points-to per window, so the full
  share of the array behind windows 0 and 1 is split into its left and right halves, one per window, and at the exit
  the two halves, at the same contents, are joined again into the full share.
-/
import proofs.«110430_j65850438582800_2_alg».proof.Proof.Gen.KernelIdeal.Launch
import Idealize.ShloMosaic.Lib.Pipeline.Kit
import Idealize.ShloMosaic.Lib.Pipeline.Regions
import Idealize.ShloMosaic.Lib.Pipeline.RegionsLoop

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

/-! ## Call 0 -/

/-- The pipeline's arrays of call 0, window by window: each window's array is a whole buffer. -/
theorem arrays_eq0 {c : Dev nD} (dat : Dat τ (Elt F) Unit ℕ (UR sig nD τ) ℕ cfg0 c)
    (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    dat.arrays G = (iprop((((c : Thread nD τ).loc main_v10) ↦{dat.share 0} V main_v10)
      ∗ (((c : Thread nD τ).loc main_v10) ↦{dat.share 1} V main_v10)
      ∗ (((c : Thread nD τ).loc main_v8) ↦{dat.share 2} V main_v8)
      ∗ (((c : Thread nD τ).loc main_v9) ↦{dat.share 3} V main_v9)
      ∗ (((c : Thread nD τ).loc main_v11) ↦{dat.share 4} V main_v11)) : sProp 𝕄) := by
  have h : dat.arrays G = bigSep Finset.univ fun w : Fin 5 =>
      ((((c : Thread nD τ).loc (Pipeline.arrRef spec0 w)) ↦{dat.share w} V (Pipeline.arrRef spec0 w)) : sProp 𝕄) := by
    unfold Dat.arrays
    exact bigSep_congr fun w _ => by rw [(arr_whole0 w).set_eq_univ, hG w]
  rw [h, bigSep_W0]

/-- The four distinct arrays of call 0, one by one. -/
theorem arrBufs_eq0 {c : Dev nD} (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v10) ↦{fullShare} V main_v10)
      ∗ (((c : Thread nD τ).loc main_v8) ↦{fullShare} V main_v8)
      ∗ (((c : Thread nD τ).loc main_v9) ↦{fullShare} V main_v9)
      ∗ (((c : Thread nD τ).loc main_v11) ↦{fullShare} V main_v11)) := by
  unfold Pipeline.arrBufs
  rw [bigSep_eq_bigSepL_of_eq [main_v10, main_v8, main_v9, main_v11] (by decide) (by decide)]
  rfl

/-- The shares call 0's pipeline holds its windows' arrays at: the two halves for the shared array, full for the rest. -/
theorem shares0 {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare) :
    dat.share 0 = fullShare.left ∧ dat.share 1 = fullShare.right ∧ dat.share 2 = fullShare ∧ dat.share 3 = fullShare
      ∧ dat.share 4 = fullShare :=
  ⟨by unfold Dat.share; rw [hq0]; rfl, by unfold Dat.share; rw [hq1]; rfl, by unfold Dat.share; rw [hq2]; rfl,
    by unfold Dat.share; rw [hq3]; rfl, rfl⟩

/-- ENTRY: the four arrays whole at the full share are the pipeline's arrays, the shared array's full share split
    into its two halves. -/
theorem arrays_of_arrBufs0 {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (Pipeline.arrBufs (Ix := Unit) (Name := ℕ) (U := UR sig nD τ) (Lvl := ℕ) spec0 c V : sProp 𝕄) ⊢ dat.arrays G := by
  obtain ⟨hs0, hs1, hs2, hs3, hs4⟩ := shares0 dat hq0 hq1 hq2 hq3
  rw [arrays_eq0 dat V G hG, arrBufs_eq0 V, hs0, hs1, hs2, hs3, hs4]
  exact (sep_mono_l (pointsTo_share (PosShare.mem_left_op_right fullShare)).1).trans Idealize.SL.BI.sep_assoc

/-- EXIT: the pipeline's arrays are the four arrays whole at the full share, the two halves of the shared array,
    at the same contents, joined. -/
theorem arrBufs_of_arrays0 {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    dat.arrays G ⊢ (Pipeline.arrBufs (Ix := Unit) (Name := ℕ) (U := UR sig nD τ) (Lvl := ℕ) spec0 c V : sProp 𝕄) := by
  obtain ⟨hs0, hs1, hs2, hs3, hs4⟩ := shares0 dat hq0 hq1 hq2 hq3
  rw [arrays_eq0 dat V G hG, arrBufs_eq0 V, hs0, hs1, hs2, hs3, hs4]
  exact Idealize.SL.BI.sep_assoc'.trans (sep_mono_l (pointsTo_share (PosShare.mem_left_op_right fullShare)).2)

/-! ## Call 1 -/

/-- The pipeline's arrays of call 1, window by window: each window's array is a whole buffer. -/
theorem arrays_eq1 {c : Dev nD} (dat : Dat τ (Elt F) Unit ℕ (UR sig nD τ) ℕ cfg1 c)
    (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    dat.arrays G = (iprop((((c : Thread nD τ).loc main_v16) ↦{dat.share 0} V main_v16)
      ∗ (((c : Thread nD τ).loc main_v16) ↦{dat.share 1} V main_v16)
      ∗ (((c : Thread nD τ).loc main_v14) ↦{dat.share 2} V main_v14)
      ∗ (((c : Thread nD τ).loc main_v15) ↦{dat.share 3} V main_v15)
      ∗ (((c : Thread nD τ).loc main_v17) ↦{dat.share 4} V main_v17)) : sProp 𝕄) := by
  have h : dat.arrays G = bigSep Finset.univ fun w : Fin 5 =>
      ((((c : Thread nD τ).loc (Pipeline.arrRef spec1 w)) ↦{dat.share w} V (Pipeline.arrRef spec1 w)) : sProp 𝕄) := by
    unfold Dat.arrays
    exact bigSep_congr fun w _ => by rw [(arr_whole1 w).set_eq_univ, hG w]
  rw [h, bigSep_W1]

/-- The four distinct arrays of call 1, one by one. -/
theorem arrBufs_eq1 {c : Dev nD} (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v16) ↦{fullShare} V main_v16)
      ∗ (((c : Thread nD τ).loc main_v14) ↦{fullShare} V main_v14)
      ∗ (((c : Thread nD τ).loc main_v15) ↦{fullShare} V main_v15)
      ∗ (((c : Thread nD τ).loc main_v17) ↦{fullShare} V main_v17)) := by
  unfold Pipeline.arrBufs
  rw [bigSep_eq_bigSepL_of_eq [main_v16, main_v14, main_v15, main_v17] (by decide) (by decide)]
  rfl

/-- The shares call 1's pipeline holds its windows' arrays at: the two halves for the shared array, full for the rest. -/
theorem shares1 {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare) :
    dat.share 0 = fullShare.left ∧ dat.share 1 = fullShare.right ∧ dat.share 2 = fullShare ∧ dat.share 3 = fullShare
      ∧ dat.share 4 = fullShare :=
  ⟨by unfold Dat.share; rw [hq0]; rfl, by unfold Dat.share; rw [hq1]; rfl, by unfold Dat.share; rw [hq2]; rfl,
    by unfold Dat.share; rw [hq3]; rfl, rfl⟩

/-- ENTRY: the four arrays whole at the full share are the pipeline's arrays, the shared array's full share split
    into its two halves. -/
theorem arrays_of_arrBufs1 {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (Pipeline.arrBufs (Ix := Unit) (Name := ℕ) (U := UR sig nD τ) (Lvl := ℕ) spec1 c V : sProp 𝕄) ⊢ dat.arrays G := by
  obtain ⟨hs0, hs1, hs2, hs3, hs4⟩ := shares1 dat hq0 hq1 hq2 hq3
  rw [arrays_eq1 dat V G hG, arrBufs_eq1 V, hs0, hs1, hs2, hs3, hs4]
  exact (sep_mono_l (pointsTo_share (PosShare.mem_left_op_right fullShare)).1).trans Idealize.SL.BI.sep_assoc

/-- EXIT: the pipeline's arrays are the four arrays whole at the full share, the two halves of the shared array,
    at the same contents, joined. -/
theorem arrBufs_of_arrays1 {c : Dev nD} (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    dat.arrays G ⊢ (Pipeline.arrBufs (Ix := Unit) (Name := ℕ) (U := UR sig nD τ) (Lvl := ℕ) spec1 c V : sProp 𝕄) := by
  obtain ⟨hs0, hs1, hs2, hs3, hs4⟩ := shares1 dat hq0 hq1 hq2 hq3
  rw [arrays_eq1 dat V G hG, arrBufs_eq1 V, hs0, hs1, hs2, hs3, hs4]
  exact Idealize.SL.BI.sep_assoc'.trans (sep_mono_l (pointsTo_share (PosShare.mem_left_op_right fullShare)).2)

end Cert.KernelIdeal.Fr

end
-- ==== Proof.KIFrame.lean ====
/-
  The kernel program's run: its two pallas_calls as regions between the three stretches of host operations.

  Each region is entered with every unscoped buffer at the contents the host stretch before it left, hands the pipeline its
  four arrays (the array read through two windows as two half shares), and leaves them with the output array at what the
  write-backs made of it; the other buffers pass by unchanged. At the end every unscoped buffer is read off the last
  valuation: the arguments as launched, and the result as the last host stretch computes it from the two regions' outputs.
-/
import proofs.«110430_j65850438582800_2_alg».proof.Proof.KIBody0
import proofs.«110430_j65850438582800_2_alg».proof.Proof.KIBody1
import proofs.«110430_j65850438582800_2_alg».proof.Proof.KIShare
import proofs.«110430_j65850438582800_2_alg».proof.Proof.Gen.KernelIdeal.Regions
import Idealize.ShloMosaic.Lib.Pipeline.RegionsLoop

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The regions' entry contents and what they leave -/

/-- The buffers as the first region finds them. -/
abbrev Vr1 (c : Dev nD) (b : Ref sig .tc) : Buf (Elt F) ((c : Thread nD τ).loc b) := Gen.V1 m c b
/-- What the first region leaves in its output array. -/
def out2 (c : Dev nD) : Buf (Elt F) ((c : Thread nD τ).loc main_v11) := (dat0 (Vr1 m) c).arrAt 4 cfg0.N
/-- The regions' results with only the first filled in. -/
def outs2 : Gen.Outs (F := F) := fun _ r c => Function.update (Gen.V0 m c) main_v11 (out2 m c) r
theorem outs2_v11 (c : Dev nD) : outs2 m 2 main_v11 c = out2 m c := by
  unfold outs2; exact Function.update_self _ _ _
/-- The buffers as the second region finds them. -/
abbrev Vr3 (c : Dev nD) (b : Ref sig .tc) : Buf (Elt F) ((c : Thread nD τ).loc b) := Gen.V3 m (outs2 m) c b
/-- What the second region leaves in its output array. -/
def out4 (c : Dev nD) : Buf (Elt F) ((c : Thread nD τ).loc main_v17) := (dat1 (Vr3 m) c).arrAt 4 cfg1.N
/-- The regions' results. -/
def outsA : Gen.Outs (F := F) := fun _ r c => Function.update (Function.update (Gen.V0 m c) main_v11 (out2 m c)) main_v17 (out4 m c) r
theorem outsA_v17 (c : Dev nD) : outsA m 4 main_v17 c = out4 m c := by
  unfold outsA; exact Function.update_self _ _ _
theorem outsA_v11 (c : Dev nD) : outsA m 2 main_v11 c = out2 m c := by
  unfold outsA
  rw [Function.update_of_ne (StableHlo.devRef_ne_of_ne (by decide) : (Proc.devRef .tc main_v11 : DevRef τ sig) ≠ Proc.devRef .tc main_v17)]
  exact Function.update_self _ _ _

/-- The second region is entered from the same contents whichever of the two result families is read. -/
theorem V3_outsA (c : Dev nD) : Gen.V3 m (outsA m) c = Gen.V3 m (outs2 m) c := by
  show StableHlo.after hostOps1 (Function.update (Gen.V1 m c) main_v11 (outsA m 2 main_v11 c)) = StableHlo.after hostOps1 (Function.update (Gen.V1 m c) main_v11 (outs2 m 2 main_v11 c))
  rw [outsA_v11, outs2_v11]

/-! ## The proof data family and what rides beside the buffers -/

abbrev Lp : GSem nD τ sig → Finset Unit := fun _ => ∅
abbrev lvp : GSem nD τ sig → Unit → ℕ := fun _ _ => 0
/-- Beside the buffers through every segment: the generator register at some state and the core owing nothing. -/
abbrev Rr (c : Dev nD) : sProp 𝕄 := iprop((∃ r, prngReg c r) ∗ ∃ W, owes (c : Thread nD τ) (0 : CellTallies nD τ sig Unit) W)

/-- Each pipeline's proof data at its region's entry contents. -/
def pdats : (p : Fin 2) → (c : Dev nD) → Dat τ (Elt F) Unit ℕ (UR sig nD τ) ℕ (cfgs p) c
  | ⟨0, _⟩ => fun c => dat0 (Vr1 m) c
  | ⟨1, _⟩ => fun c => dat1 (Vr3 m) c

/-- What the region's arrays hold at its exit is the next valuation at them. -/
theorem hF0 (c : Dev nD) (w : Fin cfg0.W) : (dat0 (Vr1 m) c).arrAt w cfg0.N = Gen.V2 m (outsA m) c (Pipeline.arrRef spec0 w) := by
  match w with
  | ⟨0, _⟩ => exact ((dat0 (Vr1 m) c).arrAt_in 0 rfl _).trans ((A_eq0 (Vr1 m) c 0).trans (Gen.V2_of m (outsA m) c main_v10 (by decide)).symm)
  | ⟨1, _⟩ => exact ((dat0 (Vr1 m) c).arrAt_in 1 rfl _).trans ((A_eq0 (Vr1 m) c 1).trans (Gen.V2_of m (outsA m) c main_v10 (by decide)).symm)
  | ⟨2, _⟩ => exact ((dat0 (Vr1 m) c).arrAt_in 2 rfl _).trans ((A_eq0 (Vr1 m) c 2).trans (Gen.V2_of m (outsA m) c main_v8 (by decide)).symm)
  | ⟨3, _⟩ => exact ((dat0 (Vr1 m) c).arrAt_in 3 rfl _).trans ((A_eq0 (Vr1 m) c 3).trans (Gen.V2_of m (outsA m) c main_v9 (by decide)).symm)
  | ⟨4, _⟩ =>
    show out2 m c = Function.update (Gen.V1 m c) (Proc.devRef .tc main_v11) (outsA m 2 main_v11 c) (Proc.devRef .tc main_v11)
    rw [Function.update_self, outsA_v11]

/-- Off the region's arrays the next valuation is the entry one. -/
theorem hrest0 (c : Dev nD) (b : Ref sig .tc) (hb : b ∉ Finset.univ.image (Pipeline.arrRef spec0)) : Gen.V2 m (outsA m) c b = Gen.V1 m c b :=
  Gen.V2_of m (outsA m) c b (fun h => hb (by rw [List.mem_singleton.mp h]; exact Finset.mem_image.mpr ⟨4, Finset.mem_univ _, rfl⟩))

set_option backward.isDefEq.respectTransparency.types false in
/-- The region as a segment: its arrays dealt out of the unscoped buffers at entry (the doubly read array as two halves) and
    put back at exit; the generator register into the region invariant and out; nothing owed; no semaphore of the kernel's own. -/
def reg0 : RegionSeg (pcfgs (F := F)) Gen.adm (pdats m) () defs₀ Variants.none Lp lvp 0 where
  win := winFacts₀0
  block_pos := block_pos0
  stage_whole := stage_whole0
  K := PEmpty
  osem k := k.elim
  ho := Pipeline.OwnSemFacts.none _
  hbody c := (body_obligation0 (Vr1 m) c).loose
  hwaits := Pipeline.hwaits_of_owed_zero _ _ _ _ Lp lvp 0 fun _ _ => rfl
  pre c := iprop(StableHlo.held (c : Thread nD τ) (Pipeline.ucRefs τ sig) (Gen.V1 m c) ∗ Rr c)
  post c := iprop(StableHlo.held (c : Thread nD τ) (Pipeline.ucRefs τ sig) (Gen.V2 m (outsA m) c) ∗ Rr c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit : (StableHlo.held (c : Thread nD τ) (Pipeline.ucRefs τ sig) (Gen.V1 m c) : sProp 𝕄)
        ⊢ iprop((pdats m 0 c).arrays ((pdats m 0 c).arrAt · 0) ∗ Pipeline.unscopedRest (Ix := Unit) (Name := ℕ) (U := UR sig nD τ) (Lvl := ℕ) spec0 c (Vr1 m c)) := by
      rw [← Pipeline.unscopedBufs_held (Ix := Unit) (Name := ℕ) (U := UR sig nD τ) (Lvl := ℕ) c (Gen.V1 m c),
        Pipeline.unscopedBufs_split₀ cfgs 0 winFacts₀0.arr_unscoped c]
      exact sep_mono (arrays_of_arrBufs0 (dat0 (Vr1 m) c) rfl rfl rfl rfl (Vr1 m c) _ (fun _ => rfl)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Vr1 m) c).Φ 0 from rfl]
    iintro ⟨Hp, -, Hr⟩
    iapply (hin0 (Vr1 m) c)
    unfold Pipeline.ΦA
    isplitl [Hr]; · iexact Hr
    iexact Hp
  hout c := by
    rw [Pipeline.ownSems0_none]
    rw [show (pdats m 0 c).Φ (Fin.last _) = (dat0 (Vr1 m) c).Φ (Fin.last cfg0.N) from rfl]
    iintro H
    ihave H' := (hout0 (Vr1 m) c) $$ H
    unfold Pipeline.ΦA
    icases H' with ⟨Hr, Hp⟩
    isplitl [Hp]; · iexact Hp
    isplitr; · iempintro
    iexact Hr
  hexit c := by
    have hjoin : iprop((pdats m 0 c).arrays ((pdats m 0 c).arrAt · cfg0.N) ∗ Pipeline.unscopedRest (Ix := Unit) (Name := ℕ) (U := UR sig nD τ) (Lvl := ℕ) spec0 c (Vr1 m c))
        ⊢ (StableHlo.held (c : Thread nD τ) (Pipeline.ucRefs τ sig) (Gen.V2 m (outsA m) c) : sProp 𝕄) := by
      rw [← Pipeline.unscopedBufs_held (Ix := Unit) (Name := ℕ) (U := UR sig nD τ) (Lvl := ℕ) c (Gen.V2 m (outsA m) c),
        Pipeline.unscopedBufs_split₀ cfgs 0 winFacts₀0.arr_unscoped c]
      refine sep_mono (arrBufs_of_arrays0 (dat0 (Vr1 m) c) rfl rfl rfl rfl (fun b => Gen.V2 m (outsA m) c b) _ (hF0 m c)) (Entails.of_eq ?_)
      unfold Pipeline.unscopedRest
      exact bigSep_congr fun b hb => by
        show _ = (((c : Thread nD τ).loc b) ↦{fullShare} Gen.V2 m (outsA m) c b)
        rw [hrest0 m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- A reference the second region may not change keeps, after it, what the host stretch before it left. -/
theorem V4_of' (c : Dev nD) (r : Ref sig .tc) (h : r ∉ ([main_v17] : List (Ref sig .tc))) : Gen.V4 m (outsA m) c r = Gen.V3 m (outs2 m) c r :=
  (Gen.V4_of m (outsA m) c r h).trans (by rw [V3_outsA])

/-- What the region's arrays hold at its exit is the next valuation at them. -/
theorem hF1 (c : Dev nD) (w : Fin cfg1.W) : (dat1 (Vr3 m) c).arrAt w cfg1.N = Gen.V4 m (outsA m) c (Pipeline.arrRef spec1 w) := by
  match w with
  | ⟨0, _⟩ => exact ((dat1 (Vr3 m) c).arrAt_in 0 rfl _).trans ((A_eq1 (Vr3 m) c 0).trans (V4_of' m c main_v16 (by decide)).symm)
  | ⟨1, _⟩ => exact ((dat1 (Vr3 m) c).arrAt_in 1 rfl _).trans ((A_eq1 (Vr3 m) c 1).trans (V4_of' m c main_v16 (by decide)).symm)
  | ⟨2, _⟩ => exact ((dat1 (Vr3 m) c).arrAt_in 2 rfl _).trans ((A_eq1 (Vr3 m) c 2).trans (V4_of' m c main_v14 (by decide)).symm)
  | ⟨3, _⟩ => exact ((dat1 (Vr3 m) c).arrAt_in 3 rfl _).trans ((A_eq1 (Vr3 m) c 3).trans (V4_of' m c main_v15 (by decide)).symm)
  | ⟨4, _⟩ =>
    show out4 m c = Function.update (Gen.V3 m (outsA m) c) (Proc.devRef .tc main_v17) (outsA m 4 main_v17 c) (Proc.devRef .tc main_v17)
    rw [Function.update_self, outsA_v17]

/-- Off the region's arrays the next valuation is the entry one. -/
theorem hrest1 (c : Dev nD) (b : Ref sig .tc) (hb : b ∉ Finset.univ.image (Pipeline.arrRef spec1)) : Gen.V4 m (outsA m) c b = Gen.V3 m (outs2 m) c b :=
  V4_of' m c b (fun h => hb (by rw [List.mem_singleton.mp h]; exact Finset.mem_image.mpr ⟨4, Finset.mem_univ _, rfl⟩))

set_option backward.isDefEq.respectTransparency.types false in
/-- The region as a segment: its arrays dealt out of the unscoped buffers at entry (the doubly read array as two halves) and
    put back at exit; the generator register into the region invariant and out; nothing owed; no semaphore of the kernel's own. -/
def reg1 : RegionSeg (pcfgs (F := F)) Gen.adm (pdats m) () defs₀ Variants.none Lp lvp 1 where
  win := winFacts₀1
  block_pos := block_pos1
  stage_whole := stage_whole1
  K := PEmpty
  osem k := k.elim
  ho := Pipeline.OwnSemFacts.none _
  hbody c := (body_obligation1 (Vr3 m) c).loose
  hwaits := Pipeline.hwaits_of_owed_zero _ _ _ _ Lp lvp 1 fun _ _ => rfl
  pre c := iprop(StableHlo.held (c : Thread nD τ) (Pipeline.ucRefs τ sig) (Gen.V3 m (outs2 m) c) ∗ Rr c)
  post c := iprop(StableHlo.held (c : Thread nD τ) (Pipeline.ucRefs τ sig) (Gen.V4 m (outsA m) c) ∗ Rr c)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none]
    have hsplit : (StableHlo.held (c : Thread nD τ) (Pipeline.ucRefs τ sig) (Gen.V3 m (outs2 m) c) : sProp 𝕄)
        ⊢ iprop((pdats m 1 c).arrays ((pdats m 1 c).arrAt · 0) ∗ Pipeline.unscopedRest (Ix := Unit) (Name := ℕ) (U := UR sig nD τ) (Lvl := ℕ) spec1 c (Vr3 m c)) := by
      rw [← Pipeline.unscopedBufs_held (Ix := Unit) (Name := ℕ) (U := UR sig nD τ) (Lvl := ℕ) c (Gen.V3 m (outs2 m) c),
        Pipeline.unscopedBufs_split₀ cfgs 1 winFacts₀1.arr_unscoped c]
      exact sep_mono (arrays_of_arrBufs1 (dat1 (Vr3 m) c) rfl rfl rfl rfl (Vr3 m c) _ (fun _ => rfl)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Vr3 m) c).Φ 0 from rfl]
    iintro ⟨Hp, -, Hr⟩
    iapply (hin1 (Vr3 m) c)
    unfold Pipeline.ΦA
    isplitl [Hr]; · iexact Hr
    iexact Hp
  hout c := by
    rw [Pipeline.ownSems0_none]
    rw [show (pdats m 1 c).Φ (Fin.last _) = (dat1 (Vr3 m) c).Φ (Fin.last cfg1.N) from rfl]
    iintro H
    ihave H' := (hout1 (Vr3 m) c) $$ H
    unfold Pipeline.ΦA
    icases H' with ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (Vr3 m c))
        ⊢ (StableHlo.held (c : Thread nD τ) (Pipeline.ucRefs τ sig) (Gen.V4 m (outsA m) c) : sProp 𝕄) := by
      rw [← Pipeline.unscopedBufs_held (Ix := Unit) (Name := ℕ) (U := UR sig nD τ) (Lvl := ℕ) c (Gen.V4 m (outsA m) c),
        Pipeline.unscopedBufs_split₀ cfgs 1 winFacts₀1.arr_unscoped c]
      refine sep_mono (arrBufs_of_arrays1 (dat1 (Vr3 m) c) rfl rfl rfl rfl (fun b => Gen.V4 m (outsA m) c b) _ (hF1 m c)) (Entails.of_eq ?_)
      unfold Pipeline.unscopedRest
      exact bigSep_congr fun b hb => by
        show _ = (((c : Thread nD τ).loc b) ↦{fullShare} Gen.V4 m (outsA m) c b)
        rw [hrest1 m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory `m` with zero counters terminates, nothing faulting, and every final memory
    holds each unscoped buffer at the last valuation: the launch contents taken through the three host stretches, the two
    regions' output arrays at what their write-backs made of them. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Gen.V5 m (outsA m) c b) := by
  refine Pipeline.θ_run_regions_kit_dev (pcfgs (F := F)) Gen.adm (pdats m) () cellOf_inj emb₁ defs₀ Variants.none Lp lvp m ρ main
    (Gen.segs m (outsA m) Variants.none Lp lvp (fun _ => Rr) () (pdats m) (reg0 m) (reg1 m))
    (fun c Q => by
      rewrite [main_chain c, Seg.run_eq_chain,
        show (Gen.segs m (outsA m) Variants.none Lp lvp (fun _ => Rr) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c))
    (Tₙ := fun c => StableHlo.held (c : Thread nD τ) (Pipeline.ucRefs τ sig) (Gen.V5 m (outsA m) c))
    (hch := fun c => ⟨.rfl, .rfl, .rfl, (by show iprop(StableHlo.held (c : Thread nD τ) (Pipeline.ucRefs τ sig) (Gen.V3 m (outsA m) c) ∗ Rr c) ⊢ iprop(StableHlo.held (c : Thread nD τ) (Pipeline.ucRefs τ sig) (Gen.V3 m (outs2 m) c) ∗ Rr c); rw [V3_outsA]), .rfl,
      sep_mono .rfl (by iintro ⟨-, H⟩; iexact H)⟩)
    (hinit := by
      refine Pipeline.initEach Lp lvp fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V5 m (outsA m) c b)
    (hfin := fun c s' => by
      unfold StableHlo.held
      iintro ⟨Hh, HSI⟩
      imodintro
      iapply (pointsTo_read_all (Pipeline.ucRefs τ sig) (fun b => (((c : Thread nD τ)).1, b)) (Gen.V5 m (outsA m) c) s')
      isplitl [Hh] <;> iassumption)
    (hQ := fun _ h => h)

/-- An unscoped TensorCore reference is among those the last state is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (Gen.V5_main_arg0 m (outsA m) c),
    (h c _ (mem_uc main_arg1 (by decide))).trans (Gen.V5_main_arg1 m (outsA m) c)⟩) (run_all m ρ)

end Cert.KernelIdeal.Fr

end
-- ==== Proof.Spec.lean ====
/-
  The two losses as functions of the argument matrices, on the extended reals.

  For a matrix x of 8192 rows and 512 columns let s_i = Σ_k x_ik² be the squared norm of row i, g_ij = Σ_k x_ik x_jk the
  Gram entry, and κ_ij = exp(−2 · max(s_i + s_j − 2 g_ij, 0)) the Gaussian kernel of rows i and j. One program sums κ over
  the pairs i ≠ j directly (the diagonal masked to zero); the other sums κ over all pairs and subtracts the number of rows,
  the diagonal's contribution when every κ_ii is 1. The alignment term is the mean of the squared row distances, which one
  program computes as (√d)·(√d). The float literals stay as the words the programs print.
-/
import Idealize.ShloMosaic.PureOps.Ideal
import Idealize.ShloMosaic.Lib.ValueIdx

noncomputable section

namespace Cert.PairLoss

open Idealize.ShloMosaic

/-- A matrix of 8192 rows and 512 columns of extended reals, by row and column. -/
abbrev Mat : Type := Fin 8192 → Fin 512 → EReal

/-- The literal words of the two programs: 2, −2, 8192 (the number of rows), 8192 · 8191 (the number of ordered pairs) and 1/2. -/
def w2 : EReal := Ideal.ofBits .f32 0x40000000#32
def wm2 : EReal := Ideal.ofBits .f32 0xC0000000#32
def wn : EReal := Ideal.ofBits .f32 0x46000000#32
def wc : EReal := Ideal.ofBits .f32 0x4C7FF800#32
def wh : EReal := Ideal.ofBits .f32 0x3F000000#32

/-- The squared norm of row i. -/
def sqn (x : Mat) (i : Fin 8192) : EReal := ∑ k : Fin 512, x i k * x i k
/-- The Gram entry of rows i and j. -/
def gram (x : Mat) (i j : Fin 8192) : EReal := ∑ k : Fin 512, x i k * x j k
/-- The Gaussian kernel of rows i and j: exp(−2 · max(s_i + s_j − 2 g_ij, 0)). -/
def ker (x : Mat) (i j : Fin 8192) : EReal := Ideal.exp (wm2 * max (sqn x i + sqn x j - w2 * gram x i j) 0)
/-- The kernel summed over the pairs i ≠ j, the diagonal masked to zero. -/
def offdiag (x : Mat) : EReal := ∑ i : Fin 8192, ∑ j : Fin 8192, if i = j then 0 else ker x i j
/-- The kernel summed over all pairs. -/
def total (x : Mat) : EReal := ∑ i : Fin 8192, ∑ j : Fin 8192, ker x i j
/-- The squared distance of row i of x and row i of y. -/
def dist2 (x y : Mat) (i : Fin 8192) : EReal := ∑ k : Fin 512, (x i k - y i k) * (x i k - y i k)

/-- Every entry is a real number. -/
def Finite (x : Mat) : Prop := ∀ (i : Fin 8192) (k : Fin 512), ∃ r : ℝ, x i k = (r : EReal)

/-- An array of shape [8192, 512] as a matrix by row and column. -/
def mat (X : (⟨2, ![8192, 512]⟩ : Shape).Idx → EReal) : Mat := fun i k => X (ValueIdx.ix2 i k)

/-- Column 512 · b + 128 · g + l of the 8192, by block b of 512, lane group g of 128 and lane l. -/
def col (b : Fin 16) (g : Fin 4) (l : Fin 128) : Fin 8192 := ⟨512 * b.val + 128 * g.val + l.val, by omega⟩
/-- Row 2048 · a + p of the 8192, by block a of 2048 and row p inside it. -/
def row (a : Fin 4) (p : Fin 2048) : Fin 8192 := ⟨2048 * a.val + p.val, by omega⟩

/-- The masked kernel summed in the tiled order: per row block and row, per lane, per column block, per lane group. -/
def offdiagTiled (x : Mat) : EReal :=
  ∑ a : Fin 4, ∑ p : Fin 2048, ∑ l : Fin 128, ∑ b : Fin 16, ∑ g : Fin 4,
    if row a p = col b g l then 0 else ker x (row a p) (col b g l)

/-- The loss with the masked sum: mean squared row distance plus half the sum of the logs of the two mean kernels. -/
def lossMasked (x y : Mat) : EReal :=
  Ideal.div (∑ i : Fin 8192, dist2 x y i) wn
    + wh * (Ideal.log (Ideal.div (offdiag x) wc) + Ideal.log (Ideal.div (offdiag y) wc))

/-- The loss with the full sum less the number of rows, and the row distances as squares of their square roots. -/
def lossFull (x y : Mat) : EReal :=
  Ideal.div (∑ i : Fin 8192, Ideal.sqrt (dist2 x y i) * Ideal.sqrt (dist2 x y i)) wn
    + wh * (Ideal.log (Ideal.div (total x - wn) wc) + Ideal.log (Ideal.div (total y - wn) wc))

end Cert.PairLoss

end
-- ==== Proof.PayIdx.lean ====
/-
  The kernel body's arithmetic read at an index, at the ideal values.

  Per grid point (a, b) the body takes the row block x0 (2048 rows of 512), the column block x1 (512 rows of 512, rows
  of the same matrix), the row norms cS and the column norms rS, and forms, for row p and column q of the tile,
  κ(p, q) = exp(−2 · max(cS p + rS q − 2 · Σ_k x0 p k · x1 q k, 0)), set to zero where the global row 2048 a + p is the
  global column 512 b + q; the 512 columns are cut into 4 groups of 128 lanes and summed over the groups, so lane l of
  row p holds Σ_g κ(p, 128 g + l) masked. The other three payloads are the zero block, the sum of two blocks, and the
  sum of a block's 128 lanes.
-/
import proofs.«110430_j65850438582800_2_alg».proof.Proof.Gen.KernelIdeal.Skeleton
import proofs.«110430_j65850438582800_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdx

open Cert.KernelIdeal Cert.KernelIdeal.Gen Idealize.ShloMosaic Idealize.ShloMosaic.ValueIdx Cert.PairLoss
open scoped BigOperators

/-! ## The three short payloads -/

/-- The zero block: every entry is 0. -/
theorem pay3_apply0 (j : S2048x128.Idx) : k0_pay3 (F := Ideal) j = 0 := by
  unfold k0_pay3
  rw [shapeCast_self]
  exact Ideal.ofBits_zero_f32

/-- The sum of two blocks, entry by entry. -/
theorem pay1_apply0 (v38 v39 : FVec Ideal S2048x128 .f32) (j : S2048x128.Idx) :
    k0_pay1 (F := Ideal) v38 v39 j = v39 j + v38 j := by
  unfold k0_pay1
  rw [shapeCast_self]
  rfl

/-- A sum over the lanes of a [2048, 128] block, kept as a column: row p is the sum of the 128 lanes of row p. -/
theorem laneSum_apply (v : FVec Ideal S2048x128 .f32) (hφ : FKind.Formats .f32)
    (hacc : (0x00000000#32 : BitVec 32) = FKind.add.neutral .f32 hφ) (p : Fin 2048) :
    multiReduction (F := Ideal) .add [1] S2048 v 0x00000000#32 reduces_S2048x128_S2048 hφ hacc (ix1 p)
      = ∑ l : Fin 128, v (ix2 p l) := by
  refine (Ideal.multiReduction_add_single v 0x00000000#32 reduces_S2048x128_S2048 hφ hacc (ix1 p)).trans ?_
  refine Finset.sum_congr rfl fun l _ => congrArg v ?_
  funext c
  match c with
  | ⟨0, _⟩ => rfl
  | ⟨1, _⟩ => rfl

/-- The lane sum of a block: row p of the column is the sum of the 128 lanes of row p. -/
theorem pay2_apply0 (v47 : FVec Ideal S2048x128 .f32) (p : Fin 2048) :
    k0_pay2 (F := Ideal) v47 (ix2 p 0) = ∑ l : Fin 128, v47 (ix2 p l) := by
  unfold k0_pay2
  refine (shapeCast_apply _ shapeCasts_S2048_S2048x1 (ix2 p (0 : Fin 1)) (ix1 p) ?_).trans ?_
  · rw [Shape.rowMajor_val_one, Shape.rowMajor_val_two]
    show p.val = p.val * 1 + 0
    omega
  · exact laneSum_apply v47 _ _ p

/-! ## The operations of the long payload, one at a time -/

section Pointwise
variable {s : Shape}

/-- An integer sum at an index adds the words. -/
theorem addi_apply {w : Nat} (x y : IVec s w) (i : s.Idx) : addi x y i = IntOp.addi (x i) (y i) := rfl
/-- An integer comparison at an index compares the words. -/
theorem cmpi_apply {w : Nat} (c : CmpIPredicate) (x y : IVec s w) (i : s.Idx) : cmpi c x y i = IntOp.cmpi c (x i) (y i) := rfl
/-- An exponential at an index is the exponential of the element. -/
theorem exp_apply {φ : FTy} (x : FVec Ideal s φ) (i : s.Idx) : exp x i = Ideal.exp (x i) := rfl

end Pointwise

/-- A sum over the 4 lane groups of a [2048, 4, 128] block: entry (p, l) is the sum over g of entry (p, g, l). -/
theorem groupSum_apply (v : FVec Ideal S2048x4x128 .f32) (hφ : FKind.Formats .f32)
    (hacc : (0x00000000#32 : BitVec 32) = FKind.add.neutral .f32 hφ) (p : Fin 2048) (l : Fin 128) :
    multiReduction (F := Ideal) .add [1] S2048x128 v 0x00000000#32 reduces_S2048x4x128_S2048x128 hφ hacc (ix2 p l)
      = ∑ g : Fin 4, v (ix3 p g l) := by
  refine (Ideal.multiReduction_add_single v 0x00000000#32 reduces_S2048x4x128_S2048x128 hφ hacc (ix2 p l)).trans ?_
  refine Finset.sum_congr rfl fun g _ => congrArg v ?_
  funext c
  match c with
  | ⟨0, _⟩ => rfl
  | ⟨1, _⟩ => rfl
  | ⟨2, _⟩ => rfl

/-- The 512 columns cut into 4 groups of 128 lanes, row-major: entry (p, g, l) is entry (p, 128 g + l). -/
theorem split_apply {α : Type} (v : S2048x512.Idx → α) (p : Fin 2048) (g : Fin 4) (l : Fin 128) :
    shapeCast S2048x4x128 v shapeCasts_S2048x512_S2048x4x128 (ix3 p g l)
      = v (ix2 p (⟨128 * g.val + l.val, by omega⟩ : Fin 512)) := by
  refine shapeCast_apply v _ (ix3 p g l) (ix2 p (⟨128 * g.val + l.val, by omega⟩ : Fin 512)) ?_
  rw [Shape.rowMajor_val_two, Shape.rowMajor_val_three]
  show p.val * 512 + (128 * g.val + l.val) = (p.val * 4 + g.val) * 128 + l.val
  omega

/-- A column [a, 1] broadcast over b columns reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The global row ids of a tile: the block's first row plus the row inside the block, as 32-bit words. -/
theorem rowIds_apply (w : BitVec 32) (p : Fin 2048) (q : Fin 512) :
    broadcastTo S2048x512 (addi (broadcast S2048x1 w) (iota .tc S2048x1 32 [0] iota_S2048x1_d0_w32))
      broadcasts_S2048x1_S2048x512 (ix2 p q) = w + BitVec.ofNat 32 p.val := by
  rw [broadcastTo_a1_ab_apply, addi_apply, broadcast_apply, iota_single_apply]
  rfl

/-- The global column ids of a tile: the block's first column plus the column inside the block, as 32-bit words. -/
theorem colIds_apply (w : BitVec 32) (p : Fin 2048) (q : Fin 512) :
    broadcastTo S2048x512 (addi (broadcast S1x512 w) (iota .tc S1x512 32 [1] iota_S1x512_d1_w32))
      broadcasts_S1x512_S2048x512 (ix2 p q) = w + BitVec.ofNat 32 q.val := by
  rw [broadcastTo_1b_ab_apply, addi_apply, broadcast_apply, iota_single_apply]
  rfl

/-- A select on the equality of two 32-bit words is the `if` on their equality. -/
theorem select_cmpi_eq {α : Type} (x y : BitVec 32) (A B : α) :
    Scalar.select (IntOp.cmpi .eq x y) A B = if x = y then A else B := by
  show (if BitVec.ofBool (x == y) = 1 then A else B) = _
  by_cases h : x = y
  · have hb : (x == y) = true := beq_iff_eq.mpr h
    rw [hb, if_pos h]; rfl
  · have hb : (x == y) = false := beq_eq_false_iff_ne.mpr h
    rw [hb, if_neg h]; rfl

/-- Block offset times block size plus the coordinate inside, computed on 32-bit words, is the word of the natural. -/
theorem word_affine (c a p : Nat) :
    Scalar.muli (BitVec.ofNat 32 a) (BitVec.ofNat 32 c) + BitVec.ofNat 32 p = BitVec.ofNat 32 (c * a + p) := by
  show BitVec.ofNat 32 a * BitVec.ofNat 32 c + BitVec.ofNat 32 p = _
  rw [← BitVec.ofNat_mul, ← BitVec.ofNat_add, Nat.mul_comm]

/-- Two naturals below 2^32 have the same 32-bit word only when they are equal. -/
theorem word_eq_iff (m n : Nat) (hm : m < 4294967296) (hn : n < 4294967296) :
    BitVec.ofNat 32 m = BitVec.ofNat 32 n ↔ m = n := by
  constructor
  · intro h
    have h' := congrArg BitVec.toNat h
    rw [BitVec.toNat_ofNat, BitVec.toNat_ofNat] at h'
    omega
  · rintro rfl; rfl

/-! ### The Gram tile: the contraction over the 512 columns -/

theorem gram_lhs0 (j : S2048x512.Idx) (k : dot_S2048x512_S512x512_S2048x512_1_0_0_1_n_n.contr.Idx) :
    (dot_S2048x512_S512x512_S2048x512_1_0_0_1_n_n.lhsIdx j k 0).val = (j 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl
theorem gram_lhs1 (j : S2048x512.Idx) (k : dot_S2048x512_S512x512_S2048x512_1_0_0_1_n_n.contr.Idx) :
    (dot_S2048x512_S512x512_S2048x512_1_0_0_1_n_n.lhsIdx j k 1).val = (k ⟨0, by decide⟩).val :=
  dot_S2048x512_S512x512_S2048x512_1_0_0_1_n_n.lhsIdx_val_of_single rfl j k
theorem gram_rhs0 (j : S2048x512.Idx) (k : dot_S2048x512_S512x512_S2048x512_1_0_0_1_n_n.contr.Idx) :
    (dot_S2048x512_S512x512_S2048x512_1_0_0_1_n_n.rhsIdx j k 0).val = (k ⟨0, by decide⟩).val :=
  dot_S2048x512_S512x512_S2048x512_1_0_0_1_n_n.rhsIdx_val_of_single rfl j k
theorem gram_rhs1 (j : S2048x512.Idx) (k : dot_S2048x512_S512x512_S2048x512_1_0_0_1_n_n.contr.Idx) :
    (dot_S2048x512_S512x512_S2048x512_1_0_0_1_n_n.rhsIdx j k 1).val = (j 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-- The matrix product into a zero accumulator: entry (p, q) is the sum over k of x (p, k) · y (k, q). -/
theorem gram_apply (x : FVec Ideal S2048x512 .bf16) (y : FVec Ideal S512x512 .bf16) (p : Fin 2048) (q : Fin 512) :
    matmul (F := Ideal) dot_S2048x512_S512x512_S2048x512_1_0_0_1_n_n none x y (constant (F := Ideal) S2048x512 .f32 0x00000000#32) (ix2 p q)
      = ∑ k : Fin 512, x (ix2 p k) * y (ix2 k q) := by
  simp only [matmul]
  rw [Ideal.matmul_constant_zero_apply,
    ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p q)
      ((contrEquiv1 dot_S2048x512_S512x512_S2048x512_1_0_0_1_n_n 512 rfl rfl).symm k) = ix2 p k :=
    funext fun a => Fin.ext (by
      match a with
      | ⟨0, _⟩ => exact gram_lhs0 _ _
      | ⟨1, _⟩ => exact (gram_lhs1 _ _).trans hk)
  have er : dot_S2048x512_S512x512_S2048x512_1_0_0_1_n_n.rhsIdx (ix2 p q)
      ((contrEquiv1 dot_S2048x512_S512x512_S2048x512_1_0_0_1_n_n 512 rfl rfl).symm k) = ix2 k q :=
    funext fun a => Fin.ext (by
      match a with
      | ⟨0, _⟩ => exact (gram_rhs0 _ _).trans hk
      | ⟨1, _⟩ => exact gram_rhs1 _ _)
  rw [el, er]

/-- The transposed column block: entry (k, q) of the transpose is entry (q, k). -/
theorem transposeT_apply {α : Type} (x : S512x512.Idx → α) (k q : Fin 512) :
    transpose S512x512 [1, 0] x transposes_S512x512_p1_0_S512x512 (ix2 k q) = x (ix2 q k) :=
  transpose_ix2_apply x transposes_S512x512_p1_0_S512x512 k q

/-- The Gram tile of the row block and the column block: entry (p, q) is the sum over k of x (p, k) · y (q, k). -/
theorem gramT_apply (x : FVec Ideal S2048x512 .bf16) (y : FVec Ideal S512x512 .bf16) (p : Fin 2048) (q : Fin 512) :
    matmul (F := Ideal) dot_S2048x512_S512x512_S2048x512_1_0_0_1_n_n none x
        (transpose S512x512 [1, 0] y transposes_S512x512_p1_0_S512x512)
        (constant (F := Ideal) S2048x512 .f32 0x00000000#32) (ix2 p q)
      = ∑ k : Fin 512, x (ix2 p k) * y (ix2 q k) := by
  rw [gram_apply]
  exact Finset.sum_congr rfl fun k _ => congrArg (x (ix2 p k) * ·) (transposeT_apply y k q)

/-! ## The long payload -/

/-- Lane l of row p of the tile's result: the sum over the 4 lane groups of the masked kernel at column 128 g + l. -/
theorem pay4_apply0 (i : grid0.Coords) (x0 : FVec Ideal S2048x512 .bf16) (x1 : FVec Ideal S512x512 .bf16)
    (cS : FVec Ideal S2048x1 .f32) (rS : FVec Ideal S1x512 .f32) (p : Fin 2048) (l : Fin 128) :
    k0_pay4 (F := Ideal) i x0 x1 cS rS (ix2 p l)
      = ∑ g : Fin 4, (if 2048 * (i 0).val + p.val = 512 * (i 1).val + (128 * g.val + l.val) then (0 : EReal)
          else Ideal.exp (wm2 * max (cS (ix2 p 0) + rS (ix2 0 (⟨128 * g.val + l.val, by omega⟩ : Fin 512))
            - w2 * ∑ k : Fin 512, x0 (ix2 p k) * x1 (ix2 (⟨128 * g.val + l.val, by omega⟩ : Fin 512) k)) 0)) := by
  unfold k0_pay4
  dsimp only
  simp only [shapeCast_self]
  refine (groupSum_apply _ _ _ p l).trans ?_
  refine Finset.sum_congr rfl fun g _ => ?_
  refine (split_apply _ p g l).trans ?_
  rw [select_apply, cmpi_apply, rowIds_apply, colIds_apply, select_cmpi_eq]
  have h0 : (i 0).val < 4 := (i 0).isLt
  have h1 : (i 1).val < 16 := (i 1).isLt
  refine if_congr ?_ ?_ ?_
  · show Scalar.muli (BitVec.ofNat 32 (i 0).val) (BitVec.ofNat 32 2048) + BitVec.ofNat 32 p.val
        = Scalar.muli (BitVec.ofNat 32 (i 1).val) (BitVec.ofNat 32 512) + BitVec.ofNat 32 (128 * g.val + l.val) ↔ _
    rw [word_affine, word_affine]
    exact word_eq_iff _ _ (by omega) (by omega)
  · exact Ideal.ofBits_zero_f32
  · rw [exp_apply, mulf_apply, maximumf_apply, subf_apply, addf_apply, mulf_apply, broadcast_apply, broadcast_apply,
      broadcast_apply, broadcastTo_a1_ab_apply, broadcastTo_1b_ab_apply, gramT_apply]
    show Ideal.exp (Ideal.ofBits .f32 0xC0000000#32 * max (_ - Ideal.ofBits .f32 0x40000000#32 * _)
      (Ideal.ofBits .f32 0x00000000#32)) = _
    rw [Ideal.ofBits_zero_f32]
    unfold wm2 w2
    rfl

/-! ## The second call: the same body over the other matrix's blocks -/

/-- The zero block: every entry is 0. -/
theorem pay3_apply1 (j : S2048x128.Idx) : k1_pay3 (F := Ideal) j = 0 := by
  unfold k1_pay3
  rw [shapeCast_self]
  exact Ideal.ofBits_zero_f32

/-- The sum of two blocks, entry by entry. -/
theorem pay1_apply1 (v38 v39 : FVec Ideal S2048x128 .f32) (j : S2048x128.Idx) :
    k1_pay1 (F := Ideal) v38 v39 j = v39 j + v38 j := by
  unfold k1_pay1
  rw [shapeCast_self]
  rfl

/-- The lane sum of a block: row p of the column is the sum of the 128 lanes of row p. -/
theorem pay2_apply1 (v47 : FVec Ideal S2048x128 .f32) (p : Fin 2048) :
    k1_pay2 (F := Ideal) v47 (ix2 p 0) = ∑ l : Fin 128, v47 (ix2 p l) := by
  unfold k1_pay2
  refine (shapeCast_apply _ shapeCasts_S2048_S2048x1 (ix2 p (0 : Fin 1)) (ix1 p) ?_).trans ?_
  · rw [Shape.rowMajor_val_one, Shape.rowMajor_val_two]
    show p.val = p.val * 1 + 0
    omega
  · exact laneSum_apply v47 _ _ p

/-- Lane l of row p of the tile's result: the sum over the 4 lane groups of the masked kernel at column 128 g + l. -/
theorem pay4_apply1 (i : grid1.Coords) (x0 : FVec Ideal S2048x512 .bf16) (x1 : FVec Ideal S512x512 .bf16)
    (cS : FVec Ideal S2048x1 .f32) (rS : FVec Ideal S1x512 .f32) (p : Fin 2048) (l : Fin 128) :
    k1_pay4 (F := Ideal) i x0 x1 cS rS (ix2 p l)
      = ∑ g : Fin 4, (if 2048 * (i 0).val + p.val = 512 * (i 1).val + (128 * g.val + l.val) then (0 : EReal)
          else Ideal.exp (wm2 * max (cS (ix2 p 0) + rS (ix2 0 (⟨128 * g.val + l.val, by omega⟩ : Fin 512))
            - w2 * ∑ k : Fin 512, x0 (ix2 p k) * x1 (ix2 (⟨128 * g.val + l.val, by omega⟩ : Fin 512) k)) 0)) := by
  unfold k1_pay4
  dsimp only
  simp only [shapeCast_self]
  refine (groupSum_apply _ _ _ p l).trans ?_
  refine Finset.sum_congr rfl fun g _ => ?_
  refine (split_apply _ p g l).trans ?_
  rw [select_apply, cmpi_apply, rowIds_apply, colIds_apply, select_cmpi_eq]
  have h0 : (i 0).val < 4 := (i 0).isLt
  have h1 : (i 1).val < 16 := (i 1).isLt
  refine if_congr ?_ ?_ ?_
  · show Scalar.muli (BitVec.ofNat 32 (i 0).val) (BitVec.ofNat 32 2048) + BitVec.ofNat 32 p.val
        = Scalar.muli (BitVec.ofNat 32 (i 1).val) (BitVec.ofNat 32 512) + BitVec.ofNat 32 (128 * g.val + l.val) ↔ _
    rw [word_affine, word_affine]
    exact word_eq_iff _ _ (by omega) (by omega)
  · exact Ideal.ofBits_zero_f32
  · rw [exp_apply, mulf_apply, maximumf_apply, subf_apply, addf_apply, mulf_apply, broadcast_apply, broadcast_apply,
      broadcast_apply, broadcastTo_a1_ab_apply, broadcastTo_1b_ab_apply, gramT_apply]
    show Ideal.exp (Ideal.ofBits .f32 0xC0000000#32 * max (_ - Ideal.ofBits .f32 0x40000000#32 * _)
      (Ideal.ofBits .f32 0x00000000#32)) = _
    rw [Ideal.ofBits_zero_f32]
    unfold wm2 w2
    rfl

end Cert.KernelIdeal.PayIdx

end
-- ==== Proof.KIValue0.lean ====
/-
  The first pallas_call's output array, read as a value.

  The accumulator after grid point (a, b) holds, at row p and lane l, the sum over the column blocks b' ≤ b and the 4 lane
  groups g of the masked kernel of global row 2048 a + p and global column 512 b' + 128 g + l; the output block stored at
  b = 15 is its sum over the 128 lanes. The four flushing points (a, 15) write rows 2048 a … 2048 a + 2047 of the output
  column, so entry r of the column is the masked kernel of row r summed over all 8192 columns, in the order lanes, column
  blocks, lane groups.
-/
import proofs.«110430_j65850438582800_2_alg».proof.Proof.KIDat0
import proofs.«110430_j65850438582800_2_alg».proof.Proof.PayIdx
import proofs.«110430_j65850438582800_2_alg».proof.Proof.Spec
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.PayIdx Cert.PairLoss Idealize.ShloMosaic.ValueIdx
open scoped BigOperators

/-! ## What each control case leaves, as the payloads of the blocks it loaded -/

section Pieces
variable {F : FTy → Type} [FloatOps F]

theorem hz2_0 : (![0, 0] : Fin 2 → Nat) = fun _ => 0 := funext fun a => by fin_cases a <;> rfl

/-- Column block 0 leaves the accumulator at zero plus the point's partial sums. -/
theorem sout0_A_eq (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : cond0_0 i) (hc1 : ¬cond0_1 i) (x0 : Vec F S2048x512 .bf16) (x1 : Vec F S512x512 .bf16) (x2 : Vec F S2048x1 .f32) (x3 : Vec F S1x512 .f32) :
    sout0_A c i arg2 harg2 arg3 harg3 arg4 harg4 arg5 harg5 arg6 harg6 arg7 harg7 hc0 hc1 x0 x1 x2 x3 = k0_pay1 (k0_pay4 i x0 x1 x2 x3) k0_pay3 := by
  unfold sout0_A
  rw [View.read_writes_eq_canon _ _ _ (scover0_A c i arg2 harg2 arg3 harg3 arg4 harg4 arg5 harg5 arg6 harg6 arg7 harg7 hc0 hc1 x0 x1 x2 x3)]
  unfold kernelRun0_A
  dsimp only
  sl_unfold_words
  rw [View.canon_cons_unit_zero (S := S2048x128) hz2_0, View.readCov_unit_zero (S := S2048x128) _ hz2_0]
  simp only [View.readAt_eq_ld, harg2.read_unread, harg3.read_unread, harg4.read_unread, harg5.read_unread, View.ld_unit_zero (S := S2048x512) hz2_0, View.ld_unit_zero (S := S512x512) hz2_0, View.ld_unit_zero (S := S2048x1) hz2_0, View.ld_unit_zero (S := S1x512) hz2_0]

/-- A middle column block leaves the accumulator at what it held plus the point's partial sums. -/
theorem sout0_B_eq (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond0_0 i) (hc1 : ¬cond0_1 i) (x0 : Vec F S2048x512 .bf16) (x1 : Vec F S512x512 .bf16) (x2 : Vec F S2048x1 .f32) (x3 : Vec F S1x512 .f32) (xs0 : Vec F S2048x128 .f32) :
    sout0_B c i arg2 harg2 arg3 harg3 arg4 harg4 arg5 harg5 arg6 harg6 arg7 harg7 hc0 hc1 x0 x1 x2 x3 xs0 = k0_pay1 (k0_pay4 i x0 x1 x2 x3) xs0 := by
  unfold sout0_B
  rw [View.read_writes_eq_canon _ _ _ (scover0_B c i arg2 harg2 arg3 harg3 arg4 harg4 arg5 harg5 arg6 harg6 arg7 harg7 hc0 hc1 x0 x1 x2 x3 xs0)]
  unfold kernelRun0_B
  dsimp only
  sl_unfold_words
  rw [View.canon_unit_zero hz2_0]
  simp only [View.readAt_eq_ld, harg2.read_unread, harg3.read_unread, harg4.read_unread, harg5.read_unread, harg7.read_unread, View.ld_unit_zero (S := S2048x512) hz2_0, View.ld_unit_zero (S := S512x512) hz2_0, View.ld_unit_zero (S := S2048x1) hz2_0, View.ld_unit_zero (S := S1x512) hz2_0, View.ld_unit_zero (S := S2048x128) hz2_0]

/-- Column block 15 leaves the accumulator at what it held plus the point's partial sums. -/
theorem sout0_C_eq (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond0_0 i) (hc1 : cond0_1 i) (x0 : Vec F S2048x512 .bf16) (x1 : Vec F S512x512 .bf16) (x2 : Vec F S2048x1 .f32) (x3 : Vec F S1x512 .f32) (xs0 : Vec F S2048x128 .f32) :
    sout0_C c i arg2 harg2 arg3 harg3 arg4 harg4 arg5 harg5 arg6 harg6 arg7 harg7 hc0 hc1 x0 x1 x2 x3 xs0 = k0_pay1 (k0_pay4 i x0 x1 x2 x3) xs0 := by
  unfold sout0_C
  rw [View.read_writes_eq_canon _ _ _ (scover0_C c i arg2 harg2 arg3 harg3 arg4 harg4 arg5 harg5 arg6 harg6 arg7 harg7 hc0 hc1 x0 x1 x2 x3 xs0)]
  unfold kernelRun0_C
  dsimp only
  sl_unfold_words
  rw [View.canon_unit_zero hz2_0]
  simp only [View.readAt_eq_ld, harg2.read_unread, harg3.read_unread, harg4.read_unread, harg5.read_unread, harg7.read_unread, View.ld_unit_zero (S := S2048x512) hz2_0, View.ld_unit_zero (S := S512x512) hz2_0, View.ld_unit_zero (S := S2048x1) hz2_0, View.ld_unit_zero (S := S1x512) hz2_0, View.ld_unit_zero (S := S2048x128) hz2_0]

/-- Column block 15 stores, as the output block, the lane sums of the accumulator it has just updated. -/
theorem out0_C_eq (c : Dev nD) (i : grid0.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond0_0 i) (hc1 : cond0_1 i) (x0 : Vec F S2048x512 .bf16) (x1 : Vec F S512x512 .bf16) (x2 : Vec F S2048x1 .f32) (x3 : Vec F S1x512 .f32) (xs0 : Vec F S2048x128 .f32) :
    out0_C c i arg2 harg2 arg3 harg3 arg4 harg4 arg5 harg5 arg6 harg6 arg7 harg7 hc0 hc1 x0 x1 x2 x3 xs0 = k0_pay2 (k0_pay1 (k0_pay4 i x0 x1 x2 x3) xs0) := by
  unfold out0_C
  rw [View.read_writes_eq_canon _ _ _ (cover0_C c i arg2 harg2 arg3 harg3 arg4 harg4 arg5 harg5 arg6 harg6 arg7 harg7 hc0 hc1 x0 x1 x2 x3 xs0)]
  unfold kernelRun0_C
  dsimp only
  sl_unfold_words
  rw [View.canon_unit_zero hz2_0, View.readCov_unit_zero (S := S2048x128) _ hz2_0]
  simp only [View.readAt_eq_ld, harg2.read_unread, harg3.read_unread, harg4.read_unread, harg5.read_unread, harg7.read_unread, View.ld_unit_zero (S := S2048x512) hz2_0, View.ld_unit_zero (S := S512x512) hz2_0, View.ld_unit_zero (S := S2048x1) hz2_0, View.ld_unit_zero (S := S1x512) hz2_0, View.ld_unit_zero (S := S2048x128) hz2_0]

end Pieces

/-! ## The input blocks at an index -/

section Blocks
variable {F : FTy → Type} [FloatOps F]
variable (V : (c : Dev nD) → (b : Ref sig .tc) → Buf (Elt F) ((c : Thread nD τ).loc b))

/-- The index maps over the grid: point t = 16 a + b reads row block a and column block b, and writes row block a. -/
theorem idx_facts0 : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0 :=
  (by decide +kernel : ∀ t : Fin grid0.N, _)

/-- The grid coordinates of point t = 16 a + b are (a, b). -/
theorem coords_facts0 : ∀ t : Fin cfg0.N, (grid0.coords t 0).val = t.val / 16 ∧ (grid0.coords t 1).val = t.val % 16 :=
  (by decide +kernel : ∀ t : Fin grid0.N, _)

/-- The row block: entry (p, k) of the block at point (a, b) is entry (2048 a + p, k) of the matrix. -/
theorem iblk0_0_apply (c : Dev nD) (t : Fin cfg0.N) (p : Fin 2048) (k : Fin 512) (r : Fin 8192)
    (hr : r.val = 2048 * (t.val / 16) + p.val) :
    (iblk0 V c 0 t : Vec F S2048x512 .bf16) (ix2 p k) = V c main_v10 (ix2 r k) := by
  obtain ⟨e0, e1, -⟩ := idx_facts0 t
  unfold iblk0
  rw [View.read_apply]
  show V c main_v10 _ = V c main_v10 (ix2 r k)
  congr 1
  funext ax
  apply Fin.ext
  match ax with
  | ⟨0, _⟩ => show win0_0.index t (0 : Fin 2) * 2048 + 1 * p.val = r.val; rw [e0, hr]; omega
  | ⟨1, _⟩ => show win0_0.index t (1 : Fin 2) * 512 + 1 * k.val = k.val; rw [e1]; omega

/-- The column block, rows of the same matrix: entry (q, k) of the block at point (a, b) is entry (512 b + q, k). -/
theorem iblk0_1_apply (c : Dev nD) (t : Fin cfg0.N) (q : Fin 512) (k : Fin 512) (r : Fin 8192)
    (hr : r.val = 512 * (t.val % 16) + q.val) :
    (iblk0 V c 1 t : Vec F S512x512 .bf16) (ix2 q k) = V c main_v10 (ix2 r k) := by
  obtain ⟨-, -, e0, e1, -⟩ := idx_facts0 t
  unfold iblk0
  rw [View.read_apply]
  show V c main_v10 _ = V c main_v10 (ix2 r k)
  congr 1
  funext ax
  apply Fin.ext
  match ax with
  | ⟨0, _⟩ => show win0_1.index t (0 : Fin 2) * 512 + 1 * q.val = r.val; rw [e0, hr]; omega
  | ⟨1, _⟩ => show win0_1.index t (1 : Fin 2) * 512 + 1 * k.val = k.val; rw [e1]; omega

/-- The row norms' block: entry (p, 0) of the block at point (a, b) is entry (2048 a + p, 0) of the column. -/
theorem iblk0_2_apply (c : Dev nD) (t : Fin cfg0.N) (p : Fin 2048) (r : Fin 8192)
    (hr : r.val = 2048 * (t.val / 16) + p.val) :
    (iblk0 V c 2 t : Vec F S2048x1 .f32) (ix2 p 0) = V c main_v8 (ix2 r 0) := by
  obtain ⟨-, -, -, -, e0, e1, -⟩ := idx_facts0 t
  unfold iblk0
  rw [View.read_apply]
  show V c main_v8 _ = V c main_v8 (ix2 r 0)
  congr 1
  funext ax
  apply Fin.ext
  match ax with
  | ⟨0, _⟩ => show win0_2.index t (0 : Fin 2) * 2048 + 1 * p.val = r.val; rw [e0, hr]; omega
  | ⟨1, _⟩ => show win0_2.index t (1 : Fin 2) * 1 + 1 * 0 = 0; rw [e1]

/-- The column norms' block: entry (0, q) of the block at point (a, b) is entry (0, 512 b + q) of the row. -/
theorem iblk0_3_apply (c : Dev nD) (t : Fin cfg0.N) (q : Fin 512) (r : Fin 8192)
    (hr : r.val = 512 * (t.val % 16) + q.val) :
    (iblk0 V c 3 t : Vec F S1x512 .f32) (ix2 0 q) = V c main_v9 (ix2 0 r) := by
  obtain ⟨-, -, -, -, -, -, e0, e1, -⟩ := idx_facts0 t
  unfold iblk0
  rw [View.read_apply]
  show V c main_v9 _ = V c main_v9 (ix2 0 r)
  congr 1
  funext ax
  apply Fin.ext
  match ax with
  | ⟨0, _⟩ => show win0_3.index t (0 : Fin 2) * 1 + 1 * 0 = 0; rw [e0]
  | ⟨1, _⟩ => show win0_3.index t (1 : Fin 2) * 512 + 1 * q.val = r.val; rw [e1, hr]; omega

end Blocks

/-! ## The accumulator and the output block as sums of the masked kernel -/

section Value
variable (V : (c : Dev nD) → (b : Ref sig .tc) → Buf (Elt Ideal) ((c : Thread nD τ).loc b))

/-- The arrays as the region finds them, as extended reals: the squared norm of row r read from the [8192, 1] array, -/
def nrmOfRow0 (c : Dev nD) (r : Fin 8192) : EReal := V c main_v8 (ix2 r 0)
/-- the squared norm of row q read from the [1, 8192] array, -/
def nrmOfCol0 (c : Dev nD) (q : Fin 8192) : EReal := V c main_v9 (ix2 0 q)
/-- and entry (r, k) of the matrix. -/
def entry0 (c : Dev nD) (r : Fin 8192) (k : Fin 512) : EReal := V c main_v10 (ix2 r k)

/-- The masked kernel of rows r and q over those arrays. -/
def kap0 (c : Dev nD) (r q : Fin 8192) : EReal :=
  if r = q then 0 else Ideal.exp (wm2 * max (nrmOfRow0 V c r + nrmOfCol0 V c q
    - w2 * ∑ k : Fin 512, entry0 V c r k * entry0 V c q k) 0)

/-- The partial sum of point (a, b) at row p and lane l: the masked kernel of row 2048 a + p summed over the 4 lane
    groups of column block b. -/
def part0 (c : Dev nD) (a : Fin 4) (b : ℕ) (p : Fin 2048) (l : Fin 128) : EReal :=
  if h : b < 16 then ∑ g : Fin 4, kap0 V c (row a p) (col ⟨b, h⟩ g l) else 0

/-- The accumulator after point (a, b): the partial sums of the column blocks up to b. -/
def accVal0 (c : Dev nD) (a : Fin 4) (b : ℕ) (p : Fin 2048) (l : Fin 128) : EReal :=
  ∑ b' ∈ Finset.range (b + 1), part0 V c a b' p l

/-- Entry r of the output column: the masked kernel of row r over all columns, by lane, column block and lane group. -/
def rowTotal0 (c : Dev nD) (r : Fin 8192) : EReal :=
  ∑ l : Fin 128, ∑ b : Fin 16, ∑ g : Fin 4, kap0 V c r (col b g l)

/-- The long payload over blocks that are blocks of the arrays: the partial sum of the point. -/
theorem point0_apply_of (c : Dev nD) (i : grid0.Coords) (a : Fin 4) (b : Fin 16) (hi0 : (i 0).val = a.val) (hi1 : (i 1).val = b.val)
    (x0 : FVec Ideal S2048x512 .bf16) (x1 : FVec Ideal S512x512 .bf16) (cS : FVec Ideal S2048x1 .f32) (rS : FVec Ideal S1x512 .f32)
    (h0 : ∀ (p : Fin 2048) (k : Fin 512), x0 (ix2 p k) = entry0 V c (row a p) k)
    (h1 : ∀ (g : Fin 4) (l : Fin 128) (k : Fin 512),
      x1 (ix2 (⟨128 * g.val + l.val, by omega⟩ : Fin 512) k) = entry0 V c (col b g l) k)
    (h2 : ∀ p : Fin 2048, cS (ix2 p 0) = nrmOfRow0 V c (row a p))
    (h3 : ∀ (g : Fin 4) (l : Fin 128), rS (ix2 0 (⟨128 * g.val + l.val, by omega⟩ : Fin 512)) = nrmOfCol0 V c (col b g l))
    (p : Fin 2048) (l : Fin 128) :
    k0_pay4 (F := Ideal) i x0 x1 cS rS (ix2 p l) = ∑ g : Fin 4, kap0 V c (row a p) (col b g l) := by
  refine (pay4_apply0 i x0 x1 cS rS p l).trans ?_
  refine Finset.sum_congr rfl fun g _ => ?_
  unfold kap0
  have hsum : ∑ k : Fin 512, x0 (ix2 p k) * x1 (ix2 (⟨128 * g.val + l.val, by omega⟩ : Fin 512) k)
      = ∑ k : Fin 512, entry0 V c (row a p) k * entry0 V c (col b g l) k :=
    Finset.sum_congr rfl fun k _ => by rw [h0, h1]
  rw [hsum, h2, h3, hi0, hi1]
  refine if_congr ⟨fun h => Fin.ext ?_, fun h => ?_⟩ rfl rfl
  · show 2048 * a.val + p.val = 512 * b.val + 128 * g.val + l.val
    omega
  · have h' : 2048 * a.val + p.val = 512 * b.val + 128 * g.val + l.val := congrArg Fin.val h
    omega

/-- The long payload at point t = 16 a + b over the point's blocks: the partial sum of (a, b). -/
theorem point0_apply (c : Dev nD) (t : Fin cfg0.N) (a : Fin 4) (b : Fin 16) (ht : t.val = 16 * a.val + b.val)
    (p : Fin 2048) (l : Fin 128) :
    k0_pay4 (F := Ideal) (grid0.coords t) (iblk0 V c 0 t) (iblk0 V c 1 t) (iblk0 V c 2 t) (iblk0 V c 3 t) (ix2 p l) = part0 V c a b.val p l := by
  obtain ⟨hi0, hi1⟩ := coords_facts0 t
  have hbl := b.isLt
  have ha : t.val / 16 = a.val := by omega
  have hb : t.val % 16 = b.val := by omega
  unfold part0
  rw [dif_pos b.isLt]
  exact point0_apply_of V c (grid0.coords t) a b (hi0.trans ha) (hi1.trans hb) (iblk0 V c 0 t) (iblk0 V c 1 t) (iblk0 V c 2 t) (iblk0 V c 3 t)
    (fun p k => iblk0_0_apply V c t p k (row a p) (by show 2048 * a.val + p.val = _; rw [ha]))
    (fun g l k => iblk0_1_apply V c t _ k (col b g l) (by
      show 512 * b.val + 128 * g.val + l.val = 512 * (t.val % 16) + (128 * g.val + l.val); rw [hb]; omega))
    (fun p => iblk0_2_apply V c t p (row a p) (by show 2048 * a.val + p.val = _; rw [ha]))
    (fun g l => iblk0_3_apply V c t _ (col b g l) (by
      show 512 * b.val + 128 * g.val + l.val = 512 * (t.val % 16) + (128 * g.val + l.val); rw [hb]; omega)) p l

/-- THE ACCUMULATOR after point n = 16 a + b, at row p and lane l: the partial sums of the column blocks up to b. -/
theorem acc0_eq (c : Dev nD) : ∀ (n : ℕ) (hn : n < cfg0.N) (a : Fin 4) (b : Fin 16), n = 16 * a.val + b.val →
    ∀ (p : Fin 2048) (l : Fin 128), accAt0 (F := Ideal) V c n hn (ix2 p l) = accVal0 V c a b.val p l
  | 0, hn, a, b, h, p, l => by
    have hb : b.val = 0 := by omega
    have hc0 : cond0_0 (grid0.coords ⟨0, hn⟩) := (hcond0_0 ⟨0, hn⟩).mpr (Nat.zero_mod _)
    refine (congrFun (accAt0_A V c ⟨0, hn⟩ hc0 (excl0_a ⟨0, hn⟩ hc0)) (ix2 p l)).trans ?_
    refine (congrFun (sout0_A_eq (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) hc0 (excl0_a ⟨0, hn⟩ hc0) (iblk0 V c 0 ⟨0, hn⟩) (iblk0 V c 1 ⟨0, hn⟩) (iblk0 V c 2 ⟨0, hn⟩) (iblk0 V c 3 ⟨0, hn⟩)) (ix2 p l)).trans ?_
    refine (pay1_apply0 _ _ (ix2 p l)).trans ?_
    rw [pay3_apply0, zero_add, point0_apply V c ⟨0, hn⟩ a b h p l]
    unfold accVal0
    rw [hb, Finset.sum_range_one]
  | n + 1, hn, a, b, h, p, l => by
    have hbl := b.isLt
    by_cases h0 : (n + 1) % 16 = 0
    · have hb : b.val = 0 := by omega
      have hc0 : cond0_0 (grid0.coords ⟨n + 1, hn⟩) := (hcond0_0 ⟨n + 1, hn⟩).mpr h0
      refine (congrFun (accAt0_A V c ⟨n + 1, hn⟩ hc0 (excl0_a ⟨n + 1, hn⟩ hc0)) (ix2 p l)).trans ?_
      refine (congrFun (sout0_A_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) hc0 (excl0_a ⟨n + 1, hn⟩ hc0) (iblk0 V c 0 ⟨n + 1, hn⟩) (iblk0 V c 1 ⟨n + 1, hn⟩) (iblk0 V c 2 ⟨n + 1, hn⟩) (iblk0 V c 3 ⟨n + 1, hn⟩)) (ix2 p l)).trans ?_
      refine (pay1_apply0 _ _ (ix2 p l)).trans ?_
      rw [pay3_apply0, zero_add, point0_apply V c ⟨n + 1, hn⟩ a b h p l]
      unfold accVal0
      rw [hb, Finset.sum_range_one]
    · have hb : b.val ≠ 0 := by omega
      have hc0 : ¬cond0_0 (grid0.coords ⟨n + 1, hn⟩) := fun hh => h0 ((hcond0_0 ⟨n + 1, hn⟩).mp hh)
      have ih := acc0_eq c n (Nat.lt_of_succ_lt hn) a ⟨b.val - 1, by omega⟩ (by show n = 16 * a.val + (b.val - 1); omega) p l
      have hstep : accVal0 V c a (b.val - 1) p l + part0 V c a b.val p l = accVal0 V c a b.val p l := by
        unfold accVal0
        rw [show b.val - 1 + 1 = b.val by omega]
        exact (Finset.sum_range_succ _ _).symm
      by_cases h1 : (n + 1) % 16 = 15
      · have hc1 : cond0_1 (grid0.coords ⟨n + 1, hn⟩) := (hcond0_1 ⟨n + 1, hn⟩).mpr h1
        refine (congrFun (accAt0_C V c ⟨n + 1, hn⟩ hc0 hc1) (ix2 p l)).trans ?_
        refine (congrFun (sout0_C_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) hc0 hc1 (iblk0 V c 0 ⟨n + 1, hn⟩) (iblk0 V c 1 ⟨n + 1, hn⟩) (iblk0 V c 2 ⟨n + 1, hn⟩) (iblk0 V c 3 ⟨n + 1, hn⟩) (accAt0 V c ((⟨n + 1, hn⟩ : Fin cfg0.N).val - 1) (Nat.lt_of_le_of_lt (Nat.sub_le _ _) (⟨n + 1, hn⟩ : Fin cfg0.N).isLt))) (ix2 p l)).trans ?_
        refine (pay1_apply0 _ _ (ix2 p l)).trans ?_
        rw [point0_apply V c ⟨n + 1, hn⟩ a b h p l]
        refine Eq.trans ?_ hstep
        exact congrArg (· + part0 V c a b.val p l) ih
      · have hc1 : ¬cond0_1 (grid0.coords ⟨n + 1, hn⟩) := fun hh => h1 ((hcond0_1 ⟨n + 1, hn⟩).mp hh)
        refine (congrFun (accAt0_B V c ⟨n + 1, hn⟩ hc0 hc1) (ix2 p l)).trans ?_
        refine (congrFun (sout0_B_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) hc0 hc1 (iblk0 V c 0 ⟨n + 1, hn⟩) (iblk0 V c 1 ⟨n + 1, hn⟩) (iblk0 V c 2 ⟨n + 1, hn⟩) (iblk0 V c 3 ⟨n + 1, hn⟩) (accAt0 V c ((⟨n + 1, hn⟩ : Fin cfg0.N).val - 1) (Nat.lt_of_le_of_lt (Nat.sub_le _ _) (⟨n + 1, hn⟩ : Fin cfg0.N).isLt))) (ix2 p l)).trans ?_
        refine (pay1_apply0 _ _ (ix2 p l)).trans ?_
        rw [point0_apply V c ⟨n + 1, hn⟩ a b h p l]
        refine Eq.trans ?_ hstep
        exact congrArg (· + part0 V c a b.val p l) ih

end Value

/-! ## The output array -/

section Final
variable (V : (c : Dev nD) → (b : Ref sig .tc) → Buf (Elt Ideal) ((c : Thread nD τ).loc b))

/-- After the last column block the accumulator holds the sum over all 16 column blocks. -/
theorem accVal0_last (c : Dev nD) (a : Fin 4) (p : Fin 2048) (l : Fin 128) :
    accVal0 V c a 15 p l = ∑ b : Fin 16, ∑ g : Fin 4, kap0 V c (row a p) (col b g l) := by
  unfold accVal0
  show ∑ b' ∈ Finset.range 16, part0 V c a b' p l = _
  rw [Finset.sum_range (fun b' => part0 V c a b' p l)]
  refine Finset.sum_congr rfl fun b _ => ?_
  unfold part0
  rw [dif_pos b.isLt]

/-- THE OUTPUT BLOCK stored at point (a, 15): row p is the masked kernel of row 2048 a + p over all columns. -/
theorem out0_eq (c : Dev nD) (t : Fin cfg0.N) (a : Fin 4) (ht : t.val = 16 * a.val + 15) (p : Fin 2048) :
    outAt0 (F := Ideal) V c t.val t.isLt (ix2 p 0) = rowTotal0 V c (row a p) := by
  have h1 : t.val % 16 = 15 := by omega
  have hc1 : cond0_1 (grid0.coords t) := (hcond0_1 t).mpr h1
  have hc0 : ¬cond0_0 (grid0.coords t) := excl0_b t hc1
  refine (congrFun (outAt0_C V c t hc0 hc1) (ix2 p 0)).trans ?_
  refine (congrFun (out0_C_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t) (iblk0 V c 3 t) (accAt0 V c ((t : Fin cfg0.N).val - 1) (Nat.lt_of_le_of_lt (Nat.sub_le _ _) (t : Fin cfg0.N).isLt))) (ix2 p 0)).trans ?_
  refine (pay2_apply0 _ p).trans ?_
  unfold rowTotal0
  refine Finset.sum_congr rfl fun l _ => ?_
  refine (pay1_apply0 _ _ (ix2 p l)).trans ?_
  rw [point0_apply V c t a (15 : Fin 16) ht p l,
    acc0_eq V c (t.val - 1) (Nat.lt_of_le_of_lt (Nat.sub_le _ _) t.isLt) a (14 : Fin 16) (by show t.val - 1 = 16 * a.val + 14; omega) p l,
    ← accVal0_last]
  show accVal0 V c a 14 p l + part0 V c a 15 p l = accVal0 V c a 15 p l
  unfold accVal0
  exact (Finset.sum_range_succ _ 15).symm

/-- The output column as one function of its index. -/
def outCol0 (c : Dev nD) : S8192x1.Idx → EReal := fun i => rowTotal0 V c ⟨(i 0).val, idx2_lt0 i⟩

/-- What the flushing point (a, 15) writes back is its block of the output column. -/
theorem flushed0_4_eq (c : Dev nD) (t : Fin cfg0.N) (hf : (cfg0.win 4).flush t = true) :
    (dat0 (F := Ideal) V c).flushed 4 t = ((cfg0.win 4).blk t).view.read (Elt Ideal) (outCol0 V c) := by
  have h15 := (flush0_4 t).mp hf
  have hN : cfg0.N = 64 := N_0
  have hlt := t.isLt
  obtain ⟨-, -, -, -, -, -, -, -, e0, e1⟩ := idx_facts0 t
  show (cfg0.win 4).cut (grid0.coords t) ((dat0 V c).after 4 t) = _
  rw [after0_4]
  funext j
  obtain ⟨p, u, rfl⟩ : ∃ (p : Fin 2048) (u : Fin 1), j = ix2 p u := ⟨j 0, j 1, eq_ix2 j⟩
  obtain rfl : u = 0 := Subsingleton.elim _ _
  rw [View.read_apply]
  show outAt0 V c t.val t.isLt (ix2 p 0) = outCol0 V c (((cfg0.win 4).blk t).view.emb (ix2 p 0))
  rw [out0_eq V c t ⟨t.val / 16, by omega⟩ (by show t.val = 16 * (t.val / 16) + 15; omega) p]
  unfold outCol0
  refine congrArg (rowTotal0 V c) (Fin.ext ?_)
  show 2048 * (t.val / 16) + p.val = win0_4.index t (0 : Fin 2) * 2048 + 1 * p.val
  rw [e0]; omega

/-- An index of the output column is in point t's block iff each coordinate is in the block's range. -/
theorem mem_blk0_4 (t : Fin cfg0.N) (i : S8192x1.Idx) :
    i ∈ ((cfg0.win 4).blk t).view.set ↔ ∀ a : Fin 2, win0_4.index t a * S2048x1.size a ≤ (i a).val
      ∧ (i a).val < win0_4.index t a * S2048x1.size a + S2048x1.size a := by
  show i ∈ ((View.whole main_v11).slice (win0_4.rect t)).set ↔ _
  rw [View.set_slice_whole, Rect.mem_set_unit]
  exact Iff.rfl

/-- Row r of the output column is written back by the point (r / 2048, 15). -/
theorem cover0_4 (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 64 := N_0
  have hlt : 16 * ((i 0).val / 2048) + 15 < cfg0.N := by omega
  obtain ⟨-, -, -, -, -, -, -, -, e0, e1⟩ := idx_facts0 ⟨16 * ((i 0).val / 2048) + 15, hlt⟩
  refine ⟨⟨16 * ((i 0).val / 2048) + 15, hlt⟩, (flush0_4 _).mpr (by show (16 * ((i 0).val / 2048) + 15) % 16 = 15; omega), ?_⟩
  rw [mem_blk0_4]
  intro a
  match a with
  | ⟨0, _⟩ =>
    show win0_4.index ⟨16 * ((i 0).val / 2048) + 15, hlt⟩ (0 : Fin 2) * 2048 ≤ (i 0).val
      ∧ (i 0).val < win0_4.index ⟨16 * ((i 0).val / 2048) + 15, hlt⟩ (0 : Fin 2) * 2048 + 2048
    rw [e0]
    show (16 * ((i 0).val / 2048) + 15) / 16 * 2048 ≤ (i 0).val ∧ (i 0).val < (16 * ((i 0).val / 2048) + 15) / 16 * 2048 + 2048
    omega
  | ⟨1, _⟩ =>
    show win0_4.index ⟨16 * ((i 0).val / 2048) + 15, hlt⟩ (1 : Fin 2) * 1 ≤ (i 1).val
      ∧ (i 1).val < win0_4.index ⟨16 * ((i 0).val / 2048) + 15, hlt⟩ (1 : Fin 2) * 1 + 1
    rw [e1]; omega

/-- THE OUTPUT ARRAY after the first call: entry r is the masked kernel of row r summed over all 8192 columns, in the
    order lanes, column blocks, lane groups. -/
theorem final0 (c : Dev nD) (r : Fin 8192) :
    (dat0 (F := Ideal) V c).arrAt 4 cfg0.N (ix2 r 0)
      = ∑ l : Fin 128, ∑ b : Fin 16, ∑ g : Fin 4, if r = col b g l then (0 : EReal)
          else Ideal.exp (wm2 * max (nrmOfRow0 V c r + nrmOfCol0 V c (col b g l)
            - w2 * ∑ k : Fin 512, entry0 V c r k * entry0 V c (col b g l) k) 0) := by
  have h := (dat0 (F := Ideal) V c).arrAt_eq_of_cover 4 (outCol0 V c) (flushed0_4_eq V c) cover0_4
  rw [h]
  rfl

end Final

end Cert.KernelIdeal.Fr

end
-- ==== Proof.KIValue1.lean ====
/-
  The second pallas_call's output array, read as a value.

  The accumulator after grid point (a, b) holds, at row p and lane l, the sum over the column blocks b' ≤ b and the 4 lane
  groups g of the masked kernel of global row 2048 a + p and global column 512 b' + 128 g + l; the output block stored at
  b = 15 is its sum over the 128 lanes. The four flushing points (a, 15) write rows 2048 a … 2048 a + 2047 of the output
  column, so entry r of the column is the masked kernel of row r summed over all 8192 columns, in the order lanes, column
  blocks, lane groups.
-/
import proofs.«110430_j65850438582800_2_alg».proof.Proof.KIDat1
import proofs.«110430_j65850438582800_2_alg».proof.Proof.PayIdx
import proofs.«110430_j65850438582800_2_alg».proof.Proof.Spec
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.PayIdx Cert.PairLoss Idealize.ShloMosaic.ValueIdx
open scoped BigOperators

/-! ## What each control case leaves, as the payloads of the blocks it loaded -/

section Pieces
variable {F : FTy → Type} [FloatOps F]

theorem hz2_1 : (![0, 0] : Fin 2 → Nat) = fun _ => 0 := funext fun a => by fin_cases a <;> rfl

/-- Column block 0 leaves the accumulator at zero plus the point's partial sums. -/
theorem sout1_A_eq (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : cond1_0 i) (hc1 : ¬cond1_1 i) (x0 : Vec F S2048x512 .bf16) (x1 : Vec F S512x512 .bf16) (x2 : Vec F S2048x1 .f32) (x3 : Vec F S1x512 .f32) :
    sout1_A c i arg2 harg2 arg3 harg3 arg4 harg4 arg5 harg5 arg6 harg6 arg7 harg7 hc0 hc1 x0 x1 x2 x3 = k1_pay1 (k1_pay4 i x0 x1 x2 x3) k1_pay3 := by
  unfold sout1_A
  rw [View.read_writes_eq_canon _ _ _ (scover1_A c i arg2 harg2 arg3 harg3 arg4 harg4 arg5 harg5 arg6 harg6 arg7 harg7 hc0 hc1 x0 x1 x2 x3)]
  unfold kernelRun1_A
  dsimp only
  sl_unfold_words
  rw [View.canon_cons_unit_zero (S := S2048x128) hz2_1, View.readCov_unit_zero (S := S2048x128) _ hz2_1]
  simp only [View.readAt_eq_ld, harg2.read_unread, harg3.read_unread, harg4.read_unread, harg5.read_unread, View.ld_unit_zero (S := S2048x512) hz2_1, View.ld_unit_zero (S := S512x512) hz2_1, View.ld_unit_zero (S := S2048x1) hz2_1, View.ld_unit_zero (S := S1x512) hz2_1]

/-- A middle column block leaves the accumulator at what it held plus the point's partial sums. -/
theorem sout1_B_eq (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond1_0 i) (hc1 : ¬cond1_1 i) (x0 : Vec F S2048x512 .bf16) (x1 : Vec F S512x512 .bf16) (x2 : Vec F S2048x1 .f32) (x3 : Vec F S1x512 .f32) (xs0 : Vec F S2048x128 .f32) :
    sout1_B c i arg2 harg2 arg3 harg3 arg4 harg4 arg5 harg5 arg6 harg6 arg7 harg7 hc0 hc1 x0 x1 x2 x3 xs0 = k1_pay1 (k1_pay4 i x0 x1 x2 x3) xs0 := by
  unfold sout1_B
  rw [View.read_writes_eq_canon _ _ _ (scover1_B c i arg2 harg2 arg3 harg3 arg4 harg4 arg5 harg5 arg6 harg6 arg7 harg7 hc0 hc1 x0 x1 x2 x3 xs0)]
  unfold kernelRun1_B
  dsimp only
  sl_unfold_words
  rw [View.canon_unit_zero hz2_1]
  simp only [View.readAt_eq_ld, harg2.read_unread, harg3.read_unread, harg4.read_unread, harg5.read_unread, harg7.read_unread, View.ld_unit_zero (S := S2048x512) hz2_1, View.ld_unit_zero (S := S512x512) hz2_1, View.ld_unit_zero (S := S2048x1) hz2_1, View.ld_unit_zero (S := S1x512) hz2_1, View.ld_unit_zero (S := S2048x128) hz2_1]

/-- Column block 15 leaves the accumulator at what it held plus the point's partial sums. -/
theorem sout1_C_eq (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond1_0 i) (hc1 : cond1_1 i) (x0 : Vec F S2048x512 .bf16) (x1 : Vec F S512x512 .bf16) (x2 : Vec F S2048x1 .f32) (x3 : Vec F S1x512 .f32) (xs0 : Vec F S2048x128 .f32) :
    sout1_C c i arg2 harg2 arg3 harg3 arg4 harg4 arg5 harg5 arg6 harg6 arg7 harg7 hc0 hc1 x0 x1 x2 x3 xs0 = k1_pay1 (k1_pay4 i x0 x1 x2 x3) xs0 := by
  unfold sout1_C
  rw [View.read_writes_eq_canon _ _ _ (scover1_C c i arg2 harg2 arg3 harg3 arg4 harg4 arg5 harg5 arg6 harg6 arg7 harg7 hc0 hc1 x0 x1 x2 x3 xs0)]
  unfold kernelRun1_C
  dsimp only
  sl_unfold_words
  rw [View.canon_unit_zero hz2_1]
  simp only [View.readAt_eq_ld, harg2.read_unread, harg3.read_unread, harg4.read_unread, harg5.read_unread, harg7.read_unread, View.ld_unit_zero (S := S2048x512) hz2_1, View.ld_unit_zero (S := S512x512) hz2_1, View.ld_unit_zero (S := S2048x1) hz2_1, View.ld_unit_zero (S := S1x512) hz2_1, View.ld_unit_zero (S := S2048x128) hz2_1]

/-- Column block 15 stores, as the output block, the lane sums of the accumulator it has just updated. -/
theorem out1_C_eq (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x128 .f32) (harg7 : arg7.IsWhole) (hc0 : ¬cond1_0 i) (hc1 : cond1_1 i) (x0 : Vec F S2048x512 .bf16) (x1 : Vec F S512x512 .bf16) (x2 : Vec F S2048x1 .f32) (x3 : Vec F S1x512 .f32) (xs0 : Vec F S2048x128 .f32) :
    out1_C c i arg2 harg2 arg3 harg3 arg4 harg4 arg5 harg5 arg6 harg6 arg7 harg7 hc0 hc1 x0 x1 x2 x3 xs0 = k1_pay2 (k1_pay1 (k1_pay4 i x0 x1 x2 x3) xs0) := by
  unfold out1_C
  rw [View.read_writes_eq_canon _ _ _ (cover1_C c i arg2 harg2 arg3 harg3 arg4 harg4 arg5 harg5 arg6 harg6 arg7 harg7 hc0 hc1 x0 x1 x2 x3 xs0)]
  unfold kernelRun1_C
  dsimp only
  sl_unfold_words
  rw [View.canon_unit_zero hz2_1, View.readCov_unit_zero (S := S2048x128) _ hz2_1]
  simp only [View.readAt_eq_ld, harg2.read_unread, harg3.read_unread, harg4.read_unread, harg5.read_unread, harg7.read_unread, View.ld_unit_zero (S := S2048x512) hz2_1, View.ld_unit_zero (S := S512x512) hz2_1, View.ld_unit_zero (S := S2048x1) hz2_1, View.ld_unit_zero (S := S1x512) hz2_1, View.ld_unit_zero (S := S2048x128) hz2_1]

end Pieces

/-! ## The input blocks at an index -/

section Blocks
variable {F : FTy → Type} [FloatOps F]
variable (V : (c : Dev nD) → (b : Ref sig .tc) → Buf (Elt F) ((c : Thread nD τ).loc b))

/-- The index maps over the grid: point t = 16 a + b reads row block a and column block b, and writes row block a. -/
theorem idx_facts1 : ∀ t : Fin cfg1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = 0 ∧ win1_3.index t (1 : Fin 2) = t.val % 16
    ∧ win1_4.index t (0 : Fin 2) = t.val / 16 ∧ win1_4.index t (1 : Fin 2) = 0 :=
  (by decide +kernel : ∀ t : Fin grid1.N, _)

/-- The grid coordinates of point t = 16 a + b are (a, b). -/
theorem coords_facts1 : ∀ t : Fin cfg1.N, (grid1.coords t 0).val = t.val / 16 ∧ (grid1.coords t 1).val = t.val % 16 :=
  (by decide +kernel : ∀ t : Fin grid1.N, _)

/-- The row block: entry (p, k) of the block at point (a, b) is entry (2048 a + p, k) of the matrix. -/
theorem iblk1_0_apply (c : Dev nD) (t : Fin cfg1.N) (p : Fin 2048) (k : Fin 512) (r : Fin 8192)
    (hr : r.val = 2048 * (t.val / 16) + p.val) :
    (iblk1 V c 0 t : Vec F S2048x512 .bf16) (ix2 p k) = V c main_v16 (ix2 r k) := by
  obtain ⟨e0, e1, -⟩ := idx_facts1 t
  unfold iblk1
  rw [View.read_apply]
  show V c main_v16 _ = V c main_v16 (ix2 r k)
  congr 1
  funext ax
  apply Fin.ext
  match ax with
  | ⟨0, _⟩ => show win1_0.index t (0 : Fin 2) * 2048 + 1 * p.val = r.val; rw [e0, hr]; omega
  | ⟨1, _⟩ => show win1_0.index t (1 : Fin 2) * 512 + 1 * k.val = k.val; rw [e1]; omega

/-- The column block, rows of the same matrix: entry (q, k) of the block at point (a, b) is entry (512 b + q, k). -/
theorem iblk1_1_apply (c : Dev nD) (t : Fin cfg1.N) (q : Fin 512) (k : Fin 512) (r : Fin 8192)
    (hr : r.val = 512 * (t.val % 16) + q.val) :
    (iblk1 V c 1 t : Vec F S512x512 .bf16) (ix2 q k) = V c main_v16 (ix2 r k) := by
  obtain ⟨-, -, e0, e1, -⟩ := idx_facts1 t
  unfold iblk1
  rw [View.read_apply]
  show V c main_v16 _ = V c main_v16 (ix2 r k)
  congr 1
  funext ax
  apply Fin.ext
  match ax with
  | ⟨0, _⟩ => show win1_1.index t (0 : Fin 2) * 512 + 1 * q.val = r.val; rw [e0, hr]; omega
  | ⟨1, _⟩ => show win1_1.index t (1 : Fin 2) * 512 + 1 * k.val = k.val; rw [e1]; omega

/-- The row norms' block: entry (p, 0) of the block at point (a, b) is entry (2048 a + p, 0) of the column. -/
theorem iblk1_2_apply (c : Dev nD) (t : Fin cfg1.N) (p : Fin 2048) (r : Fin 8192)
    (hr : r.val = 2048 * (t.val / 16) + p.val) :
    (iblk1 V c 2 t : Vec F S2048x1 .f32) (ix2 p 0) = V c main_v14 (ix2 r 0) := by
  obtain ⟨-, -, -, -, e0, e1, -⟩ := idx_facts1 t
  unfold iblk1
  rw [View.read_apply]
  show V c main_v14 _ = V c main_v14 (ix2 r 0)
  congr 1
  funext ax
  apply Fin.ext
  match ax with
  | ⟨0, _⟩ => show win1_2.index t (0 : Fin 2) * 2048 + 1 * p.val = r.val; rw [e0, hr]; omega
  | ⟨1, _⟩ => show win1_2.index t (1 : Fin 2) * 1 + 1 * 0 = 0; rw [e1]

/-- The column norms' block: entry (0, q) of the block at point (a, b) is entry (0, 512 b + q) of the row. -/
theorem iblk1_3_apply (c : Dev nD) (t : Fin cfg1.N) (q : Fin 512) (r : Fin 8192)
    (hr : r.val = 512 * (t.val % 16) + q.val) :
    (iblk1 V c 3 t : Vec F S1x512 .f32) (ix2 0 q) = V c main_v15 (ix2 0 r) := by
  obtain ⟨-, -, -, -, -, -, e0, e1, -⟩ := idx_facts1 t
  unfold iblk1
  rw [View.read_apply]
  show V c main_v15 _ = V c main_v15 (ix2 0 r)
  congr 1
  funext ax
  apply Fin.ext
  match ax with
  | ⟨0, _⟩ => show win1_3.index t (0 : Fin 2) * 1 + 1 * 0 = 0; rw [e0]
  | ⟨1, _⟩ => show win1_3.index t (1 : Fin 2) * 512 + 1 * q.val = r.val; rw [e1, hr]; omega

end Blocks

/-! ## The accumulator and the output block as sums of the masked kernel -/

section Value
variable (V : (c : Dev nD) → (b : Ref sig .tc) → Buf (Elt Ideal) ((c : Thread nD τ).loc b))

/-- The arrays as the region finds them, as extended reals: the squared norm of row r read from the [8192, 1] array, -/
def nrmOfRow1 (c : Dev nD) (r : Fin 8192) : EReal := V c main_v14 (ix2 r 0)
/-- the squared norm of row q read from the [1, 8192] array, -/
def nrmOfCol1 (c : Dev nD) (q : Fin 8192) : EReal := V c main_v15 (ix2 0 q)
/-- and entry (r, k) of the matrix. -/
def entry1 (c : Dev nD) (r : Fin 8192) (k : Fin 512) : EReal := V c main_v16 (ix2 r k)

/-- The masked kernel of rows r and q over those arrays. -/
def kap1 (c : Dev nD) (r q : Fin 8192) : EReal :=
  if r = q then 0 else Ideal.exp (wm2 * max (nrmOfRow1 V c r + nrmOfCol1 V c q
    - w2 * ∑ k : Fin 512, entry1 V c r k * entry1 V c q k) 0)

/-- The partial sum of point (a, b) at row p and lane l: the masked kernel of row 2048 a + p summed over the 4 lane
    groups of column block b. -/
def part1 (c : Dev nD) (a : Fin 4) (b : ℕ) (p : Fin 2048) (l : Fin 128) : EReal :=
  if h : b < 16 then ∑ g : Fin 4, kap1 V c (row a p) (col ⟨b, h⟩ g l) else 0

/-- The accumulator after point (a, b): the partial sums of the column blocks up to b. -/
def accVal1 (c : Dev nD) (a : Fin 4) (b : ℕ) (p : Fin 2048) (l : Fin 128) : EReal :=
  ∑ b' ∈ Finset.range (b + 1), part1 V c a b' p l

/-- Entry r of the output column: the masked kernel of row r over all columns, by lane, column block and lane group. -/
def rowTotal1 (c : Dev nD) (r : Fin 8192) : EReal :=
  ∑ l : Fin 128, ∑ b : Fin 16, ∑ g : Fin 4, kap1 V c r (col b g l)

/-- The long payload over blocks that are blocks of the arrays: the partial sum of the point. -/
theorem point1_apply_of (c : Dev nD) (i : grid1.Coords) (a : Fin 4) (b : Fin 16) (hi0 : (i 0).val = a.val) (hi1 : (i 1).val = b.val)
    (x0 : FVec Ideal S2048x512 .bf16) (x1 : FVec Ideal S512x512 .bf16) (cS : FVec Ideal S2048x1 .f32) (rS : FVec Ideal S1x512 .f32)
    (h0 : ∀ (p : Fin 2048) (k : Fin 512), x0 (ix2 p k) = entry1 V c (row a p) k)
    (h1 : ∀ (g : Fin 4) (l : Fin 128) (k : Fin 512),
      x1 (ix2 (⟨128 * g.val + l.val, by omega⟩ : Fin 512) k) = entry1 V c (col b g l) k)
    (h2 : ∀ p : Fin 2048, cS (ix2 p 0) = nrmOfRow1 V c (row a p))
    (h3 : ∀ (g : Fin 4) (l : Fin 128), rS (ix2 0 (⟨128 * g.val + l.val, by omega⟩ : Fin 512)) = nrmOfCol1 V c (col b g l))
    (p : Fin 2048) (l : Fin 128) :
    k1_pay4 (F := Ideal) i x0 x1 cS rS (ix2 p l) = ∑ g : Fin 4, kap1 V c (row a p) (col b g l) := by
  refine (pay4_apply1 i x0 x1 cS rS p l).trans ?_
  refine Finset.sum_congr rfl fun g _ => ?_
  unfold kap1
  have hsum : ∑ k : Fin 512, x0 (ix2 p k) * x1 (ix2 (⟨128 * g.val + l.val, by omega⟩ : Fin 512) k)
      = ∑ k : Fin 512, entry1 V c (row a p) k * entry1 V c (col b g l) k :=
    Finset.sum_congr rfl fun k _ => by rw [h0, h1]
  rw [hsum, h2, h3, hi0, hi1]
  refine if_congr ⟨fun h => Fin.ext ?_, fun h => ?_⟩ rfl rfl
  · show 2048 * a.val + p.val = 512 * b.val + 128 * g.val + l.val
    omega
  · have h' : 2048 * a.val + p.val = 512 * b.val + 128 * g.val + l.val := congrArg Fin.val h
    omega

/-- The long payload at point t = 16 a + b over the point's blocks: the partial sum of (a, b). -/
theorem point1_apply (c : Dev nD) (t : Fin cfg1.N) (a : Fin 4) (b : Fin 16) (ht : t.val = 16 * a.val + b.val)
    (p : Fin 2048) (l : Fin 128) :
    k1_pay4 (F := Ideal) (grid1.coords t) (iblk1 V c 0 t) (iblk1 V c 1 t) (iblk1 V c 2 t) (iblk1 V c 3 t) (ix2 p l) = part1 V c a b.val p l := by
  obtain ⟨hi0, hi1⟩ := coords_facts1 t
  have hbl := b.isLt
  have ha : t.val / 16 = a.val := by omega
  have hb : t.val % 16 = b.val := by omega
  unfold part1
  rw [dif_pos b.isLt]
  exact point1_apply_of V c (grid1.coords t) a b (hi0.trans ha) (hi1.trans hb) (iblk1 V c 0 t) (iblk1 V c 1 t) (iblk1 V c 2 t) (iblk1 V c 3 t)
    (fun p k => iblk1_0_apply V c t p k (row a p) (by show 2048 * a.val + p.val = _; rw [ha]))
    (fun g l k => iblk1_1_apply V c t _ k (col b g l) (by
      show 512 * b.val + 128 * g.val + l.val = 512 * (t.val % 16) + (128 * g.val + l.val); rw [hb]; omega))
    (fun p => iblk1_2_apply V c t p (row a p) (by show 2048 * a.val + p.val = _; rw [ha]))
    (fun g l => iblk1_3_apply V c t _ (col b g l) (by
      show 512 * b.val + 128 * g.val + l.val = 512 * (t.val % 16) + (128 * g.val + l.val); rw [hb]; omega)) p l

/-- THE ACCUMULATOR after point n = 16 a + b, at row p and lane l: the partial sums of the column blocks up to b. -/
theorem acc1_eq (c : Dev nD) : ∀ (n : ℕ) (hn : n < cfg1.N) (a : Fin 4) (b : Fin 16), n = 16 * a.val + b.val →
    ∀ (p : Fin 2048) (l : Fin 128), accAt1 (F := Ideal) V c n hn (ix2 p l) = accVal1 V c a b.val p l
  | 0, hn, a, b, h, p, l => by
    have hb : b.val = 0 := by omega
    have hc0 : cond1_0 (grid1.coords ⟨0, hn⟩) := (hcond1_0 ⟨0, hn⟩).mpr (Nat.zero_mod _)
    refine (congrFun (accAt1_A V c ⟨0, hn⟩ hc0 (excl1_a ⟨0, hn⟩ hc0)) (ix2 p l)).trans ?_
    refine (congrFun (sout1_A_eq (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) hc0 (excl1_a ⟨0, hn⟩ hc0) (iblk1 V c 0 ⟨0, hn⟩) (iblk1 V c 1 ⟨0, hn⟩) (iblk1 V c 2 ⟨0, hn⟩) (iblk1 V c 3 ⟨0, hn⟩)) (ix2 p l)).trans ?_
    refine (pay1_apply1 _ _ (ix2 p l)).trans ?_
    rw [pay3_apply1, zero_add, point1_apply V c ⟨0, hn⟩ a b h p l]
    unfold accVal1
    rw [hb, Finset.sum_range_one]
  | n + 1, hn, a, b, h, p, l => by
    have hbl := b.isLt
    by_cases h0 : (n + 1) % 16 = 0
    · have hb : b.val = 0 := by omega
      have hc0 : cond1_0 (grid1.coords ⟨n + 1, hn⟩) := (hcond1_0 ⟨n + 1, hn⟩).mpr h0
      refine (congrFun (accAt1_A V c ⟨n + 1, hn⟩ hc0 (excl1_a ⟨n + 1, hn⟩ hc0)) (ix2 p l)).trans ?_
      refine (congrFun (sout1_A_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) hc0 (excl1_a ⟨n + 1, hn⟩ hc0) (iblk1 V c 0 ⟨n + 1, hn⟩) (iblk1 V c 1 ⟨n + 1, hn⟩) (iblk1 V c 2 ⟨n + 1, hn⟩) (iblk1 V c 3 ⟨n + 1, hn⟩)) (ix2 p l)).trans ?_
      refine (pay1_apply1 _ _ (ix2 p l)).trans ?_
      rw [pay3_apply1, zero_add, point1_apply V c ⟨n + 1, hn⟩ a b h p l]
      unfold accVal1
      rw [hb, Finset.sum_range_one]
    · have hb : b.val ≠ 0 := by omega
      have hc0 : ¬cond1_0 (grid1.coords ⟨n + 1, hn⟩) := fun hh => h0 ((hcond1_0 ⟨n + 1, hn⟩).mp hh)
      have ih := acc1_eq c n (Nat.lt_of_succ_lt hn) a ⟨b.val - 1, by omega⟩ (by show n = 16 * a.val + (b.val - 1); omega) p l
      have hstep : accVal1 V c a (b.val - 1) p l + part1 V c a b.val p l = accVal1 V c a b.val p l := by
        unfold accVal1
        rw [show b.val - 1 + 1 = b.val by omega]
        exact (Finset.sum_range_succ _ _).symm
      by_cases h1 : (n + 1) % 16 = 15
      · have hc1 : cond1_1 (grid1.coords ⟨n + 1, hn⟩) := (hcond1_1 ⟨n + 1, hn⟩).mpr h1
        refine (congrFun (accAt1_C V c ⟨n + 1, hn⟩ hc0 hc1) (ix2 p l)).trans ?_
        refine (congrFun (sout1_C_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) hc0 hc1 (iblk1 V c 0 ⟨n + 1, hn⟩) (iblk1 V c 1 ⟨n + 1, hn⟩) (iblk1 V c 2 ⟨n + 1, hn⟩) (iblk1 V c 3 ⟨n + 1, hn⟩) (accAt1 V c ((⟨n + 1, hn⟩ : Fin cfg1.N).val - 1) (Nat.lt_of_le_of_lt (Nat.sub_le _ _) (⟨n + 1, hn⟩ : Fin cfg1.N).isLt))) (ix2 p l)).trans ?_
        refine (pay1_apply1 _ _ (ix2 p l)).trans ?_
        rw [point1_apply V c ⟨n + 1, hn⟩ a b h p l]
        refine Eq.trans ?_ hstep
        exact congrArg (· + part1 V c a b.val p l) ih
      · have hc1 : ¬cond1_1 (grid1.coords ⟨n + 1, hn⟩) := fun hh => h1 ((hcond1_1 ⟨n + 1, hn⟩).mp hh)
        refine (congrFun (accAt1_B V c ⟨n + 1, hn⟩ hc0 hc1) (ix2 p l)).trans ?_
        refine (congrFun (sout1_B_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) hc0 hc1 (iblk1 V c 0 ⟨n + 1, hn⟩) (iblk1 V c 1 ⟨n + 1, hn⟩) (iblk1 V c 2 ⟨n + 1, hn⟩) (iblk1 V c 3 ⟨n + 1, hn⟩) (accAt1 V c ((⟨n + 1, hn⟩ : Fin cfg1.N).val - 1) (Nat.lt_of_le_of_lt (Nat.sub_le _ _) (⟨n + 1, hn⟩ : Fin cfg1.N).isLt))) (ix2 p l)).trans ?_
        refine (pay1_apply1 _ _ (ix2 p l)).trans ?_
        rw [point1_apply V c ⟨n + 1, hn⟩ a b h p l]
        refine Eq.trans ?_ hstep
        exact congrArg (· + part1 V c a b.val p l) ih

end Value

/-! ## The output array -/

section Final
variable (V : (c : Dev nD) → (b : Ref sig .tc) → Buf (Elt Ideal) ((c : Thread nD τ).loc b))

/-- After the last column block the accumulator holds the sum over all 16 column blocks. -/
theorem accVal1_last (c : Dev nD) (a : Fin 4) (p : Fin 2048) (l : Fin 128) :
    accVal1 V c a 15 p l = ∑ b : Fin 16, ∑ g : Fin 4, kap1 V c (row a p) (col b g l) := by
  unfold accVal1
  show ∑ b' ∈ Finset.range 16, part1 V c a b' p l = _
  rw [Finset.sum_range (fun b' => part1 V c a b' p l)]
  refine Finset.sum_congr rfl fun b _ => ?_
  unfold part1
  rw [dif_pos b.isLt]

/-- THE OUTPUT BLOCK stored at point (a, 15): row p is the masked kernel of row 2048 a + p over all columns. -/
theorem out1_eq (c : Dev nD) (t : Fin cfg1.N) (a : Fin 4) (ht : t.val = 16 * a.val + 15) (p : Fin 2048) :
    outAt1 (F := Ideal) V c t.val t.isLt (ix2 p 0) = rowTotal1 V c (row a p) := by
  have h1 : t.val % 16 = 15 := by omega
  have hc1 : cond1_1 (grid1.coords t) := (hcond1_1 t).mpr h1
  have hc0 : ¬cond1_0 (grid1.coords t) := excl1_b t hc1
  refine (congrFun (outAt1_C V c t hc0 hc1) (ix2 p 0)).trans ?_
  refine (congrFun (out1_C_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (accAt1 V c ((t : Fin cfg1.N).val - 1) (Nat.lt_of_le_of_lt (Nat.sub_le _ _) (t : Fin cfg1.N).isLt))) (ix2 p 0)).trans ?_
  refine (pay2_apply1 _ p).trans ?_
  unfold rowTotal1
  refine Finset.sum_congr rfl fun l _ => ?_
  refine (pay1_apply1 _ _ (ix2 p l)).trans ?_
  rw [point1_apply V c t a (15 : Fin 16) ht p l,
    acc1_eq V c (t.val - 1) (Nat.lt_of_le_of_lt (Nat.sub_le _ _) t.isLt) a (14 : Fin 16) (by show t.val - 1 = 16 * a.val + 14; omega) p l,
    ← accVal1_last]
  show accVal1 V c a 14 p l + part1 V c a 15 p l = accVal1 V c a 15 p l
  unfold accVal1
  exact (Finset.sum_range_succ _ 15).symm

/-- The output column as one function of its index. -/
def outCol1 (c : Dev nD) : S8192x1.Idx → EReal := fun i => rowTotal1 V c ⟨(i 0).val, idx2_lt0 i⟩

/-- What the flushing point (a, 15) writes back is its block of the output column. -/
theorem flushed1_4_eq (c : Dev nD) (t : Fin cfg1.N) (hf : (cfg1.win 4).flush t = true) :
    (dat1 (F := Ideal) V c).flushed 4 t = ((cfg1.win 4).blk t).view.read (Elt Ideal) (outCol1 V c) := by
  have h15 := (flush1_4 t).mp hf
  have hN : cfg1.N = 64 := N_1
  have hlt := t.isLt
  obtain ⟨-, -, -, -, -, -, -, -, e0, e1⟩ := idx_facts1 t
  show (cfg1.win 4).cut (grid1.coords t) ((dat1 V c).after 4 t) = _
  rw [after1_4]
  funext j
  obtain ⟨p, u, rfl⟩ : ∃ (p : Fin 2048) (u : Fin 1), j = ix2 p u := ⟨j 0, j 1, eq_ix2 j⟩
  obtain rfl : u = 0 := Subsingleton.elim _ _
  rw [View.read_apply]
  show outAt1 V c t.val t.isLt (ix2 p 0) = outCol1 V c (((cfg1.win 4).blk t).view.emb (ix2 p 0))
  rw [out1_eq V c t ⟨t.val / 16, by omega⟩ (by show t.val = 16 * (t.val / 16) + 15; omega) p]
  unfold outCol1
  refine congrArg (rowTotal1 V c) (Fin.ext ?_)
  show 2048 * (t.val / 16) + p.val = win1_4.index t (0 : Fin 2) * 2048 + 1 * p.val
  rw [e0]; omega

/-- An index of the output column is in point t's block iff each coordinate is in the block's range. -/
theorem mem_blk1_4 (t : Fin cfg1.N) (i : S8192x1.Idx) :
    i ∈ ((cfg1.win 4).blk t).view.set ↔ ∀ a : Fin 2, win1_4.index t a * S2048x1.size a ≤ (i a).val
      ∧ (i a).val < win1_4.index t a * S2048x1.size a + S2048x1.size a := by
  show i ∈ ((View.whole main_v17).slice (win1_4.rect t)).set ↔ _
  rw [View.set_slice_whole, Rect.mem_set_unit]
  exact Iff.rfl

/-- Row r of the output column is written back by the point (r / 2048, 15). -/
theorem cover1_4 (i : S8192x1.Idx) :
    ∃ t : Fin cfg1.N, (cfg1.win 4).flush t = true ∧ i ∈ ((cfg1.win 4).blk t).view.set := by
  have hi0 : (i 0).val < 8192 := (i 0).isLt
  have hi1 : (i 1).val < 1 := (i 1).isLt
  have hN : cfg1.N = 64 := N_1
  have hlt : 16 * ((i 0).val / 2048) + 15 < cfg1.N := by omega
  obtain ⟨-, -, -, -, -, -, -, -, e0, e1⟩ := idx_facts1 ⟨16 * ((i 0).val / 2048) + 15, hlt⟩
  refine ⟨⟨16 * ((i 0).val / 2048) + 15, hlt⟩, (flush1_4 _).mpr (by show (16 * ((i 0).val / 2048) + 15) % 16 = 15; omega), ?_⟩
  rw [mem_blk1_4]
  intro a
  match a with
  | ⟨0, _⟩ =>
    show win1_4.index ⟨16 * ((i 0).val / 2048) + 15, hlt⟩ (0 : Fin 2) * 2048 ≤ (i 0).val
      ∧ (i 0).val < win1_4.index ⟨16 * ((i 0).val / 2048) + 15, hlt⟩ (0 : Fin 2) * 2048 + 2048
    rw [e0]
    show (16 * ((i 0).val / 2048) + 15) / 16 * 2048 ≤ (i 0).val ∧ (i 0).val < (16 * ((i 0).val / 2048) + 15) / 16 * 2048 + 2048
    omega
  | ⟨1, _⟩ =>
    show win1_4.index ⟨16 * ((i 0).val / 2048) + 15, hlt⟩ (1 : Fin 2) * 1 ≤ (i 1).val
      ∧ (i 1).val < win1_4.index ⟨16 * ((i 0).val / 2048) + 15, hlt⟩ (1 : Fin 2) * 1 + 1
    rw [e1]; omega

/-- THE OUTPUT ARRAY after the second call: entry r is the masked kernel of row r summed over all 8192 columns, in the
    order lanes, column blocks, lane groups. -/
theorem final1 (c : Dev nD) (r : Fin 8192) :
    (dat1 (F := Ideal) V c).arrAt 4 cfg1.N (ix2 r 0)
      = ∑ l : Fin 128, ∑ b : Fin 16, ∑ g : Fin 4, if r = col b g l then (0 : EReal)
          else Ideal.exp (wm2 * max (nrmOfRow1 V c r + nrmOfCol1 V c (col b g l)
            - w2 * ∑ k : Fin 512, entry1 V c r k * entry1 V c (col b g l) k) 0) := by
  have h := (dat1 (F := Ideal) V c).arrAt_eq_of_cover 4 (outCol1 V c) (flushed1_4_eq V c) cover1_4
  rw [h]
  rfl

end Final

end Cert.KernelIdeal.Fr

end
-- ==== Proof.KIHostTerms.lean ====
/-
  The host operations of the kernel program read at an index: a row sum from the zero word is the sum over the
  columns, a vector laid out as a column or as a row reads its entry, and each buffer a host stretch leaves is the
  composed term of the contents the stretch starts from.
-/
import proofs.«110430_j65850438582800_2_alg».proof.Proof.Gen.KernelIdeal.Regions
import proofs.«110430_j65850438582800_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostValue

open Cert.KernelIdeal Cert.KernelIdeal.Gen Cert.PairLoss
open Idealize.ShloMosaic Idealize.ShloMosaic.TcCoe Idealize.SL.Sem Idealize.ShloMosaic.StableHlo Idealize.ShloMosaic.ValueIdx

/-! The operations of the host stretches read at an index, over variable arrays. -/

/-- A row sum from the zero word: the sum over the columns. -/
theorem rowsum_at (Z : FVec Ideal S8192x512 .f32) (r : Fin 8192) :
    Host.reduceAdd (F := Ideal) Z (constant S_ .f32 0x00000000#32) reducesTo_S8192x512_S8192_d1 h_S_ (ix1 r)
      = ∑ k : Fin 512, Z (ix2 r k) := by
  simp only [Host.reduceAdd, Ideal.hostReduceAdd_def]
  rw [Ideal.hostReduceAdd_single reducesTo_S8192x512_S8192_d1 (by decide)]
  refine (congrArg (_ + ·) (Finset.sum_congr (g := fun k : Fin 512 => Z (ix2 r k)) rfl fun k _ => ?_)).trans ?_
  · exact congrArg Z (funext fun a => Fin.ext (by match a with | ⟨0, _⟩ => rfl | ⟨1, _⟩ => rfl))
  · rw [constant_apply, Ideal.ofBits_zero_f32, zero_add]; rfl

/-- A vector as a column: row r of the column is entry r. -/
theorem col_at (s : FVec Ideal S8192 .f32) (r : Fin 8192) :
    broadcastInDim S8192x1 ![0] bcast_S8192_S8192x1_0 s (ix2 r 0) = s (ix1 r) :=
  broadcastInDim_apply _ bcast_S8192_S8192x1_0 s (ix2 r 0) (ix1 r) (fun a => match a with
    | ⟨0, _⟩ => by show r.val = if (8192 : Nat) = 1 then 0 else r.val; rw [if_neg (by decide)])

/-- A vector as a row: column j of the row is entry j. -/
theorem row_at (s : FVec Ideal S8192 .f32) (j : Fin 8192) :
    broadcastInDim S1x8192 ![1] bcast_S8192_S1x8192_1 s (ix2 0 j) = s (ix1 j) :=
  broadcastInDim_apply _ bcast_S8192_S1x8192_1 s (ix2 0 j) (ix1 j) (fun a => match a with
    | ⟨0, _⟩ => by show j.val = if (8192 : Nat) = 1 then 0 else j.val; rw [if_neg (by decide)])

/-- The squared norm of row r as the row sum of the squares. -/
theorem sqnorm_at (X : FVec Ideal S8192x512 .f32) (r : Fin 8192) :
    Host.reduceAdd (F := Ideal) (mulf X X) (constant S_ .f32 0x00000000#32) reducesTo_S8192x512_S8192_d1 h_S_ (ix1 r)
      = sqn (mat X) r := by
  rw [rowsum_at]; rfl

/-! What the host stretches leave in the buffers the regions and the last stretch read, as terms of the contents the
    stretch starts from. -/

section Terms
variable (V : Valuation τ sig (Elt Ideal))

theorem after0_v10 :
    (StableHlo.after (hostOps0 (F := Ideal)) V (Proc.devRef .tc main_v10) : S8192x512.Idx → EReal)
      = (V (Proc.devRef .tc main_arg0) : S8192x512.Idx → EReal) := by
  after_results <;> rfl

theorem after0_v8 :
    (StableHlo.after (hostOps0 (F := Ideal)) V (Proc.devRef .tc main_v8) : S8192x1.Idx → EReal)
      = broadcastInDim S8192x1 ![0] bcast_S8192_S8192x1_0
          (Host.reduceAdd (F := Ideal) (mulf (V (Proc.devRef .tc main_arg0) : FVec Ideal S8192x512 .f32) (V (Proc.devRef .tc main_arg0)))
            (constant S_ .f32 0x00000000#32) reducesTo_S8192x512_S8192_d1 h_S_) := by
  after_results <;> rfl

theorem after0_v9 :
    (StableHlo.after (hostOps0 (F := Ideal)) V (Proc.devRef .tc main_v9) : S1x8192.Idx → EReal)
      = broadcastInDim S1x8192 ![1] bcast_S8192_S1x8192_1
          (Host.reduceAdd (F := Ideal) (mulf (V (Proc.devRef .tc main_arg0) : FVec Ideal S8192x512 .f32) (V (Proc.devRef .tc main_arg0)))
            (constant S_ .f32 0x00000000#32) reducesTo_S8192x512_S8192_d1 h_S_) := by
  after_results <;> rfl

theorem after0_v5 :
    (StableHlo.after (hostOps0 (F := Ideal)) V (Proc.devRef .tc main_v5) : S_.Idx → EReal)
      = Host.divf (F := Ideal)
          (Host.reduceAdd (F := Ideal)
            (Host.reduceAdd (F := Ideal)
              (mulf (subf (V (Proc.devRef .tc main_arg0) : FVec Ideal S8192x512 .f32) (V (Proc.devRef .tc main_arg1)))
                (subf (V (Proc.devRef .tc main_arg0) : FVec Ideal S8192x512 .f32) (V (Proc.devRef .tc main_arg1))))
              (constant S_ .f32 0x00000000#32) reducesTo_S8192x512_S8192_d1 h_S_)
            (constant S_ .f32 0x00000000#32) reducesTo_S8192_S_d0 h_S_)
          (constant S_ .f32 0x46000000#32) := by
  after_results <;> rfl

theorem after1_v16 :
    (StableHlo.after (hostOps1 (F := Ideal)) V (Proc.devRef .tc main_v16) : S8192x512.Idx → EReal)
      = (V (Proc.devRef .tc main_arg1) : S8192x512.Idx → EReal) := by
  after_results <;> rfl

theorem after1_v14 :
    (StableHlo.after (hostOps1 (F := Ideal)) V (Proc.devRef .tc main_v14) : S8192x1.Idx → EReal)
      = broadcastInDim S8192x1 ![0] bcast_S8192_S8192x1_0
          (Host.reduceAdd (F := Ideal) (mulf (V (Proc.devRef .tc main_arg1) : FVec Ideal S8192x512 .f32) (V (Proc.devRef .tc main_arg1)))
            (constant S_ .f32 0x00000000#32) reducesTo_S8192x512_S8192_d1 h_S_) := by
  after_results <;> rfl

theorem after1_v15 :
    (StableHlo.after (hostOps1 (F := Ideal)) V (Proc.devRef .tc main_v15) : S1x8192.Idx → EReal)
      = broadcastInDim S1x8192 ![1] bcast_S8192_S1x8192_1
          (Host.reduceAdd (F := Ideal) (mulf (V (Proc.devRef .tc main_arg1) : FVec Ideal S8192x512 .f32) (V (Proc.devRef .tc main_arg1)))
            (constant S_ .f32 0x00000000#32) reducesTo_S8192x512_S8192_d1 h_S_) := by
  after_results <;> rfl

theorem after2_v26 :
    (StableHlo.after (hostOps2 (F := Ideal)) V (Proc.devRef .tc main_v26) : S_.Idx → EReal)
      = addf (V (Proc.devRef .tc main_v5) : FVec Ideal S_ .f32)
          (mulf (constant (F := Ideal) S_ .f32 0x3F000000#32)
            (addf
              (Host.log (F := Ideal) (Host.divf (F := Ideal)
                (Host.reduceAdd (F := Ideal) (V (Proc.devRef .tc main_v11) : FVec Ideal S8192x1 .f32) (constant S_ .f32 0x00000000#32) reducesTo_S8192x1_S_d0_1 h_S_)
                (constant S_ .f32 0x4C7FF800#32)))
              (Host.log (F := Ideal) (Host.divf (F := Ideal)
                (Host.reduceAdd (F := Ideal) (V (Proc.devRef .tc main_v17) : FVec Ideal S8192x1 .f32) (constant S_ .f32 0x00000000#32) reducesTo_S8192x1_S_d0_1 h_S_)
                (constant S_ .f32 0x4C7FF800#32))))) := by
  after_results <;> rfl

end Terms

end Cert.KernelIdeal.HostValue

end
-- ==== Proof.KIHost.lean ====
/-
  The kernel program's host side as functions of the two argument matrices: the arrays the two regions read are x and
  y themselves and the squared norms of their rows, laid out as a column and as a row; the result is the mean squared
  row distance plus half the sum of the logs of the two regions' column sums over the pair count.
-/
import proofs.«110430_j65850438582800_2_alg».proof.Proof.KIHostTerms

noncomputable section

namespace Cert.KernelIdeal.HostValue

open Cert.KernelIdeal Cert.KernelIdeal.Gen Cert.PairLoss
open Idealize.ShloMosaic Idealize.ShloMosaic.TcCoe Idealize.SL.Sem Idealize.ShloMosaic.StableHlo Idealize.ShloMosaic.ValueIdx

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n := ⟨fun i => i 0, fun a => ix1 a, fun i => (eq_ix1 i).symm, fun _ => rfl⟩
  rw [← Equiv.sum_comp e.symm f]
  rfl

/-- The sum of a vector from the zero word: the sum of its entries. -/
theorem vecsum_at (s : FVec Ideal S8192 .f32) (i : S_.Idx) :
    Host.reduceAdd (F := Ideal) s (constant S_ .f32 0x00000000#32) reducesTo_S8192_S_d0 h_S_ i
      = ∑ r : Fin 8192, s (ix1 r) := by
  simp only [Host.reduceAdd, Ideal.hostReduceAdd_def]
  rw [Ideal.hostReduceAdd_total reducesTo_S8192_S_d0 (fun b => b.elim0), constant_apply, Ideal.ofBits_zero_f32, zero_add,
    sum_idx1]

/-- The sum of a column over both its axes from the zero word: the sum of its rows' one entry. -/
theorem colsum_at (s : FVec Ideal S8192x1 .f32) (i : S_.Idx) :
    Host.reduceAdd (F := Ideal) s (constant S_ .f32 0x00000000#32) reducesTo_S8192x1_S_d0_1 h_S_ i
      = ∑ r : Fin 8192, s (ix2 r 0) := by
  simp only [Host.reduceAdd, Ideal.hostReduceAdd_def]
  rw [Ideal.hostReduceAdd_total reducesTo_S8192x1_S_d0_1 (fun b => b.elim0), constant_apply, Ideal.ofBits_zero_f32, zero_add,
    sum_idx2]
  exact Finset.sum_congr rfl fun r _ => Fin.sum_univ_one _

/-- The alignment term: the mean over the rows of the squared row distance. -/
theorem align_at (X Y : FVec Ideal S8192x512 .f32) (i : S_.Idx) :
    Host.divf (F := Ideal)
        (Host.reduceAdd (F := Ideal)
          (Host.reduceAdd (F := Ideal) (mulf (subf X Y) (subf X Y)) (constant S_ .f32 0x00000000#32) reducesTo_S8192x512_S8192_d1 h_S_)
          (constant S_ .f32 0x00000000#32) reducesTo_S8192_S_d0 h_S_)
        (constant S_ .f32 0x46000000#32) i
      = Ideal.div (∑ r : Fin 8192, dist2 (mat X) (mat Y) r) wn :=
  congrArg (Ideal.div · wn) ((vecsum_at _ i).trans (Finset.sum_congr rfl fun r _ => (rowsum_at _ r).trans rfl))

/-- The last host stretch's result: the alignment term plus half the sum of the logs of the two column sums over the
    pair count. -/
theorem loss_at (a : FVec Ideal S_ .f32) (P Q : FVec Ideal S8192x1 .f32) (i : S_.Idx) :
    addf a (mulf (constant (F := Ideal) S_ .f32 0x3F000000#32)
        (addf
          (Host.log (F := Ideal) (Host.divf (F := Ideal)
            (Host.reduceAdd (F := Ideal) P (constant S_ .f32 0x00000000#32) reducesTo_S8192x1_S_d0_1 h_S_)
            (constant S_ .f32 0x4C7FF800#32)))
          (Host.log (F := Ideal) (Host.divf (F := Ideal)
            (Host.reduceAdd (F := Ideal) Q (constant S_ .f32 0x00000000#32) reducesTo_S8192x1_S_d0_1 h_S_)
            (constant S_ .f32 0x4C7FF800#32))))) i
      = a i + wh * (Ideal.log (Ideal.div (∑ r : Fin 8192, P (ix2 r 0)) wc) + Ideal.log (Ideal.div (∑ r : Fin 8192, Q (ix2 r 0)) wc)) := by
  rw [← colsum_at P i, ← colsum_at Q i]
  rfl

/-! The valuations between the program's items, at the buffers the regions and the result read. -/

section Run
variable (m : (ℓ : Loc nD τ sig) → Buf (Elt Ideal) ℓ) (outs : Gen.Outs (F := Ideal)) (c : Dev nD)

/-- The second argument array is still the launch's when the second host stretch starts. -/
theorem V2_arg1 : Gen.V2 (F := Ideal) m outs c main_arg1 = m ((c.tc : Thread nD τ).loc main_arg1) :=
  (Gen.V2_of m outs c main_arg1 (by decide)).trans ((Gen.V1_of m c main_arg1 (by decide)).trans rfl)

/-- The first region reads x itself: the conversion to the narrower float format is the identity on extended reals. -/
theorem V1_v10 :
    (Gen.V1 (F := Ideal) m c main_v10 : S8192x512.Idx → EReal) = m ((c.tc : Thread nD τ).loc main_arg0) :=
  (after0_v10 (Gen.V0 m c)).trans rfl

/-- The column the first region reads holds the squared norms of the rows of x. -/
theorem V1_v8 (r : Fin 8192) :
    (Gen.V1 (F := Ideal) m c main_v8 : S8192x1.Idx → EReal) (ix2 r 0)
      = sqn (mat (m ((c.tc : Thread nD τ).loc main_arg0))) r := by
  refine (congrFun (after0_v8 (Gen.V0 m c)) _).trans ?_
  rw [col_at, sqnorm_at]

/-- The row the first region reads holds the squared norms of the rows of x. -/
theorem V1_v9 (j : Fin 8192) :
    (Gen.V1 (F := Ideal) m c main_v9 : S1x8192.Idx → EReal) (ix2 0 j)
      = sqn (mat (m ((c.tc : Thread nD τ).loc main_arg0))) j := by
  refine (congrFun (after0_v9 (Gen.V0 m c)) _).trans ?_
  rw [row_at, sqnorm_at]

/-- The second region reads y itself. -/
theorem V3_v16 :
    (Gen.V3 (F := Ideal) m outs c main_v16 : S8192x512.Idx → EReal) = m ((c.tc : Thread nD τ).loc main_arg1) :=
  (after1_v16 (Gen.V2 m outs c)).trans (V2_arg1 m outs c)

/-- The column the second region reads holds the squared norms of the rows of y. -/
theorem V3_v14 (r : Fin 8192) :
    (Gen.V3 (F := Ideal) m outs c main_v14 : S8192x1.Idx → EReal) (ix2 r 0)
      = sqn (mat (m ((c.tc : Thread nD τ).loc main_arg1))) r := by
  refine (congrFun (after1_v14 (Gen.V2 m outs c)) _).trans ?_
  rw [col_at, sqnorm_at, V2_arg1]

/-- The row the second region reads holds the squared norms of the rows of y. -/
theorem V3_v15 (j : Fin 8192) :
    (Gen.V3 (F := Ideal) m outs c main_v15 : S1x8192.Idx → EReal) (ix2 0 j)
      = sqn (mat (m ((c.tc : Thread nD τ).loc main_arg1))) j := by
  refine (congrFun (after1_v15 (Gen.V2 m outs c)) _).trans ?_
  rw [row_at, sqnorm_at, V2_arg1]

/-- The alignment term's buffer is still the first host stretch's when the last stretch starts. -/
theorem V4_v5 :
    Gen.V4 (F := Ideal) m outs c main_v5 = StableHlo.after (hostOps0 (F := Ideal)) (Gen.V0 m c) (Proc.devRef .tc main_v5) :=
  (Gen.V4_of m outs c main_v5 (by decide)).trans
    ((Gen.V3_of m outs c main_v5 (by decide)).trans ((Gen.V2_of m outs c main_v5 (by decide)).trans rfl))

/-- The first region's output column is what that region left. -/
theorem V4_v11 : Gen.V4 (F := Ideal) m outs c main_v11 = outs 2 main_v11 c :=
  (Gen.V4_of m outs c main_v11 (by decide)).trans
    ((Gen.V3_of m outs c main_v11 (by decide)).trans (Function.update_self _ _ _))

/-- The second region's output column is what that region left. -/
theorem V4_v17 : Gen.V4 (F := Ideal) m outs c main_v17 = outs 4 main_v17 c :=
  Function.update_self _ _ _

/-- The program's result: the mean squared row distance plus half the sum of the logs of the two regions' column
    sums over the pair count. -/
theorem V5_v26 :
    (Gen.V5 (F := Ideal) m outs c main_v26 : S_.Idx → EReal)
      = fun _ => Ideal.div (∑ i : Fin 8192, dist2 (mat (m ((c.tc : Thread nD τ).loc main_arg0))) (mat (m ((c.tc : Thread nD τ).loc main_arg1))) i) wn
          + wh * (Ideal.log (Ideal.div (∑ r : Fin 8192, outs 2 main_v11 c (ix2 r 0)) wc)
              + Ideal.log (Ideal.div (∑ r : Fin 8192, outs 4 main_v17 c (ix2 r 0)) wc)) := by
  funext i
  refine (congrFun (after2_v26 (Gen.V4 m outs c)) i).trans ?_
  refine (loss_at _ _ _ i).trans ?_
  rw [V4_v11, V4_v17, V4_v5, after0_v5, align_at]

end Run

end Cert.KernelIdeal.HostValue

end
-- ==== Proof.SpecLaws.lean ====
/-
  Laws of the two losses on the extended reals: the tiled masked sum is the masked sum reindexed; with real entries the
  full kernel sum less the number of rows is the masked sum, because every diagonal kernel is exp 0 = 1; and the square
  of the square root of a squared distance is that squared distance, because it is a nonnegative real.
-/
import proofs.«110430_j65850438582800_2_alg».proof.Proof.Spec

noncomputable section

namespace Cert.PairLoss

open Idealize.ShloMosaic

/-! ### The literal words as reals -/

theorem w2_eq : w2 = ((2 : ℝ) : EReal) := by
  simp [w2, Ideal.ofBits, Ideal.ieee, -EReal.coe_mul]; norm_num

theorem wm2_eq : wm2 = ((-2 : ℝ) : EReal) := by
  simp [wm2, Ideal.ofBits, Ideal.ieee, -EReal.coe_mul]; norm_num

theorem wn_eq : wn = ((8192 : ℝ) : EReal) := by
  simp [wn, Ideal.ofBits, Ideal.ieee, -EReal.coe_mul]; norm_num

/-! ### Reindexing the 8192 rows and columns -/

/-- Row 2048 · a + p, as a bijection from the pairs (a, p). -/
def rowEquiv : Fin 4 × Fin 2048 ≃ Fin 8192 where
  toFun q := row q.1 q.2
  invFun i := (⟨i.val / 2048, by omega⟩, ⟨i.val % 2048, by omega⟩)
  left_inv := by
    rintro ⟨a, p⟩
    refine Prod.ext (Fin.ext ?_) (Fin.ext ?_)
    · show (2048 * a.val + p.val) / 2048 = a.val
      omega
    · show (2048 * a.val + p.val) % 2048 = p.val
      omega
  right_inv := by
    intro i
    refine Fin.ext ?_
    show 2048 * (i.val / 2048) + i.val % 2048 = i.val
    omega

/-- Column 512 · b + 128 · g + l, as a bijection from the triples (l, b, g). -/
def colEquiv : Fin 128 × Fin 16 × Fin 4 ≃ Fin 8192 where
  toFun q := col q.2.1 q.2.2 q.1
  invFun j := (⟨j.val % 128, by omega⟩, ⟨j.val / 512, by omega⟩, ⟨j.val % 512 / 128, by omega⟩)
  left_inv := by
    rintro ⟨l, b, g⟩
    refine Prod.ext (Fin.ext ?_) (Prod.ext (Fin.ext ?_) (Fin.ext ?_))
    · show (512 * b.val + 128 * g.val + l.val) % 128 = l.val
      omega
    · show (512 * b.val + 128 * g.val + l.val) / 512 = b.val
      omega
    · show (512 * b.val + 128 * g.val + l.val) % 512 / 128 = g.val
      omega
  right_inv := by
    intro j
    refine Fin.ext ?_
    show 512 * (j.val / 512) + 128 * (j.val % 512 / 128) + j.val % 128 = j.val
    omega

/-- A sum over the 8192 rows, by row block and row inside it. -/
theorem sum_row {M : Type*} [AddCommMonoid M] (F : Fin 8192 → M) :
    ∑ i : Fin 8192, F i = ∑ a : Fin 4, ∑ p : Fin 2048, F (row a p) := by
  rw [← Fintype.sum_prod_type' (fun a p => F (row a p))]
  exact (Fintype.sum_equiv rowEquiv _ _ (fun _ => rfl)).symm

/-- A sum over the 8192 columns, by lane, column block and lane group. -/
theorem sum_col {M : Type*} [AddCommMonoid M] (F : Fin 8192 → M) :
    ∑ j : Fin 8192, F j = ∑ l : Fin 128, ∑ b : Fin 16, ∑ g : Fin 4, F (col b g l) := by
  have h : ∑ j : Fin 8192, F j = ∑ q : Fin 128 × Fin 16 × Fin 4, F (col q.2.1 q.2.2 q.1) :=
    (Fintype.sum_equiv colEquiv _ _ (fun _ => rfl)).symm
  rw [h, Fintype.sum_prod_type]
  refine Finset.sum_congr rfl (fun l _ => ?_)
  rw [Fintype.sum_prod_type]

theorem offdiagTiled_eq (x : Mat) : offdiagTiled x = offdiag x := by
  unfold offdiagTiled offdiag
  rw [sum_row]
  refine Finset.sum_congr rfl (fun a _ => Finset.sum_congr rfl (fun p _ => ?_))
  rw [sum_col]

/-! ### Real entries -/

/-- The coercion of a finite sum of reals is the sum of the coercions. -/
theorem coe_sum {ι : Type*} (s : Finset ι) (g : ι → ℝ) :
    ((∑ i ∈ s, g i : ℝ) : EReal) = ∑ i ∈ s, (g i : EReal) := by
  classical
  refine Finset.induction_on s (by simp) ?_
  intro a s ha ih
  rw [Finset.sum_insert ha, Finset.sum_insert ha, EReal.coe_add, ih]

/-- The coercion of the larger of two reals is the larger of the coercions. -/
theorem coe_max (a b : ℝ) : ((max a b : ℝ) : EReal) = max (a : EReal) (b : EReal) :=
  EReal.coe_strictMono.monotone.map_max

/-- With real entries the squared norm of a row is the real sum of squares. -/
theorem sqn_coe (x : Mat) (f : Fin 8192 → Fin 512 → ℝ) (hf : ∀ i k, x i k = (f i k : EReal)) (i : Fin 8192) :
    sqn x i = ((∑ k : Fin 512, f i k * f i k : ℝ) : EReal) := by
  unfold sqn
  rw [coe_sum]
  refine Finset.sum_congr rfl (fun k _ => ?_)
  rw [hf, EReal.coe_mul]

/-- With real entries the Gram entry is the real inner product. -/
theorem gram_coe (x : Mat) (f : Fin 8192 → Fin 512 → ℝ) (hf : ∀ i k, x i k = (f i k : EReal)) (i j : Fin 8192) :
    gram x i j = ((∑ k : Fin 512, f i k * f j k : ℝ) : EReal) := by
  unfold gram
  rw [coe_sum]
  refine Finset.sum_congr rfl (fun k _ => ?_)
  rw [hf, hf, EReal.coe_mul]

/-- With real entries every kernel is the real exponential of a real. -/
theorem ker_coe (x : Mat) (f : Fin 8192 → Fin 512 → ℝ) (hf : ∀ i k, x i k = (f i k : EReal)) (i j : Fin 8192) :
    ker x i j = ((Real.exp (-2 * max ((∑ k : Fin 512, f i k * f i k) + (∑ k : Fin 512, f j k * f j k)
      - 2 * ∑ k : Fin 512, f i k * f j k) 0) : ℝ) : EReal) := by
  unfold ker
  rw [sqn_coe x f hf, sqn_coe x f hf, gram_coe x f hf, w2_eq, wm2_eq, ← EReal.coe_mul, ← EReal.coe_add,
    ← EReal.coe_sub, ← EReal.coe_zero, ← coe_max, ← EReal.coe_mul, Ideal.exp_coe]

/-- With real entries the kernel of a row with itself is exp 0 = 1. -/
theorem ker_diag (x : Mat) (hx : Finite x) (i : Fin 8192) : ker x i i = 1 := by
  choose f hf using hx
  rw [ker_coe x f hf]
  have h : (∑ k : Fin 512, f i k * f i k) + (∑ k : Fin 512, f i k * f i k)
      - 2 * ∑ k : Fin 512, f i k * f i k = 0 := by ring
  rw [h, max_self, mul_zero, Real.exp_zero, EReal.coe_one]

/-- A square array of reals with ones on the diagonal: the full sum is the size plus the sum off the diagonal. -/
theorem sum_sum_diag {n : ℕ} (K : Fin n → Fin n → ℝ) (hd : ∀ i, K i i = 1) :
    ∑ i : Fin n, ∑ j : Fin n, K i j = (n : ℝ) + ∑ i : Fin n, ∑ j : Fin n, (if i = j then 0 else K i j) := by
  have h : ∀ i : Fin n, ∑ j : Fin n, K i j = 1 + ∑ j : Fin n, (if i = j then 0 else K i j) := by
    intro i
    have hs : ∀ j : Fin n, K i j = (if i = j then K i j else 0) + (if i = j then 0 else K i j) := by
      intro j
      split_ifs <;> simp
    rw [Finset.sum_congr rfl (fun j _ => hs j), Finset.sum_add_distrib, Finset.sum_ite_eq,
      if_pos (Finset.mem_univ i), hd]
  rw [Finset.sum_congr rfl (fun i _ => h i), Finset.sum_add_distrib, Finset.sum_const, Finset.card_univ,
    Fintype.card_fin, nsmul_eq_mul, mul_one]

theorem total_sub_eq_offdiag (x : Mat) (hx : Finite x) : total x - wn = offdiag x := by
  have hd := ker_diag x hx
  choose f hf using hx
  have hr : ∀ i j : Fin 8192, ∃ r : ℝ, ker x i j = (r : EReal) := fun i j => ⟨_, ker_coe x f hf i j⟩
  choose K hK using hr
  have hd' : ∀ i, K i i = 1 := fun i => EReal.coe_eq_one.mp (by rw [← hK]; exact hd i)
  have ht : total x = ((∑ i : Fin 8192, ∑ j : Fin 8192, K i j : ℝ) : EReal) := by
    unfold total
    rw [coe_sum]
    refine Finset.sum_congr rfl (fun i _ => ?_)
    rw [coe_sum]
    exact Finset.sum_congr rfl (fun j _ => hK i j)
  have ho : offdiag x = ((∑ i : Fin 8192, ∑ j : Fin 8192, (if i = j then 0 else K i j) : ℝ) : EReal) := by
    unfold offdiag
    rw [coe_sum]
    refine Finset.sum_congr rfl (fun i _ => ?_)
    rw [coe_sum]
    refine Finset.sum_congr rfl (fun j _ => ?_)
    split_ifs
    · rfl
    · exact hK i j
  rw [ht, ho, wn_eq, sum_sum_diag K hd', ← EReal.coe_sub]
  congr 1
  push_cast
  ring

theorem sqrt_mul_sqrt_dist2 (x y : Mat) (hx : Finite x) (hy : Finite y) (i : Fin 8192) :
    Ideal.sqrt (dist2 x y i) * Ideal.sqrt (dist2 x y i) = dist2 x y i := by
  choose f hf using hx
  choose g hg using hy
  have hd : dist2 x y i = ((∑ k : Fin 512, (f i k - g i k) * (f i k - g i k) : ℝ) : EReal) := by
    unfold dist2
    rw [coe_sum]
    refine Finset.sum_congr rfl (fun k _ => ?_)
    rw [hf, hg, ← EReal.coe_sub, ← EReal.coe_mul]
  have h0 : 0 ≤ ∑ k : Fin 512, (f i k - g i k) * (f i k - g i k) :=
    Finset.sum_nonneg (fun k _ => mul_self_nonneg _)
  rw [hd, Ideal.sqrt_coe, if_neg (not_lt.mpr h0), ← EReal.coe_mul, Real.mul_self_sqrt h0]

theorem lossFull_eq_lossMasked (x y : Mat) (hx : Finite x) (hy : Finite y) : lossFull x y = lossMasked x y := by
  unfold lossFull lossMasked
  rw [total_sub_eq_offdiag x hx, total_sub_eq_offdiag y hy,
    Finset.sum_congr rfl (fun i _ => sqrt_mul_sqrt_dist2 x y hx hy i)]

end Cert.PairLoss

end
-- ==== Proof.KIClaimPre.lean ====
/-
  Two bridges for the kernel program's claim. The host's last stretch over two columns of row sums of the masked
  Gaussian kernel, each row summed in the tiled column order, is the loss with the masked sum over all pairs; and the
  summand of a region's output, from the arrays the region reads, is the Gaussian kernel of two rows of its matrix.
-/
import proofs.«110430_j65850438582800_2_alg».proof.Proof.KIHost
import proofs.«110430_j65850438582800_2_alg».proof.Proof.SpecLaws

noncomputable section

namespace Cert.KernelIdeal.HostValue

open Cert.KernelIdeal Cert.KernelIdeal.Gen Cert.PairLoss
open Idealize.ShloMosaic Idealize.ShloMosaic.TcCoe Idealize.SL.Sem Idealize.ShloMosaic.StableHlo Idealize.ShloMosaic.ValueIdx

/-- Row sums of the masked kernel, each taken in the tiled column order, add up to the masked sum over all pairs. -/
theorem rowsums_offdiag (X : Mat) (o : Fin 8192 → EReal)
    (h : ∀ r, o r = ∑ l : Fin 128, ∑ b : Fin 16, ∑ g : Fin 4, if r = col b g l then (0 : EReal) else ker X r (col b g l)) :
    ∑ r : Fin 8192, o r = offdiag X := by
  rw [← offdiagTiled_eq, sum_row]
  unfold offdiagTiled
  exact Finset.sum_congr rfl fun a _ => Finset.sum_congr rfl fun p _ => h (row a p)

/-- The host's last stretch over two columns of such row sums is the loss with the masked sum. -/
theorem loss_of_rowsums (X Y : Mat) (o1 o2 : Fin 8192 → EReal)
    (h1 : ∀ r, o1 r = ∑ l : Fin 128, ∑ b : Fin 16, ∑ g : Fin 4, if r = col b g l then (0 : EReal) else ker X r (col b g l))
    (h2 : ∀ r, o2 r = ∑ l : Fin 128, ∑ b : Fin 16, ∑ g : Fin 4, if r = col b g l then (0 : EReal) else ker Y r (col b g l)) :
    Ideal.div (∑ i : Fin 8192, dist2 X Y i) wn
        + wh * (Ideal.log (Ideal.div (∑ r : Fin 8192, o1 r) wc) + Ideal.log (Ideal.div (∑ r : Fin 8192, o2 r) wc))
      = lossMasked X Y := by
  rw [rowsums_offdiag X o1 h1, rowsums_offdiag Y o2 h2]
  rfl

/-- The summand of a region's output from the three arrays the region reads — a column and a row of squared norms
    and the matrix itself: the Gaussian kernel of rows r and j. -/
theorem ker_of_reads (A : S8192x1.Idx → EReal) (B : S1x8192.Idx → EReal) (Z : S8192x512.Idx → EReal) (X : Mat)
    (r j : Fin 8192) (hA : A (ix2 r 0) = sqn X r) (hB : B (ix2 0 j) = sqn X j) (hZ : mat Z = X) :
    Ideal.exp (wm2 * max (A (ix2 r 0) + B (ix2 0 j) - w2 * ∑ k : Fin 512, Z (ix2 r k) * Z (ix2 j k)) 0) = ker X r j := by
  rw [hA, hB, ← hZ]
  rfl

section Summands
variable (m : (ℓ : Loc nD τ sig) → Buf (Elt Ideal) ℓ) (outs : Gen.Outs (F := Ideal)) (c : Dev nD)

/-- The first region's summand at rows r and j, from the arrays it reads: the Gaussian kernel of rows r and j of x.
    In full: exp(wm2 · max(V1 main_v8 (r, 0) + V1 main_v9 (0, j) − w2 · Σ_k V1 main_v10 (r, k) · V1 main_v10 (j, k), 0))
    = ker (mat x) r j, the entries read as extended reals. -/
theorem summand0 (r j : Fin 8192) :
    type_of% (ker_of_reads (Gen.V1 (F := Ideal) m c main_v8) (Gen.V1 (F := Ideal) m c main_v9) (Gen.V1 (F := Ideal) m c main_v10)
      (mat (m ((c.tc : Thread nD τ).loc main_arg0))) r j (V1_v8 m c r) (V1_v9 m c j) (congrArg mat (V1_v10 m c))) :=
  ker_of_reads (Gen.V1 (F := Ideal) m c main_v8) (Gen.V1 (F := Ideal) m c main_v9) (Gen.V1 (F := Ideal) m c main_v10)
    (mat (m ((c.tc : Thread nD τ).loc main_arg0))) r j (V1_v8 m c r) (V1_v9 m c j) (congrArg mat (V1_v10 m c))

/-- The second region's summand at rows r and j: the Gaussian kernel of rows r and j of y, the same formula over
    V3 at main_v14, main_v15, main_v16. -/
theorem summand1 (r j : Fin 8192) :
    type_of% (ker_of_reads (Gen.V3 (F := Ideal) m outs c main_v14) (Gen.V3 (F := Ideal) m outs c main_v15) (Gen.V3 (F := Ideal) m outs c main_v16)
      (mat (m ((c.tc : Thread nD τ).loc main_arg1))) r j (V3_v14 m outs c r) (V3_v15 m outs c j) (congrArg mat (V3_v16 m outs c))) :=
  ker_of_reads (Gen.V3 (F := Ideal) m outs c main_v14) (Gen.V3 (F := Ideal) m outs c main_v15) (Gen.V3 (F := Ideal) m outs c main_v16)
    (mat (m ((c.tc : Thread nD τ).loc main_arg1))) r j (V3_v14 m outs c r) (V3_v15 m outs c j) (congrArg mat (V3_v16 m outs c))

end Summands

end Cert.KernelIdeal.HostValue

end
-- ==== Proof.KIClaim.lean ====
/-
  The kernel program's result as a function of the argument arrays.

  Each pallas_call's output array holds, at row r, the sum over the 8192 columns j ≠ r of the Gaussian kernel of rows r and j
  of its argument matrix (summed lanes outermost, then column blocks, then lane groups); the last host stretch sums the
  rows, divides by the number of ordered pairs, takes logarithms, halves their sum and adds the mean squared row distance.
  That is the loss with the masked sum.
-/
import proofs.«110430_j65850438582800_2_alg».proof.Proof.KIFrame
import proofs.«110430_j65850438582800_2_alg».proof.Proof.KIValue0
import proofs.«110430_j65850438582800_2_alg».proof.Proof.KIValue1
import proofs.«110430_j65850438582800_2_alg».proof.Proof.KIClaimPre

noncomputable section

namespace Cert.KernelIdeal.Fr

open Cert.KernelIdeal Cert.KernelIdeal.Gen Cert.KernelIdeal.HostValue Cert.PairLoss
open Idealize.ShloMosaic Idealize.ShloMosaic.TcCoe Idealize.ShloMosaic.ValueIdx Idealize.SL.Sem

variable (m : (ℓ : Loc nD τ sig) → Buf (Elt Ideal) ℓ)

/-- Row r of the first call's output array: the masked kernel sums of row r of the first argument. -/
theorem rowsum0 (c : Dev nD) (r : Fin 8192) :
    outsA (F := Ideal) m 2 main_v11 c (ix2 r 0)
      = ∑ l : Fin 128, ∑ b : Fin 16, ∑ g : Fin 4, if r = col b g l then (0 : EReal) else ker (mat (m ((c.tc : Thread nD τ).loc main_arg0))) r (col b g l) := by
  rw [outsA_v11]
  refine Eq.trans (α := EReal) (final0 (Vr1 m) c r) ?_
  refine Finset.sum_congr rfl fun l _ => Finset.sum_congr rfl fun b _ => Finset.sum_congr rfl fun g _ => ?_
  exact ite_congr rfl (fun _ => rfl) (fun _ => summand0 m c r (col b g l))

/-- Row r of the second call's output array: the same of the second argument. -/
theorem rowsum1 (c : Dev nD) (r : Fin 8192) :
    outsA (F := Ideal) m 4 main_v17 c (ix2 r 0)
      = ∑ l : Fin 128, ∑ b : Fin 16, ∑ g : Fin 4, if r = col b g l then (0 : EReal) else ker (mat (m ((c.tc : Thread nD τ).loc main_arg1))) r (col b g l) := by
  rw [outsA_v17]
  refine Eq.trans (α := EReal) (final1 (Vr3 m) c r) ?_
  refine Finset.sum_congr rfl fun l _ => Finset.sum_congr rfl fun b _ => Finset.sum_congr rfl fun g _ => ?_
  exact ite_congr rfl (fun _ => rfl) (fun _ => summand1 m (outs2 m) c r (col b g l))

/-- The result buffer after the last host stretch is the loss with the masked sum. -/
theorem kernel_value (c : Dev nD) :
    (Gen.V5 (F := Ideal) m (outsA m) c main_v26 : S_.Idx → EReal)
      = fun _ => lossMasked (mat (m ((c.tc : Thread nD τ).loc main_arg0))) (mat (m ((c.tc : Thread nD τ).loc main_arg1))) := by
  rw [V5_v26 m (outsA m) c]
  funext _
  exact loss_of_rowsums _ _ (fun r => outsA (F := Ideal) m 2 main_v11 c (ix2 r 0)) (fun r => outsA (F := Ideal) m 4 main_v17 c (ix2 r 0)) (rowsum0 m c) (rowsum1 m c)

end Cert.KernelIdeal.Fr

end
-- ==== Proof.RefValue.lean ====
/-
  The reference program's result as a function of its two argument matrices: read one operation at a time at an index,
  its composed term is the mean over the rows of (√d_i)·(√d_i), d_i the squared distance of row i of x and of y, plus
  half the sum of log((Σ_ij κ_ij − n) / (n (n − 1))) over the two matrices, κ the Gaussian kernel of two rows computed
  from the squared norms and the Gram matrix.
-/
import proofs.«110430_j65850438582800_2_alg».proof.Proof.Gen.ReferenceIdeal.Run
import proofs.«110430_j65850438582800_2_alg».proof.Proof.Gen.ReferenceIdeal.Read
import proofs.«110430_j65850438582800_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.PairLoss
open Idealize.ShloMosaic Idealize.ShloMosaic.TcCoe Idealize.SL.Sem Idealize.ShloMosaic.StableHlo Idealize.ShloMosaic.ValueIdx

/-! Index equations: the composed index functions of the layout operations, by coordinates. -/

theorem rowsum_idx (i : Fin 8192) (k : Fin 512) : idx_main_v6 (ix1 i) k = ix2 i k :=
  funext fun a => Fin.ext (by match a with | ⟨0, _⟩ => rfl | ⟨1, _⟩ => rfl)
theorem dot_lidx (i j : Fin 8192) (k : Fin 512) : lidx_main_v8 (ix2 i j) k = ix2 i k :=
  funext fun a => Fin.ext (by match a with | ⟨0, _⟩ => rfl | ⟨1, _⟩ => rfl)
theorem dot_ridx (i j : Fin 8192) (k : Fin 512) : idx_main_v7 (ridx_main_v8 (ix2 i j) k) = ix2 j k :=
  funext fun a => Fin.ext (by match a with | ⟨0, _⟩ => rfl | ⟨1, _⟩ => rfl)
theorem col_idx (i j : Fin 8192) : idx_main_v9 (idx_main_v11 (ix2 i j)) = ix1 i :=
  funext fun a => Fin.ext (by match a with | ⟨0, _⟩ => rfl)
theorem row_idx (i j : Fin 8192) : idx_main_v10 (idx_main_v12 (ix2 i j)) = ix1 j :=
  funext fun a => Fin.ext (by match a with | ⟨0, _⟩ => rfl)

/-- The squared norm of row i: the row sum of the squares. -/
theorem sqnorm_at (X : FVec Ideal S8192x512 .f32) (i : Fin 8192) :
    val_main_v6 (F := Ideal) X (ix1 i) = sqn (mat X) i := by
  rw [val_main_v6_apply]
  simp only [val_main_cst_1_apply, val_main_v5_apply, Ideal.ofBits_def, Ideal.ofBits_zero_f32, zero_add, Ideal.mulf_def,
    rowsum_idx]
  rfl

/-- The Gram entry of rows i and j: x times its transpose. -/
theorem gram_at (X : FVec Ideal S8192x512 .f32) (i j : Fin 8192) :
    val_main_v8 (F := Ideal) X (ix2 i j) = gram (mat X) i j := by
  rw [val_main_v8_apply]
  refine Finset.sum_congr rfl fun k _ => ?_
  rw [val_main_v7_apply, dot_lidx, dot_ridx]
  rfl

/-- The Gaussian kernel of rows i and j. -/
theorem ker_at (X : FVec Ideal S8192x512 .f32) (i j : Fin 8192) :
    val_main_v21 (F := Ideal) X (ix2 i j) = ker (mat X) i j := by
  rw [val_main_v21_apply, val_main_v20_apply, val_main_v19_apply, val_main_cst_4_apply, val_main_v18_apply,
    val_main_v16_apply, val_main_v17_apply, val_main_cst_3_apply, val_main_v13_apply, val_main_v15_apply,
    val_main_v14_apply, val_main_cst_2_apply, val_main_v11_apply, val_main_v12_apply, val_main_v9_apply,
    val_main_v10_apply, col_idx, row_idx, sqnorm_at, sqnorm_at, gram_at]
  simp only [Ideal.ofBits_def, Ideal.ofBits_zero_f32, Ideal.mulf_def, Ideal.addf_def, Ideal.subf_def,
    Ideal.maximumf_def, Ideal.hostUnary_exp_def]
  rfl

/-- The kernel summed over all pairs. -/
theorem total_at (X : FVec Ideal S8192x512 .f32) :
    val_main_v22 (F := Ideal) X ix0 = total (mat X) := by
  rw [val_main_v22_apply, val_main_cst_5_apply, sum_idx2]
  simp only [Ideal.ofBits_def, Ideal.ofBits_zero_f32, zero_add, ker_at]
  rfl

/-- The log of the mean kernel over the ordered pairs of distinct rows. -/
theorem logmean_at (X : FVec Ideal S8192x512 .f32) :
    val_main_v25 (F := Ideal) X ix0 = Ideal.log (Ideal.div (total (mat X) - wn) wc) := by
  rw [val_main_v25_apply, val_main_v24_apply, val_main_v23_apply, val_main_cst_6_apply, val_main_cst_7_apply, total_at]
  simp only [Ideal.ofBits_def, Ideal.subf_def, Ideal.hostDivf_def, Ideal.hostUnary_log_def]
  rfl

/-! The second argument array goes through the same operations under other buffer names. -/

theorem logmean_snd : @val_main_v46 Ideal _ = @val_main_v25 Ideal _ := rfl

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n := ⟨fun i => i 0, fun a => ix1 a, fun i => (eq_ix1 i).symm, fun _ => rfl⟩
  rw [← Equiv.sum_comp e.symm f]
  rfl

theorem diff_idx (i : Fin 8192) (k : Fin 512) : idx_main_call0_v1 (ix1 i) k = ix2 i k :=
  funext fun a => Fin.ext (by match a with | ⟨0, _⟩ => rfl | ⟨1, _⟩ => rfl)

/-- The squared distance of row i of x and row i of y. -/
theorem dist2_at (X Y : FVec Ideal S8192x512 .f32) (i : Fin 8192) :
    val_main_call0_v1 (F := Ideal) X Y (ix1 i) = dist2 (mat X) (mat Y) i := by
  rw [val_main_call0_v1_apply]
  simp only [val_main_call0_cst_apply, val_main_call0_v0_apply, val_main_v0_apply, Ideal.ofBits_def, Ideal.ofBits_zero_f32,
    zero_add, Ideal.mulf_def, Ideal.subf_def, diff_idx]
  rfl

/-- The alignment term: the mean over the rows of the square of the row distance's square root. -/
theorem align_at (X Y : FVec Ideal S8192x512 .f32) :
    val_main_v4 (F := Ideal) X Y ix0
      = Ideal.div (∑ i : Fin 8192, Ideal.sqrt (dist2 (mat X) (mat Y) i) * Ideal.sqrt (dist2 (mat X) (mat Y) i)) wn := by
  rw [val_main_v4_apply, val_main_v3_apply, val_main_cst_apply, val_main_cst_0_apply, sum_idx1]
  simp only [val_main_v2_apply, val_main_v1_apply, dist2_at, Ideal.ofBits_def, Ideal.ofBits_zero_f32, zero_add,
    Ideal.mulf_def, Ideal.hostUnary_sqrt_def, Ideal.hostDivf_def]
  rfl

/-- The reference's result is the loss with the full sum. -/
theorem loss_at (X Y : FVec Ideal S8192x512 .f32) :
    val_main_v49 (F := Ideal) X Y ix0 = lossFull (mat X) (mat Y) := by
  rw [val_main_v49_apply, val_main_v48_apply, val_main_v47_apply, val_main_cst_15_apply, align_at, logmean_at,
    logmean_snd, logmean_at]
  simp only [Ideal.ofBits_def, Ideal.addf_def, Ideal.mulf_def]
  rfl

/-- The run's composed term of the two argument arrays is the loss with the full sum, at the one scalar index. -/
theorem ref_term_eq (X Y : FVec Ideal S8192x512 .f32) :
    val_main_v49 (F := Ideal) X Y = fun _ => lossFull (mat X) (mat Y) :=
  funext fun i => by rw [eq_ix0 i]; exact loss_at X Y

/-- Every weakly fair execution of the reference ends with its result at the loss with the full sum of the two
    argument arrays, the arguments unchanged. -/
theorem run_spec (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v49)
          = (fun _ => Cert.PairLoss.lossFull (Cert.PairLoss.mat (m ((c.tc : Thread _ _).loc Cert.ReferenceIdeal.main_arg0))) (Cert.PairLoss.mat (m ((c.tc : Thread _ _).loc Cert.ReferenceIdeal.main_arg1))))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1) :=
  (θ_run _ _ _).mono
    (fun _ h c => ⟨(h c).1.trans ((val_main_v49_eq (F := Ideal) _ _).trans (ref_term_eq _ _)), (h c).2⟩)
    (Cert.ReferenceIdeal.Value.run (F := Ideal) m ρ)

end Cert.ReferenceIdeal.RefValue

end
-- ==== Proof.FiniteIn.lean ====
/-
  Finiteness from the precondition: all(|x| < +∞) and all(|y| < +∞), each an and-reduction of the element tests over
  both axes, say that every entry of the two argument matrices is a real number — an extended real whose absolute
  value max(x, −x) is below +∞ is neither infinity.
-/
import proofs.«110430_j65850438582800_2_alg».proof.Pre_finite_inputs
import proofs.«110430_j65850438582800_2_alg».proof.Proof.Spec
import Idealize.ShloMosaic.Lib.ReduceAll
import Idealize.ShloMosaic.Lib.Pipeline.Value
import Idealize.ShloMosaic.Lib.ValueIdx
import Idealize.ShloMosaic.PureOps.Ideal.Laws

noncomputable section

namespace Cert.PairLoss

open Idealize.ShloMosaic Idealize.ShloMosaic.ValueIdx

/-- An extended real whose absolute value max(x, −x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The element test of the precondition, |x| < +∞ with +∞ as its float word, says x is a real number. -/
theorem real_of_test (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  exact real_of_abs_lt_top x hlt

/-- The scalar shape has one index. -/
instance : Subsingleton Cert.Pre_finite_inputs.S_.Idx := ⟨fun a b => funext fun d => d.elim0⟩

open Cert.Pre_finite_inputs Cert.Pre_finite_inputs.Facts in
/-- One conjunct of the precondition: every entry passes the element test, so every entry is a real number. -/
theorem finite_of_all [Cert.Pre_finite_inputs.Facts] (X : FVec Ideal Cert.Pre_finite_inputs.S8192x512 .f32)
    (e : Host.reduce IntOp.andi
          (cmpf .olt (Host.absf X) (broadcastInDim S8192x512 ![] bcast_S_S8192x512 (constant (F := Ideal) S_ .f32 0x7F800000#32)))
          (constantI S_ 1 1#1) reducesTo_S8192x512_S_d0_1 h_S_ ix0 = 1#1) : Finite (mat X) := by
  intro i k
  have hb : broadcastInDim S8192x512 ![] bcast_S_S8192x512 (constant (F := Ideal) S_ .f32 0x7F800000#32) (ix2 i k)
      = Ideal.ofBits .f32 0x7F800000#32 :=
    broadcastInDim_apply _ bcast_S_S8192x512 _ (ix2 i k) ix0 (fun a => a.elim0)
  have h1 := Host.reduce_andi_all _ _ _ _ _ e (ix2 i k)
  rw [cmpf_apply, hb] at h1
  exact real_of_test _ h1

/-- Under the precondition every entry of the two argument matrices is a real number. -/
theorem finite_of_pre [Cert.Pre_finite_inputs.Facts] (X Y : FVec Ideal Cert.Pre_finite_inputs.S8192x512 .f32)
    (h : Cert.Pre_finite_inputs.fn (F := Ideal) X Y = fun _ => 1#1) : Finite (mat X) ∧ Finite (mat Y) := by
  have h0 := congrFun h ix0
  dsimp only [Cert.Pre_finite_inputs.fn] at h0
  obtain ⟨hx, hy⟩ := IntOp.andi_eq_one.1 h0
  exact ⟨finite_of_all X hx, finite_of_all Y hy⟩

end Cert.PairLoss

end
-- ==== Proof.lean ====
/-
  The certificate's claims.

  Both programs compute, for x, y of 8192 rows and 512 columns, the mean squared distance of corresponding rows plus half the
  sum, over x and over y, of the logarithm of the mean over ordered pairs i ≠ j of exp(−2 · max(|z_i|² + |z_j|² − 2 z_i·z_j, 0)).
  The kernel sums the pairs i ≠ j directly, tile by tile, masking the diagonal; the reference sums every pair and subtracts
  the number of rows, and takes the row distances as squares of square roots. On finite inputs the diagonal terms are
  exp 0 = 1 and every term is a real number, so the two sums agree; the square of the square root of a sum of squares is the
  sum. The frames: each program runs to the end and leaves its arguments as launched.
-/
import proofs.«110430_j65850438582800_2_alg».proof.Defs
import proofs.«110430_j65850438582800_2_alg».proof.Proof.Gen.Kernel
import proofs.«110430_j65850438582800_2_alg».proof.Proof.Gen.Kernel.Skeleton
import proofs.«110430_j65850438582800_2_alg».proof.Proof.Gen.Kernel.Launch
import proofs.«110430_j65850438582800_2_alg».proof.Proof.Gen.Kernel.Regions
import proofs.«110430_j65850438582800_2_alg».proof.Proof.Gen.Kernel.Points
import proofs.«110430_j65850438582800_2_alg».proof.Proof.Gen.KernelIdeal
import proofs.«110430_j65850438582800_2_alg».proof.Proof.Gen.KernelIdeal.Skeleton
import proofs.«110430_j65850438582800_2_alg».proof.Proof.Gen.KernelIdeal.Launch
import proofs.«110430_j65850438582800_2_alg».proof.Proof.Gen.KernelIdeal.Regions
import proofs.«110430_j65850438582800_2_alg».proof.Proof.Gen.KernelIdeal.Points
import proofs.«110430_j65850438582800_2_alg».proof.Proof.Gen.ReferenceIdeal
import proofs.«110430_j65850438582800_2_alg».proof.Proof.Gen.ReferenceIdeal.Run
import proofs.«110430_j65850438582800_2_alg».proof.Proof.Gen.ReferenceIdeal.Read
import proofs.«110430_j65850438582800_2_alg».proof.Proof.Gen.Pre_finite_inputs
import proofs.«110430_j65850438582800_2_alg».proof.Proof.KFrame
import proofs.«110430_j65850438582800_2_alg».proof.Proof.KIFrame
import proofs.«110430_j65850438582800_2_alg».proof.Proof.KIClaim
import proofs.«110430_j65850438582800_2_alg».proof.Proof.RefValue
import proofs.«110430_j65850438582800_2_alg».proof.Proof.FiniteIn
import proofs.«110430_j65850438582800_2_alg».proof.Proof.SpecLaws
import Idealize.ShloMosaic.Adequacy
import Idealize.ShloMosaic.Init

noncomputable section

namespace Cert.Proof

open Idealize.ShloMosaic Idealize.ShloMosaic.TcCoe Idealize.SL.Sem Cert.PairLoss

/-- The word-level kernel program runs to the end and leaves both arguments as launched. -/
theorem frame_k : Cert.frame_Kernel := fun m ρ _ => Cert.Kernel.Fr.frame m ρ
/-- So does the idealized kernel program. -/
theorem frame_ki : Cert.frame_KernelIdeal := fun m ρ _ => Cert.KernelIdeal.Fr.frame m ρ
/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The idealization rewrote nothing. -/
theorem preserves : Cert.preserves_Kernel_KernelIdeal := trivial

/-- On finite inputs the kernel's masked loss and the reference's full loss are one extended real. -/
theorem algebraic : Cert.algebraic_KernelIdeal_ReferenceIdeal := by
  intro m ρ m' ρ' hpre hagree
  have hfin := fun c => finite_of_pre _ _ (hpre c)
  refine ⟨fun c _ => lossMasked (mat (m ((c.tc : Thread Cert.KernelIdeal.nD Cert.KernelIdeal.τ).loc Cert.KernelIdeal.main_arg0)))
      (mat (m ((c.tc : Thread Cert.KernelIdeal.nD Cert.KernelIdeal.τ).loc Cert.KernelIdeal.main_arg1))), ?_, ?_⟩
  · refine (θ_run (Cert.KernelIdeal.defs (F := Ideal)) _ _).mono (fun r h c => ⟨?_, ?_, ?_⟩) (Cert.KernelIdeal.Fr.run_all (F := Ideal) m ρ)
    · exact (h c _ (Cert.KernelIdeal.Fr.mem_uc Cert.KernelIdeal.main_v26 (by decide))).trans (Cert.KernelIdeal.Fr.kernel_value m c)
    · exact (h c _ (Cert.KernelIdeal.Fr.mem_uc Cert.KernelIdeal.main_arg0 (by decide))).trans (Cert.KernelIdeal.Gen.V5_main_arg0 m _ c)
    · exact (h c _ (Cert.KernelIdeal.Fr.mem_uc Cert.KernelIdeal.main_arg1 (by decide))).trans (Cert.KernelIdeal.Gen.V5_main_arg1 m _ c)
  · refine (θ_run (Cert.ReferenceIdeal.defs (F := Ideal)) _ _).mono (fun r h c => ⟨(h c).1.trans ?_, (h c).2⟩)
      (Cert.ReferenceIdeal.RefValue.run_spec m' ρ')
    rw [(hagree c).1, (hagree c).2]
    funext _
    exact lossFull_eq_lossMasked _ _ (hfin c).1 (hfin c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
